-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x64 : Shape := ⟨2, ![512, 64]⟩
abbrev S1x512x64 : Shape := ⟨3, ![1, 512, 64]⟩
abbrev S64 : Shape := ⟨1, ![64]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S1x512x64 : S_.BroadcastsInDim S1x512x64 (![] : Fin 0 → Fin S1x512x64.rank)
  reducesTo_S1x512x64_S_d0_1_2 : S1x512x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S64x1024x512 .f32) (main_arg1 : FVec F S512x64 .f32) (main_arg2 : FVec F S1x512x64 .f32) (main_arg3 : FVec F S64 .f32) (main_arg4 : FVec F S64 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S1x512x64 .f32 := Host.absf main_arg2
  let main_cst_2 : FVec F S_ .f32 := constant S_ .f32 0x7F800000#32
  let main_v10 : FVec F S1x512x64 .f32 := broadcastInDim S1x512x64 ![] bcast_S_S1x512x64 main_cst_2
  let main_v11 : IVec S1x512x64 1 := cmpf .olt main_v9 main_v10
  let main_c_3 : IVec S_ 1 := constantI S_ 1 1#1
  let main_v12 : IVec S_ 1 := (fun x v => Host.reduce IntOp.andi x v reducesTo_S1x512x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S64x1024x512 : Shape := ⟨3, ![64, 1024, 512]⟩
abbrev S512x64 : Shape := ⟨2, ![512, 64]⟩
abbrev S1x512x64 : Shape := ⟨3, ![1, 512, 64]⟩
abbrev S64 : Shape := ⟨1, ![64]⟩
abbrev S65536x512 : Shape := ⟨2, ![65536, 512]⟩
abbrev S16x64 : Shape := ⟨2, ![16, 64]⟩
abbrev S4096x512 : Shape := ⟨2, ![4096, 512]⟩
abbrev S8x64 : Shape := ⟨2, ![8, 64]⟩
abbrev S4096x64 : Shape := ⟨2, ![4096, 64]⟩
abbrev S1x64 : Shape := ⟨2, ![1, 64]⟩
abbrev S_ : Shape := ⟨0, ![]⟩
abbrev S64x512x64 : Shape := ⟨3, ![64, 512, 64]⟩
abbrev S1x1024x512 : Shape := ⟨3, ![1, 1024, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x32768 : Shape := ⟨2, ![64, 32768]⟩

abbrev nBuf : Space → Nat
  | .hbm => 36
  | .vmem => 15
  | .smem => 0
  | _ => 0

abbrev bufTy : (tb : Table) → Fin (tcTables nBuf tb) → BufTy
  | .hbm, ⟨0, _⟩ => ⟨S64x1024x512, .f32⟩
  | .hbm, ⟨1, _⟩ => ⟨S512x64, .f32⟩
  | .hbm, ⟨2, _⟩ => ⟨S1x512x64, .f32⟩
  | .hbm, ⟨3, _⟩ => ⟨S64, .f32⟩
  | .hbm, ⟨4, _⟩ => ⟨S64, .f32⟩
  | .hbm, ⟨5, _⟩ => ⟨S512x64, .f32⟩
  | .hbm, ⟨6, _⟩ => ⟨S65536x512, .f32⟩
  | .hbm, ⟨7, _⟩ => ⟨S16x64, .f32⟩
  | .hbm, ⟨8, _⟩ => ⟨S16x64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64x512x64, .f32⟩
  | .hbm, ⟨35, _⟩ => ⟨S64x32768, .f32⟩
  | .local _ .vmem, ⟨0, _⟩ => ⟨S4096x512, .f32⟩
  | .local _ .vmem, ⟨1, _⟩ => ⟨S4096x512, .f32⟩
  | .local _ .vmem, ⟨2, _⟩ => ⟨S512x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S1x1024x512, .f32⟩
  | .local _ .vmem, ⟨8, _⟩ => ⟨S1x1024x512, .f32⟩
  | .local _ .vmem, ⟨9, _⟩ => ⟨S512x64, .f32⟩
  | .local _ .vmem, ⟨10, _⟩ => ⟨S512x64, .f32⟩
  | .local _ .vmem, ⟨11, _⟩ => ⟨S64, .f32⟩
  | .local _ .vmem, ⟨12, _⟩ => ⟨S64, .f32⟩
  | .local _ .vmem, ⟨13, _⟩ => ⟨S1x512x64, .f32⟩
  | .local _ .vmem, ⟨14, _⟩ => ⟨S1x512x64, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1x512x64_S512x64 : S1x512x64.ShapeCasts S512x64
  shapeCasts_S64x1024x512_S65536x512 : S64x1024x512.ShapeCasts S65536x512
  inb_S8x64_S8x64_0_0 : ∀ a, (![0, 0] : Fin 2 → Nat) a + S8x64.size a ≤ S8x64.size a
  h_S8x64 : 0 < S8x64.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  reduces_S4096x64_S64 : S4096x64.Reduces [0] S64
  shapeCasts_S64_S1x64 : S64.ShapeCasts S1x64
  shapeCasts_S8x64_S8x64 : S8x64.ShapeCasts S8x64
  shapeCasts_S1x64_S1x64 : S1x64.ShapeCasts S1x64
  broadcasts_S1x64_S8x64 : S1x64.Broadcasts S8x64
  slices_S16x64_S1x64_0_0 : S16x64.Slices ![0, 0] S1x64
  shapeCasts_S1x64_S64 : S1x64.ShapeCasts S64
  slices_S16x64_S1x64_8_0 : S16x64.Slices ![8, 0] S1x64
  bcast_S_S64 : S_.BroadcastsInDim S64 (![] : Fin 0 → Fin S64.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S64_S64_0 : ∀ a, (![0] : Fin 1 → Nat) a + S64.size a ≤ S64.size a
  h_S64 : 0 < S64.numel
  shapeCasts_S64_S64 : S64.ShapeCasts S64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  reduces_S1024x64_S64 : S1024x64.Reduces [0] S64
  shapeCasts_S512x64_S512x64 : S512x64.ShapeCasts S512x64
  broadcasts_S1x64_S512x64 : S1x64.Broadcasts S512x64
  reduces_S512x64_S512 : S512x64.Reduces [1] S512
  shapeCasts_S512_S512x1 : S512.ShapeCasts S512x1
  reduces_S512x1_S1 : S512x1.Reduces [0] S1
  shapeCasts_S1_S1x1 : S1.ShapeCasts S1x1
  broadcasts_S1x1_S512x64 : S1x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S512x64_S1x512x64 : S512x64.ShapeCasts S1x512x64
  shapeCasts_S64x512x64_S64x32768 : S64x512x64.ShapeCasts S64x32768
  dot_S4096x512_S512x64_S4096x64_1_0_0_1_n_n_wf : DotDims.WF S4096x512 S512x64 S4096x64 [1] [0] [0] [1] [] []
  dot_S1024x512_S512x64_S1024x64_1_0_0_1_n_n_wf : DotDims.WF S1024x512 S512x64 S1024x64 [1] [0] [0] [1] [] []
  dot_S1024x512_S1024x64_S512x64_0_0_1_1_n_n_wf : DotDims.WF S1024x512 S1024x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S16x64.size a
  hwx0_2 : ∀ i : grid0.Coords, EltTy.bits .f32 = 32 ∨ (Rect.block (s := S16x64) S8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S16x64.size a
  hwx0_3 : ∀ i : grid0.Coords, EltTy.bits .f32 = 32 ∨ (Rect.block (s := S16x64) S8x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S64x1024x512.size a
  hwx1_0 : ∀ i : grid1.Coords, EltTy.bits .f32 = 32 ∨ (Rect.block (s := S64x1024x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S512x64.size a
  hwx1_2 : ∀ i : grid1.Coords, EltTy.bits .f32 = 32 ∨ (Rect.block (s := S512x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x64.size a ≤ S64x512x64.size a
  hwx1_5 : ∀ i : grid1.Coords, EltTy.bits .f32 = 32 ∨ (Rect.block (s := S64x512x64) S1x512x64.size (cc1_transform_5 i) (hinb1_5 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S1024x64_S512x64_0_0_1_1_n_n : DotDims S1024x512 S1024x64 S512x64 where
  lhsContracting := [0]
  rhsContracting := [0]
  lhsNonContracting := [1]
  rhsNonContracting := [1]
  lhsBatch := []
  rhsBatch := []
  wf := dot_S1024x512_S1024x64_S512x64_0_0_1_1_n_n_wf

abbrev win0_0 : Pipeline.Window sig grid0 :=
  Pipeline.Window.ofSpec (Memref.whole main_v1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x1024x512 : Shape := ⟨3, ![64, 1024, 512]⟩
abbrev S512x64 : Shape := ⟨2, ![512, 64]⟩
abbrev S1x512x64 : Shape := ⟨3, ![1, 512, 64]⟩
abbrev S64 : Shape := ⟨1, ![64]⟩
abbrev S65536x512 : Shape := ⟨2, ![65536, 512]⟩
abbrev S65536x64 : Shape := ⟨2, ![65536, 64]⟩
abbrev S_ : Shape := ⟨0, ![]⟩
abbrev S1x64 : Shape := ⟨2, ![1, 64]⟩
abbrev S65536 : Shape := ⟨1, ![65536]⟩
abbrev S65536x1 : Shape := ⟨2, ![65536, 1]⟩
abbrev S64x1024x64 : Shape := ⟨3, ![64, 1024, 64]⟩
abbrev S64x64 : Shape := ⟨2, ![64, 64]⟩
abbrev S64x1x64 : Shape := ⟨3, ![64, 1, 64]⟩
abbrev S64x512x64 : Shape := ⟨3, ![64, 512, 64]⟩
abbrev S64x32768 : Shape := ⟨2, ![64, 32768]⟩
abbrev S64x1 : Shape := ⟨2, ![64, 1]⟩

abbrev nBuf : Space → Nat
  | .hbm => 85
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x64, .f32⟩
  | .hbm, ⟨2, _⟩ => ⟨S1x512x64, .f32⟩
  | .hbm, ⟨3, _⟩ => ⟨S64, .f32⟩
  | .hbm, ⟨4, _⟩ => ⟨S64, .f32⟩
  | .hbm, ⟨5, _⟩ => ⟨S65536x512, .f32⟩
  | .hbm, ⟨6, _⟩ => ⟨S65536x64, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S_, .f32⟩
  | .hbm, ⟨14, _⟩ => ⟨S64, .f32⟩
  | .hbm, ⟨15, _⟩ => ⟨S1x64, .f32⟩
  | .hbm, ⟨16, _⟩ => ⟨S_, .f32⟩
  | .hbm, ⟨17, _⟩ => ⟨S1x64, .f32⟩
  | .hbm, ⟨18, _⟩ => ⟨S1x64, .f32⟩
  | .hbm, ⟨19, _⟩ => ⟨S65536x64, .f32⟩
  | .hbm, ⟨20, _⟩ => ⟨S65536x64, .f32⟩
  | .hbm, ⟨21, _⟩ => ⟨S65536x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S65536x64, .f32⟩
  | .hbm, ⟨37, _⟩ => ⟨S65536x64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S65536x64, .f32⟩
  | .hbm, ⟨44, _⟩ => ⟨S65536x64, .f32⟩
  | .hbm, ⟨45, _⟩ => ⟨S1x64, .f32⟩
  | .hbm, ⟨46, _⟩ => ⟨S65536x64, .f32⟩
  | .hbm, ⟨47, _⟩ => ⟨S65536x64, .f32⟩
  | .hbm, ⟨48, _⟩ => ⟨S1x64, .f32⟩
  | .hbm, ⟨49, _⟩ => ⟨S65536x64, .f32⟩
  | .hbm, ⟨50, _⟩ => ⟨S65536x64, .f32⟩
  | .hbm, ⟨51, _⟩ => ⟨S_, .f32⟩
  | .hbm, ⟨52, _⟩ => ⟨S65536, .f32⟩
  | .hbm, ⟨53, _⟩ => ⟨S_, .f32⟩
  | .hbm, ⟨54, _⟩ => ⟨S65536, .f32⟩
  | .hbm, ⟨55, _⟩ => ⟨S65536, .f32⟩
  | .hbm, ⟨56, _⟩ => ⟨S65536x1, .f32⟩
  | .hbm, ⟨57, _⟩ => ⟨S65536x64, .f32⟩
  | .hbm, ⟨58, _⟩ => ⟨S65536x64, .f32⟩
  | .hbm, ⟨59, _⟩ => ⟨S65536x64, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S65536x64, .f32⟩
  | .hbm, ⟨64, _⟩ => ⟨S65536x64, .f32⟩
  | .hbm, ⟨65, _⟩ => ⟨S64x1024x64, .f32⟩
  | .hbm, ⟨66, _⟩ => ⟨S_, .f32⟩
  | .hbm, ⟨67, _⟩ => ⟨S64x64, .f32⟩
  | .hbm, ⟨68, _⟩ => ⟨S64x1x64, .f32⟩
  | .hbm, ⟨69, _⟩ => ⟨S64x512x64, .f32⟩
  | .hbm, ⟨70, _⟩ => ⟨S64x512x64, .f32⟩
  | .hbm, ⟨71, _⟩ => ⟨S64x512x64, .f32⟩
  | .hbm, ⟨72, _⟩ => ⟨S64x512x64, .f32⟩
  | .hbm, ⟨73, _⟩ => ⟨S64x512x64, .f32⟩
  | .hbm, ⟨74, _⟩ => ⟨S64x32768, .f32⟩
  | .hbm, ⟨75, _⟩ => ⟨S64x32768, .f32⟩
  | .hbm, ⟨76, _⟩ => ⟨S_, .f32⟩
  | .hbm, ⟨77, _⟩ => ⟨S64, .f32⟩
  | .hbm, ⟨78, _⟩ => ⟨S64x1, .f32⟩
  | .hbm, ⟨79, _⟩ => ⟨S64x1, .f32⟩
  | .hbm, ⟨80, _⟩ => ⟨S_, .f32⟩
  | .hbm, ⟨81, _⟩ => ⟨S64x1, .f32⟩
  | .hbm, ⟨82, _⟩ => ⟨S64x1, .f32⟩
  | .hbm, ⟨83, _⟩ => ⟨S64x32768, .f32⟩
  | .hbm, ⟨84, _⟩ => ⟨S64x32768, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call1_v0 : Ref sig .tc := ⟨.hbm, 75, rfl⟩
abbrev main_call1_cst : Ref sig .tc := ⟨.hbm, 76, rfl⟩
abbrev main_call1_v1 : Ref sig .tc := ⟨.hbm, 77, rfl⟩
abbrev main_call1_v2 : Ref sig .tc := ⟨.hbm, 78, rfl⟩
abbrev main_v41 : Ref sig .tc := ⟨.hbm, 79, rfl⟩
abbrev main_cst_6 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩

abbrev nD : Nat := 1
abbrev τ : Topo := Topo.v7x

variable {F : FTy → Type} [FloatOps F]

class Facts₀ : Prop where
  shapeCasts_S64x1024x512_S65536x512 : S64x1024x512.ShapeCasts S65536x512
  reducesTo_S65536x64_S64_d0 : S65536x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S65536x64_0_1 : S1x64.BroadcastsInDim S65536x64 (![0, 1] : Fin 2 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x64_S64x1024x64 : S65536x64.ShapeCasts S64x1024x64
  reducesTo_S64x1024x64_S64x64_d1 : S64x1024x64.ReducesTo [1] S64x64
  bcast_S64x64_S64x1x64_0_2 : S64x64.BroadcastsInDim S64x1x64 (![0, 2] : Fin 2 → Fin S64x1x64.rank)
  bcast_S64x1x64_S64x512x64_0_1_2 : S64x1x64.BroadcastsInDim S64x512x64 (![0, 1, 2] : Fin 3 → Fin S64x512x64.rank)
  bcast_S1x512x64_S64x512x64_0_1_2 : S1x512x64.BroadcastsInDim S64x512x64 (![0, 1, 2] : Fin 3 → Fin S64x512x64.rank)
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S65536x512_S512x64_S65536x64_1_0_0_1_n_n_wf : DotDims.WF S65536x512 S512x64 S65536x64 [1] [0] [0] [1] [] []
  dot_S64x1024x512_S64x1024x64_S64x512x64_1_1_2_2_0_0_wf : DotDims.WF S64x1024x512 S64x1024x64 S64x512x64 [1] [1] [2] [2] [0] [0]

variable [Facts₀]

def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf
def dot_S64x1024x512_S64x1024x64_S64x512x64_1_1_2_2_0_0 : DotDims S64x1024x512 S64x1024x64 S64x512x64 where
  lhsContracting := [1]
  rhsContracting := [1]
  lhsNonContracting := [2]
  rhsNonContracting := [2]
  lhsBatch := [0]
  rhsBatch := [0]
  wf := dot_S64x1024x512_S64x1024x64_S64x512x64_1_1_2_2_0_0_wf

class Facts : Prop extends Facts₀ where

variable [Facts]
-- ==== Proof.RefTerm.lean ====
/-
  The reference's arithmetic as one term of its five argument arrays, in named stages: the assignment matrix (the
  flattened descriptors times the cluster matrix), its column means and biased column variances (the variance by the
  mean of squared deviations, guarded by a count that is positive), the centred batch normalisation, the row softmax,
  the per-batch residuals flattened to [64, 32768], and their division by the row norms bounded below.
-/
import proofs.«150116_j36146444763171_2_alg».proof.Proof.Gen.ReferenceIdeal
import Idealize.ShloMosaic.PureOps.Ideal

noncomputable section

namespace Cert.ReferenceIdeal.RefValue

open Cert.ReferenceIdeal Idealize.ShloMosaic Facts₀

abbrev zeroS : FVec Ideal S_ .f32 := constant (F := Ideal) S_ .f32 0x00000000#32
abbrev rowsS : FVec Ideal S_ .f32 := constant (F := Ideal) S_ .f32 0x47800000#32
abbrev ninfS : FVec Ideal S_ .f32 := constant (F := Ideal) S_ .f32 0xFF800000#32

/-- A vector [64] as a row [1, 64] spread over the 65536 rows. -/
def bcRow (v : FVec Ideal S64 .f32) : FVec Ideal S65536x64 .f32 :=
  broadcastInDim S65536x64 ![0, 1] bcast_S1x64_S65536x64_0_1 (broadcastInDim S1x64 ![1] bcast_S64_S1x64_1 v)

/-- A vector [65536] as a column [65536, 1] spread over the 64 lanes. -/
def bcCol (v : FVec Ideal S65536 .f32) : FVec Ideal S65536x64 .f32 :=
  broadcastInDim S65536x64 ![0, 1] bcast_S65536x1_S65536x64_0_1 (broadcastInDim S65536x1 ![0] bcast_S65536_S65536x1_0 v)

/-- The assignment matrix: the flattened descriptors times the cluster matrix. -/
def assign (X : FVec Ideal S64x1024x512 .f32) (C : FVec Ideal S512x64 .f32) : FVec Ideal S65536x64 .f32 :=
  Host.dotGeneral (F := Ideal) dot_S65536x512_S512x64_S65536x64_1_0_0_1_n_n none
    (shapeCast S65536x512 X shapeCasts_S64x1024x512_S65536x512) C

/-- The column sums. -/
def colSum (A : FVec Ideal S65536x64 .f32) : FVec Ideal S64 .f32 :=
  Host.reduceAdd (F := Ideal) A zeroS reducesTo_S65536x64_S64_d0 h_S_

/-- The column means. -/
def meanT (A : FVec Ideal S65536x64 .f32) : FVec Ideal S64 .f32 :=
  Host.divf (F := Ideal) (colSum A) (broadcastInDim S64 ![] bcast_S_S64 rowsS)

/-- The count the variance divides by: the number of rows minus zero degrees of freedom. -/
def countS : FVec Ideal S_ .f32 := subf rowsS (sitofp .f32 (constantI S_ 32 0#32))

/-- The deviations from the column means (the means computed on a [1, 64] row). -/
def devT (A : FVec Ideal S65536x64 .f32) : FVec Ideal S65536x64 .f32 :=
  subf A (broadcastInDim S65536x64 ![0, 1] bcast_S1x64_S65536x64_0_1
    (Host.divf (F := Ideal) (broadcastInDim S1x64 ![1] bcast_S64_S1x64_1 (colSum A)) (broadcastInDim S1x64 ![] bcast_S_S1x64 rowsS)))

/-- The biased column variances, selected when the count is positive. -/
def varT (A : FVec Ideal S65536x64 .f32) : FVec Ideal S64 .f32 :=
  select (broadcastInDim S64 ![] bcast_S_S64 (cmpf .ogt countS zeroS))
    (Host.divf (F := Ideal) (colSum (mulf (devT A) (devT A))) (broadcastInDim S64 ![] bcast_S_S64 countS))
    (broadcastInDim S64 ![] bcast_S_S64 (id (constant (F := Ideal) S_ .f32 0x7FC00000#32)))

/-- The centred batch normalisation. -/
def nrmT (A : FVec Ideal S65536x64 .f32) (G B : FVec Ideal S64 .f32) : FVec Ideal S65536x64 .f32 :=
  addf (mulf (mulf (subf A (bcRow (meanT A)))
      (bcRow (Host.rsqrt (F := Ideal) (addf (varT A) (broadcastInDim S64 ![] bcast_S_S64 (constant (F := Ideal) S_ .f32 0x3727C5AC#32))))))
    (bcRow G)) (bcRow B)

/-- The shifted exponentials of the row softmax. -/
def expT (N : FVec Ideal S65536x64 .f32) : FVec Ideal S65536x64 .f32 :=
  Host.exp (F := Ideal) (subf N (bcCol (maximumf (broadcastInDim S65536 ![] bcast_S_S65536 ninfS)
    (Host.reduce (FloatOps.maximumf (F := Ideal)) N ninfS reducesTo_S65536x64_S65536_d1 h_S_))))

/-- The row softmax. -/
def softT (N : FVec Ideal S65536x64 .f32) : FVec Ideal S65536x64 .f32 :=
  Host.divf (F := Ideal) (expT N) (bcCol (Host.reduceAdd (F := Ideal) (expT N) zeroS reducesTo_S65536x64_S65536_d1 h_S_))

/-- The residuals per batch, flattened to [64, 32768]. -/
def residT (X : FVec Ideal S64x1024x512 .f32) (C2 : FVec Ideal S1x512x64 .f32) (S : FVec Ideal S65536x64 .f32) :
    FVec Ideal S64x32768 .f32 :=
  shapeCast S64x32768
    (subf (Host.dotGeneral (F := Ideal) dot_S64x1024x512_S64x1024x64_S64x512x64_1_1_2_2_0_0 none X
        (shapeCast S64x1024x64 S shapeCasts_S65536x64_S64x1024x64))
      (mulf (broadcastInDim S64x512x64 ![0, 1, 2] bcast_S64x1x64_S64x512x64_0_1_2
          (broadcastInDim S64x1x64 ![0, 2] bcast_S64x64_S64x1x64_0_2
            (Host.reduceAdd (F := Ideal) (shapeCast S64x1024x64 S shapeCasts_S65536x64_S64x1024x64) zeroS
              reducesTo_S64x1024x64_S64x64_d1 h_S_)))
        (broadcastInDim S64x512x64 ![0, 1, 2] bcast_S1x512x64_S64x512x64_0_1_2 C2)))
    shapeCasts_S64x512x64_S64x32768

/-- Each row divided by its Euclidean norm bounded below. -/
def normT (V : FVec Ideal S64x32768 .f32) : FVec Ideal S64x32768 .f32 :=
  Host.divf (F := Ideal) V (broadcastInDim S64x32768 ![0, 1] bcast_S64x1_S64x32768_0_1
    (maximumf (Host.sqrt (F := Ideal) (broadcastInDim S64x1 ![0] bcast_S64_S64x1_0
        (Host.reduceAdd (F := Ideal) (mulf V V) zeroS reducesTo_S64x32768_S64_d1 h_S_)))
      (broadcastInDim S64x1 ![] bcast_S_S64x1 (constant (F := Ideal) S_ .f32 0x322BCC77#32))))

/-- The reference's result as one term of its arguments. -/
def refTerm (X : FVec Ideal S64x1024x512 .f32) (C : FVec Ideal S512x64 .f32) (C2 : FVec Ideal S1x512x64 .f32)
    (G B : FVec Ideal S64 .f32) : FVec Ideal S64x32768 .f32 :=
  normT (residT X C2 (softT (nrmT (assign X C) G B)))

end Cert.ReferenceIdeal.RefValue

end
-- ==== Proof.RefRun.lean ====
/-
  The reference program as a straight line of host operations, the three functions it calls written out at their
  call sites over the calls' own buffers, and its run read back: every execution ends with the result buffer at the
  staged term of the argument arrays and the arguments unchanged.
-/
import proofs.«150116_j36146444763171_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

/-- The program's 80 operations in order: the variance function's twenty (with the three of the selection it
    calls) after the first eight, the norm function's five before the last five. -/
abbrev ops : List (HloOp τ sig (Elt F)) :=
  [
    reshape main_arg0 main_v0 rfl shapeCasts_S64x1024x512_S65536x512,
    binary main_v0 main_arg1 main_v1 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst (constant S_ .f32 0x00000000#32),
    binary main_v1 main_cst main_v2 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    nullary main_cst_0 (constant S_ .f32 0x47800000#32),
    unary main_cst_0 main_v3 (broadcastInDim S64 ![] bcast_S_S64 : (⟨S_, .f32⟩ : BufTy).Contents (Elt F) → (⟨S64, .f32⟩ : BufTy).Contents (Elt F)),
    binary main_v2 main_v3 main_v4 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v1) main_call0.cst main_call0.v0 (fun x v => Host.reduceAdd x v reducesTo_S65536x64_S64_d0 h_S_),
    TRef.unary main_call0.v0 main_call0.v1 (broadcastInDim S1x64 ![1] bcast_S64_S1x64_1),
    TRef.nullary main_call0.cst_0 (constant S_ .f32 0x47800000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S65536x64 ![0, 1] bcast_S1x64_S65536x64_0_1),
    TRef.binary (.of main_v1) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S65536x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v4 main_v6 (broadcastInDim S1x64 ![1] bcast_S64_S1x64_1 : (⟨S64, .f32⟩ : BufTy).Contents (Elt F) → (⟨S1x64, .f32⟩ : BufTy).Contents (Elt F)),
    unary main_v6 main_v7 (broadcastInDim S65536x64 ![0, 1] bcast_S1x64_S65536x64_0_1 : (⟨S1x64, .f32⟩ : BufTy).Contents (Elt F) → (⟨S65536x64, .f32⟩ : BufTy).Contents (Elt F)),
    binary main_v1 main_v7 main_v8 (subf : (⟨S65536x64, .f32⟩ : BufTy).Contents (Elt F) → (⟨S65536x64, .f32⟩ : BufTy).Contents (Elt F) → (⟨S65536x64, .f32⟩ : BufTy).Contents (Elt F)),
    nullary main_cst_1 (constant S_ .f32 0x3727C5AC#32),
    unary main_cst_1 main_v9 (broadcastInDim S64 ![] bcast_S_S64 : (⟨S_, .f32⟩ : BufTy).Contents (Elt F) → (⟨S64, .f32⟩ : BufTy).Contents (Elt F)),
    binary main_v5 main_v9 main_v10 (addf : (⟨S64, .f32⟩ : BufTy).Contents (Elt F) → (⟨S64, .f32⟩ : BufTy).Contents (Elt F) → (⟨S64, .f32⟩ : BufTy).Contents (Elt F)),
    unary main_v10 main_v11 (Host.rsqrt : (⟨S64, .f32⟩ : BufTy).Contents (Elt F) → (⟨S64, .f32⟩ : BufTy).Contents (Elt F)),
    unary main_v11 main_v12 (broadcastInDim S1x64 ![1] bcast_S64_S1x64_1 : (⟨S64, .f32⟩ : BufTy).Contents (Elt F) → (⟨S1x64, .f32⟩ : BufTy).Contents (Elt F)),
    unary main_v12 main_v13 (broadcastInDim S65536x64 ![0, 1] bcast_S1x64_S65536x64_0_1 : (⟨S1x64, .f32⟩ : BufTy).Contents (Elt F) → (⟨S65536x64, .f32⟩ : BufTy).Contents (Elt F)),
    binary main_v8 main_v13 main_v14 (mulf : (⟨S65536x64, .f32⟩ : BufTy).Contents (Elt F) → (⟨S65536x64, .f32⟩ : BufTy).Contents (Elt F) → (⟨S65536x64, .f32⟩ : BufTy).Contents (Elt F)),
    unary main_arg3 main_v15 (broadcastInDim S1x64 ![1] bcast_S64_S1x64_1 : (⟨S64, .f32⟩ : BufTy).Contents (Elt F) → (⟨S1x64, .f32⟩ : BufTy).Contents (Elt F)),
    unary main_v15 main_v16 (broadcastInDim S65536x64 ![0, 1] bcast_S1x64_S65536x64_0_1 : (⟨S1x64, .f32⟩ : BufTy).Contents (Elt F) → (⟨S65536x64, .f32⟩ : BufTy).Contents (Elt F)),
    binary main_v14 main_v16 main_v17 (mulf : (⟨S65536x64, .f32⟩ : BufTy).Contents (Elt F) → (⟨S65536x64, .f32⟩ : BufTy).Contents (Elt F) → (⟨S65536x64, .f32⟩ : BufTy).Contents (Elt F)),
    unary main_arg4 main_v18 (broadcastInDim S1x64 ![1] bcast_S64_S1x64_1 : (⟨S64, .f32⟩ : BufTy).Contents (Elt F) → (⟨S1x64, .f32⟩ : BufTy).Contents (Elt F)),
    unary main_v18 main_v19 (broadcastInDim S65536x64 ![0, 1] bcast_S1x64_S65536x64_0_1 : (⟨S1x64, .f32⟩ : BufTy).Contents (Elt F) → (⟨S65536x64, .f32⟩ : BufTy).Contents (Elt F)),
    binary main_v17 main_v19 main_v20 (addf : (⟨S65536x64, .f32⟩ : BufTy).Contents (Elt F) → (⟨S65536x64, .f32⟩ : BufTy).Contents (Elt F) → (⟨S65536x64, .f32⟩ : BufTy).Contents (Elt F)),
    nullary main_cst_2 (constant S_ .f32 0xFF800000#32),
    binary main_v20 main_cst_2 main_v21 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    nullary main_cst_3 (constant S_ .f32 0xFF800000#32),
    unary main_cst_3 main_v22 (broadcastInDim S65536 ![] bcast_S_S65536 : (⟨S_, .f32⟩ : BufTy).Contents (Elt F) → (⟨S65536, .f32⟩ : BufTy).Contents (Elt F)),
    binary main_v22 main_v21 main_v23 (maximumf : (⟨S65536, .f32⟩ : BufTy).Contents (Elt F) → (⟨S65536, .f32⟩ : BufTy).Contents (Elt F) → (⟨S65536, .f32⟩ : BufTy).Contents (Elt F)),
    unary main_v23 main_v24 (broadcastInDim S65536x1 ![0] bcast_S65536_S65536x1_0 : (⟨S65536, .f32⟩ : BufTy).Contents (Elt F) → (⟨S65536x1, .f32⟩ : BufTy).Contents (Elt F)),
    unary main_v24 main_v25 (broadcastInDim S65536x64 ![0, 1] bcast_S65536x1_S65536x64_0_1 : (⟨S65536x1, .f32⟩ : BufTy).Contents (Elt F) → (⟨S65536x64, .f32⟩ : BufTy).Contents (Elt F)),
    binary main_v20 main_v25 main_v26 (subf : (⟨S65536x64, .f32⟩ : BufTy).Contents (Elt F) → (⟨S65536x64, .f32⟩ : BufTy).Contents (Elt F) → (⟨S65536x64, .f32⟩ : BufTy).Contents (Elt F)),
    unary main_v26 main_v27 (Host.exp : (⟨S65536x64, .f32⟩ : BufTy).Contents (Elt F) → (⟨S65536x64, .f32⟩ : BufTy).Contents (Elt F)),
    nullary main_cst_4 (constant S_ .f32 0x00000000#32),
    binary main_v27 main_cst_4 main_v28 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v28 main_v29 (broadcastInDim S65536x1 ![0] bcast_S65536_S65536x1_0 : (⟨S65536, .f32⟩ : BufTy).Contents (Elt F) → (⟨S65536x1, .f32⟩ : BufTy).Contents (Elt F)),
    unary main_v29 main_v30 (broadcastInDim S65536x64 ![0, 1] bcast_S65536x1_S65536x64_0_1 : (⟨S65536x1, .f32⟩ : BufTy).Contents (Elt F) → (⟨S65536x64, .f32⟩ : BufTy).Contents (Elt F)),
    binary main_v27 main_v30 main_v31 (Host.divf : (⟨S65536x64, .f32⟩ : BufTy).Contents (Elt F) → (⟨S65536x64, .f32⟩ : BufTy).Contents (Elt F) → (⟨S65536x64, .f32⟩ : BufTy).Contents (Elt F)),
    reshape main_v31 main_v32 rfl shapeCasts_S65536x64_S64x1024x64,
    nullary main_cst_5 (constant S_ .f32 0x00000000#32),
    binary main_v32 main_cst_5 main_v33 ((fun x v => Host.reduceAdd x v reducesTo_S64x1024x64_S64x64_d1 h_S_) : (⟨S64x1024x64, .f32⟩ : BufTy).Contents (Elt F) → (⟨S_, .f32⟩ : BufTy).Contents (Elt F) → (⟨S64x64, .f32⟩ : BufTy).Contents (Elt F)),
    unary main_v33 main_v34 (broadcastInDim S64x1x64 ![0, 2] bcast_S64x64_S64x1x64_0_2 : (⟨S64x64, .f32⟩ : BufTy).Contents (Elt F) → (⟨S64x1x64, .f32⟩ : BufTy).Contents (Elt F)),
    unary main_v34 main_v35 (broadcastInDim S64x512x64 ![0, 1, 2] bcast_S64x1x64_S64x512x64_0_1_2 : (⟨S64x1x64, .f32⟩ : BufTy).Contents (Elt F) → (⟨S64x512x64, .f32⟩ : BufTy).Contents (Elt F)),
    unary main_arg2 main_v36 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v35 main_v36 main_v37 (mulf : (⟨S64x512x64, .f32⟩ : BufTy).Contents (Elt F) → (⟨S64x512x64, .f32⟩ : BufTy).Contents (Elt F) → (⟨S64x512x64, .f32⟩ : BufTy).Contents (Elt F)),
    binary main_arg0 main_v32 main_v38 ((fun l r => Host.dotGeneral dot_S64x1024x512_S64x1024x64_S64x512x64_1_1_2_2_0_0 none l r) : (⟨S64x1024x512, .f32⟩ : BufTy).Contents (Elt F) → (⟨S64x1024x64, .f32⟩ : BufTy).Contents (Elt F) → (⟨S64x512x64, .f32⟩ : BufTy).Contents (Elt F)),
    binary main_v38 main_v37 main_v39 (subf : (⟨S64x512x64, .f32⟩ : BufTy).Contents (Elt F) → (⟨S64x512x64, .f32⟩ : BufTy).Contents (Elt F) → (⟨S64x512x64, .f32⟩ : BufTy).Contents (Elt F)),
    reshape main_v39 main_v40 rfl shapeCasts_S64x512x64_S64x32768,
    TRef.binary (.of main_v40) (.of main_v40) main_call1.v0 mulf,
    TRef.nullary main_call1.cst (constant S_ .f32 0x00000000#32),
    TRef.binary main_call1.v0 main_call1.cst main_call1.v1 (fun x v => Host.reduceAdd x v reducesTo_S64x32768_S64_d1 h_S_),
    TRef.unary main_call1.v1 main_call1.v2 (broadcastInDim S64x1 ![0] bcast_S64_S64x1_0),
    TRef.unary main_call1.v2 main_call1.v3 Host.sqrt,
    nullary main_cst_6 (constant S_ .f32 0x322BCC77#32),
    unary main_cst_6 main_v42 (broadcastInDim S64x1 ![] bcast_S_S64x1 : (⟨S_, .f32⟩ : BufTy).Contents (Elt F) → (⟨S64x1, .f32⟩ : BufTy).Contents (Elt F)),
    binary main_v41 main_v42 main_v43 (maximumf : (⟨S64x1, .f32⟩ : BufTy).Contents (Elt F) → (⟨S64x1, .f32⟩ : BufTy).Contents (Elt F) → (⟨S64x1, .f32⟩ : BufTy).Contents (Elt F)),
    unary main_v43 main_v44 (broadcastInDim S64x32768 ![0, 1] bcast_S64x1_S64x32768_0_1 : (⟨S64x1, .f32⟩ : BufTy).Contents (Elt F) → (⟨S64x32768, .f32⟩ : BufTy).Contents (Elt F)),
    binary main_v40 main_v44 main_v45 (Host.divf : (⟨S64x32768, .f32⟩ : BufTy).Contents (Elt F) → (⟨S64x32768, .f32⟩ : BufTy).Contents (Elt F) → (⟨S64x32768, .f32⟩ : BufTy).Contents (Elt F)) ]

set_option maxRecDepth 8192 in
set_option maxHeartbeats 4000000 in
/-- The program is that straight line: the called functions unfolded at their calls, sequencing re-associated. -/
theorem main_eq (c : Dev nD) : main (F := F) c = seq ops := by
  simp only [main, fn_var.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., nullary_bufs_sub .., binary_bufs_sub .., unary_bufs_sub .., unary_bufs_sub .., unary_bufs_sub .., binary_bufs_sub .., binary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every execution terminates with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefOut.lean ====
/-
  The reference's run read at its result: the fold of its operations at the result buffer is the staged term of the
  argument arrays, and no operation writes an argument.

  The eighty operations are cut into seven consecutive stages, each computing one stage of the staged term from the
  buffers the earlier stages left: the assignment matrix, its column means, its column variances, the centred
  normalisation, the row softmax, the residuals, and the division by the norms.  The fold over a concatenation is the
  folds in turn, so the result buffer is read one stage at a time, each stage over an arbitrary valuation.
-/
import proofs.«150116_j36146444763171_2_alg».proof.Proof.RefRun

noncomputable section

namespace Cert.ReferenceIdeal.RefValue

open Cert.ReferenceIdeal Idealize.ShloMosaic Idealize.ShloMosaic.TcCoe Idealize.SL.Sem Idealize.ShloMosaic.StableHlo
open Facts₀

/-- The fold over a concatenation is the fold over the second line from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

section Stages

variable {F : FTy → Type} [FloatOps F]

/-- The flattening of the descriptors and their product with the cluster matrix. -/
def L1 : List (HloOp τ sig (Elt F)) :=
  [
    reshape main_arg0 main_v0 rfl shapeCasts_S64x1024x512_S65536x512,
    binary main_v0 main_arg1 main_v1 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)) ]

/-- The column sums and their division by the number of rows. -/
def L2 : List (HloOp τ sig (Elt F)) :=
  [
    nullary main_cst (constant S_ .f32 0x00000000#32),
    binary main_v1 main_cst main_v2 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    nullary main_cst_0 (constant S_ .f32 0x47800000#32),
    unary main_cst_0 main_v3 (broadcastInDim S64 ![] bcast_S_S64 : (⟨S_, .f32⟩ : BufTy).Contents (Elt F) → (⟨S64, .f32⟩ : BufTy).Contents (Elt F)),
    binary main_v2 main_v3 main_v4 (Host.divf : (⟨S64, .f32⟩ : BufTy).Contents (Elt F) → (⟨S64, .f32⟩ : BufTy).Contents (Elt F) → (⟨S64, .f32⟩ : BufTy).Contents (Elt F)) ]

/-- The integer zero and the variance function's operations, the selection's three included. -/
def L3 : List (HloOp τ sig (Elt F)) :=
  [
    nullary main_c (constantI S_ 32 0#32),
    TRef.nullary main_call0.cst (constant S_ .f32 0x00000000#32),
    TRef.binary (.of main_v1) main_call0.cst main_call0.v0 (fun x v => Host.reduceAdd x v reducesTo_S65536x64_S64_d0 h_S_),
    TRef.unary main_call0.v0 main_call0.v1 (broadcastInDim S1x64 ![1] bcast_S64_S1x64_1),
    TRef.nullary main_call0.cst_0 (constant S_ .f32 0x47800000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S65536x64 ![0, 1] bcast_S1x64_S65536x64_0_1),
    TRef.binary (.of main_v1) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S65536x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- The centred normalisation: the deviation, the reciprocal root of variance plus epsilon, scale and offset. -/
def L4 : List (HloOp τ sig (Elt F)) :=
  [
    unary main_v4 main_v6 (broadcastInDim S1x64 ![1] bcast_S64_S1x64_1 : (⟨S64, .f32⟩ : BufTy).Contents (Elt F) → (⟨S1x64, .f32⟩ : BufTy).Contents (Elt F)),
    unary main_v6 main_v7 (broadcastInDim S65536x64 ![0, 1] bcast_S1x64_S65536x64_0_1 : (⟨S1x64, .f32⟩ : BufTy).Contents (Elt F) → (⟨S65536x64, .f32⟩ : BufTy).Contents (Elt F)),
    binary main_v1 main_v7 main_v8 (subf : (⟨S65536x64, .f32⟩ : BufTy).Contents (Elt F) → (⟨S65536x64, .f32⟩ : BufTy).Contents (Elt F) → (⟨S65536x64, .f32⟩ : BufTy).Contents (Elt F)),
    nullary main_cst_1 (constant S_ .f32 0x3727C5AC#32),
    unary main_cst_1 main_v9 (broadcastInDim S64 ![] bcast_S_S64 : (⟨S_, .f32⟩ : BufTy).Contents (Elt F) → (⟨S64, .f32⟩ : BufTy).Contents (Elt F)),
    binary main_v5 main_v9 main_v10 (addf : (⟨S64, .f32⟩ : BufTy).Contents (Elt F) → (⟨S64, .f32⟩ : BufTy).Contents (Elt F) → (⟨S64, .f32⟩ : BufTy).Contents (Elt F)),
    unary main_v10 main_v11 (Host.rsqrt : (⟨S64, .f32⟩ : BufTy).Contents (Elt F) → (⟨S64, .f32⟩ : BufTy).Contents (Elt F)),
    unary main_v11 main_v12 (broadcastInDim S1x64 ![1] bcast_S64_S1x64_1 : (⟨S64, .f32⟩ : BufTy).Contents (Elt F) → (⟨S1x64, .f32⟩ : BufTy).Contents (Elt F)),
    unary main_v12 main_v13 (broadcastInDim S65536x64 ![0, 1] bcast_S1x64_S65536x64_0_1 : (⟨S1x64, .f32⟩ : BufTy).Contents (Elt F) → (⟨S65536x64, .f32⟩ : BufTy).Contents (Elt F)),
    binary main_v8 main_v13 main_v14 (mulf : (⟨S65536x64, .f32⟩ : BufTy).Contents (Elt F) → (⟨S65536x64, .f32⟩ : BufTy).Contents (Elt F) → (⟨S65536x64, .f32⟩ : BufTy).Contents (Elt F)),
    unary main_arg3 main_v15 (broadcastInDim S1x64 ![1] bcast_S64_S1x64_1 : (⟨S64, .f32⟩ : BufTy).Contents (Elt F) → (⟨S1x64, .f32⟩ : BufTy).Contents (Elt F)),
    unary main_v15 main_v16 (broadcastInDim S65536x64 ![0, 1] bcast_S1x64_S65536x64_0_1 : (⟨S1x64, .f32⟩ : BufTy).Contents (Elt F) → (⟨S65536x64, .f32⟩ : BufTy).Contents (Elt F)),
    binary main_v14 main_v16 main_v17 (mulf : (⟨S65536x64, .f32⟩ : BufTy).Contents (Elt F) → (⟨S65536x64, .f32⟩ : BufTy).Contents (Elt F) → (⟨S65536x64, .f32⟩ : BufTy).Contents (Elt F)),
    unary main_arg4 main_v18 (broadcastInDim S1x64 ![1] bcast_S64_S1x64_1 : (⟨S64, .f32⟩ : BufTy).Contents (Elt F) → (⟨S1x64, .f32⟩ : BufTy).Contents (Elt F)),
    unary main_v18 main_v19 (broadcastInDim S65536x64 ![0, 1] bcast_S1x64_S65536x64_0_1 : (⟨S1x64, .f32⟩ : BufTy).Contents (Elt F) → (⟨S65536x64, .f32⟩ : BufTy).Contents (Elt F)),
    binary main_v17 main_v19 main_v20 (addf : (⟨S65536x64, .f32⟩ : BufTy).Contents (Elt F) → (⟨S65536x64, .f32⟩ : BufTy).Contents (Elt F) → (⟨S65536x64, .f32⟩ : BufTy).Contents (Elt F)) ]

/-- The row softmax. -/
def L5 : List (HloOp τ sig (Elt F)) :=
  [
    nullary main_cst_2 (constant S_ .f32 0xFF800000#32),
    binary main_v20 main_cst_2 main_v21 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    nullary main_cst_3 (constant S_ .f32 0xFF800000#32),
    unary main_cst_3 main_v22 (broadcastInDim S65536 ![] bcast_S_S65536 : (⟨S_, .f32⟩ : BufTy).Contents (Elt F) → (⟨S65536, .f32⟩ : BufTy).Contents (Elt F)),
    binary main_v22 main_v21 main_v23 (maximumf : (⟨S65536, .f32⟩ : BufTy).Contents (Elt F) → (⟨S65536, .f32⟩ : BufTy).Contents (Elt F) → (⟨S65536, .f32⟩ : BufTy).Contents (Elt F)),
    unary main_v23 main_v24 (broadcastInDim S65536x1 ![0] bcast_S65536_S65536x1_0 : (⟨S65536, .f32⟩ : BufTy).Contents (Elt F) → (⟨S65536x1, .f32⟩ : BufTy).Contents (Elt F)),
    unary main_v24 main_v25 (broadcastInDim S65536x64 ![0, 1] bcast_S65536x1_S65536x64_0_1 : (⟨S65536x1, .f32⟩ : BufTy).Contents (Elt F) → (⟨S65536x64, .f32⟩ : BufTy).Contents (Elt F)),
    binary main_v20 main_v25 main_v26 (subf : (⟨S65536x64, .f32⟩ : BufTy).Contents (Elt F) → (⟨S65536x64, .f32⟩ : BufTy).Contents (Elt F) → (⟨S65536x64, .f32⟩ : BufTy).Contents (Elt F)),
    unary main_v26 main_v27 (Host.exp : (⟨S65536x64, .f32⟩ : BufTy).Contents (Elt F) → (⟨S65536x64, .f32⟩ : BufTy).Contents (Elt F)),
    nullary main_cst_4 (constant S_ .f32 0x00000000#32),
    binary main_v27 main_cst_4 main_v28 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v28 main_v29 (broadcastInDim S65536x1 ![0] bcast_S65536_S65536x1_0 : (⟨S65536, .f32⟩ : BufTy).Contents (Elt F) → (⟨S65536x1, .f32⟩ : BufTy).Contents (Elt F)),
    unary main_v29 main_v30 (broadcastInDim S65536x64 ![0, 1] bcast_S65536x1_S65536x64_0_1 : (⟨S65536x1, .f32⟩ : BufTy).Contents (Elt F) → (⟨S65536x64, .f32⟩ : BufTy).Contents (Elt F)),
    binary main_v27 main_v30 main_v31 (Host.divf : (⟨S65536x64, .f32⟩ : BufTy).Contents (Elt F) → (⟨S65536x64, .f32⟩ : BufTy).Contents (Elt F) → (⟨S65536x64, .f32⟩ : BufTy).Contents (Elt F)) ]

/-- The per-batch residuals and their flattening. -/
def L6 : List (HloOp τ sig (Elt F)) :=
  [
    reshape main_v31 main_v32 rfl shapeCasts_S65536x64_S64x1024x64,
    nullary main_cst_5 (constant S_ .f32 0x00000000#32),
    binary main_v32 main_cst_5 main_v33 ((fun x v => Host.reduceAdd x v reducesTo_S64x1024x64_S64x64_d1 h_S_) : (⟨S64x1024x64, .f32⟩ : BufTy).Contents (Elt F) → (⟨S_, .f32⟩ : BufTy).Contents (Elt F) → (⟨S64x64, .f32⟩ : BufTy).Contents (Elt F)),
    unary main_v33 main_v34 (broadcastInDim S64x1x64 ![0, 2] bcast_S64x64_S64x1x64_0_2 : (⟨S64x64, .f32⟩ : BufTy).Contents (Elt F) → (⟨S64x1x64, .f32⟩ : BufTy).Contents (Elt F)),
    unary main_v34 main_v35 (broadcastInDim S64x512x64 ![0, 1, 2] bcast_S64x1x64_S64x512x64_0_1_2 : (⟨S64x1x64, .f32⟩ : BufTy).Contents (Elt F) → (⟨S64x512x64, .f32⟩ : BufTy).Contents (Elt F)),
    unary main_arg2 main_v36 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v35 main_v36 main_v37 (mulf : (⟨S64x512x64, .f32⟩ : BufTy).Contents (Elt F) → (⟨S64x512x64, .f32⟩ : BufTy).Contents (Elt F) → (⟨S64x512x64, .f32⟩ : BufTy).Contents (Elt F)),
    binary main_arg0 main_v32 main_v38 ((fun l r => Host.dotGeneral dot_S64x1024x512_S64x1024x64_S64x512x64_1_1_2_2_0_0 none l r) : (⟨S64x1024x512, .f32⟩ : BufTy).Contents (Elt F) → (⟨S64x1024x64, .f32⟩ : BufTy).Contents (Elt F) → (⟨S64x512x64, .f32⟩ : BufTy).Contents (Elt F)),
    binary main_v38 main_v37 main_v39 (subf : (⟨S64x512x64, .f32⟩ : BufTy).Contents (Elt F) → (⟨S64x512x64, .f32⟩ : BufTy).Contents (Elt F) → (⟨S64x512x64, .f32⟩ : BufTy).Contents (Elt F)),
    reshape main_v39 main_v40 rfl shapeCasts_S64x512x64_S64x32768 ]

/-- The norm function's operations and the division by the bounded norms. -/
def L7 : List (HloOp τ sig (Elt F)) :=
  [
    TRef.binary (.of main_v40) (.of main_v40) main_call1.v0 mulf,
    TRef.nullary main_call1.cst (constant S_ .f32 0x00000000#32),
    TRef.binary main_call1.v0 main_call1.cst main_call1.v1 (fun x v => Host.reduceAdd x v reducesTo_S64x32768_S64_d1 h_S_),
    TRef.unary main_call1.v1 main_call1.v2 (broadcastInDim S64x1 ![0] bcast_S64_S64x1_0),
    TRef.unary main_call1.v2 main_call1.v3 Host.sqrt,
    nullary main_cst_6 (constant S_ .f32 0x322BCC77#32),
    unary main_cst_6 main_v42 (broadcastInDim S64x1 ![] bcast_S_S64x1 : (⟨S_, .f32⟩ : BufTy).Contents (Elt F) → (⟨S64x1, .f32⟩ : BufTy).Contents (Elt F)),
    binary main_v41 main_v42 main_v43 (maximumf : (⟨S64x1, .f32⟩ : BufTy).Contents (Elt F) → (⟨S64x1, .f32⟩ : BufTy).Contents (Elt F) → (⟨S64x1, .f32⟩ : BufTy).Contents (Elt F)),
    unary main_v43 main_v44 (broadcastInDim S64x32768 ![0, 1] bcast_S64x1_S64x32768_0_1 : (⟨S64x1, .f32⟩ : BufTy).Contents (Elt F) → (⟨S64x32768, .f32⟩ : BufTy).Contents (Elt F)),
    binary main_v40 main_v44 main_v45 (Host.divf : (⟨S64x32768, .f32⟩ : BufTy).Contents (Elt F) → (⟨S64x32768, .f32⟩ : BufTy).Contents (Elt F) → (⟨S64x32768, .f32⟩ : BufTy).Contents (Elt F)) ]

/-- The program's operations are the seven stages in order. -/
theorem ops_split : (ops : List (HloOp τ sig (Elt F))) = L1 ++ (L2 ++ (L3 ++ (L4 ++ (L5 ++ (L6 ++ L7))))) := rfl

end Stages

/-! ## What each stage computes, over any valuation -/

/-- The assignment matrix, from the descriptors and the cluster matrix. -/
theorem stage1 (W : Valuation τ sig (Elt Ideal)) :
    after (L1 (F := Ideal)) W (main_v1 : DevRef τ sig) = assign (W (main_arg0 : DevRef τ sig)) (W (main_arg1 : DevRef τ sig)) := by
  unfold L1
  after_results_simp
  rfl

/-- The column means, from the assignment matrix. -/
theorem stage2 (W : Valuation τ sig (Elt Ideal)) :
    after (L2 (F := Ideal)) W (main_v4 : DevRef τ sig) = meanT (W (main_v1 : DevRef τ sig)) := by
  unfold L2
  after_results_simp
  rfl

/-- The column variances, from the assignment matrix. -/
theorem stage3 (W : Valuation τ sig (Elt Ideal)) :
    after (L3 (F := Ideal)) W (main_v5 : DevRef τ sig) = varT (W (main_v1 : DevRef τ sig)) := by
  unfold L3
  after_results_simp
  rfl

/-- The centred normalisation with the means and variances as given arrays. -/
def nrmOf (A : FVec Ideal S65536x64 .f32) (M Vr G B : FVec Ideal S64 .f32) : FVec Ideal S65536x64 .f32 :=
  addf (mulf (mulf (subf A (bcRow M))
      (bcRow (Host.rsqrt (F := Ideal) (addf Vr (broadcastInDim S64 ![] bcast_S_S64 (constant (F := Ideal) S_ .f32 0x3727C5AC#32))))))
    (bcRow G)) (bcRow B)

/-- With the array's own means and variances it is the centred batch normalisation. -/
theorem nrmOf_self (A : FVec Ideal S65536x64 .f32) (G B : FVec Ideal S64 .f32) :
    nrmOf A (meanT A) (varT A) G B = nrmT A G B := rfl

/-- The normalised assignments, from the assignment matrix, its means and variances, scale and offset. -/
theorem stage4 (W : Valuation τ sig (Elt Ideal)) :
    after (L4 (F := Ideal)) W (main_v20 : DevRef τ sig)
      = nrmOf (W (main_v1 : DevRef τ sig)) (W (main_v4 : DevRef τ sig)) (W (main_v5 : DevRef τ sig)) (W (main_arg3 : DevRef τ sig)) (W (main_arg4 : DevRef τ sig)) := by
  unfold L4
  after_results_simp
  rfl

/-- The row softmax of the normalised assignments. -/
theorem stage5 (W : Valuation τ sig (Elt Ideal)) :
    after (L5 (F := Ideal)) W (main_v31 : DevRef τ sig) = softT (W (main_v20 : DevRef τ sig)) := by
  unfold L5
  after_results_simp
  rfl

/-- The flattened residuals, from the descriptors, the second cluster matrix and the soft assignments. -/
theorem stage6 (W : Valuation τ sig (Elt Ideal)) :
    after (L6 (F := Ideal)) W (main_v40 : DevRef τ sig)
      = residT (W (main_arg0 : DevRef τ sig)) (W (main_arg2 : DevRef τ sig)) (W (main_v31 : DevRef τ sig)) := by
  unfold L6
  after_results_simp
  rfl

/-- The residuals divided by their bounded norms. -/
theorem stage7 (W : Valuation τ sig (Elt Ideal)) :
    after (L7 (F := Ideal)) W (main_v45 : DevRef τ sig) = normT (W (main_v40 : DevRef τ sig)) := by
  unfold L7
  after_results_simp
  rfl

/-! ## The buffers a stage leaves alone -/

/-- A buffer none of a line's operations writes keeps its contents: the line's writes are read off the builders,
    and the references told apart by computation. -/
local macro "frame_of" l:ident : tactic =>
  `(tactic| (refine after_of_forall_not_mem _ _ (List.forall_iff_forall_mem.mp ?_)
             simp only [$l:ident, List.Forall, nullary_writes, unary_writes, binary_writes, ternary_writes, reshape_writes,
               Finset.mem_singleton]
             repeat' apply And.intro
             all_goals exact devRef_ne_of_ne (by decide)))

theorem keep1_arg0 (W : Valuation τ sig (Elt Ideal)) : after (L1 (F := Ideal)) W (main_arg0 : DevRef τ sig) = W (main_arg0 : DevRef τ sig) := by
  frame_of L1
theorem keep1_arg2 (W : Valuation τ sig (Elt Ideal)) : after (L1 (F := Ideal)) W (main_arg2 : DevRef τ sig) = W (main_arg2 : DevRef τ sig) := by
  frame_of L1
theorem keep1_arg3 (W : Valuation τ sig (Elt Ideal)) : after (L1 (F := Ideal)) W (main_arg3 : DevRef τ sig) = W (main_arg3 : DevRef τ sig) := by
  frame_of L1
theorem keep1_arg4 (W : Valuation τ sig (Elt Ideal)) : after (L1 (F := Ideal)) W (main_arg4 : DevRef τ sig) = W (main_arg4 : DevRef τ sig) := by
  frame_of L1

theorem keep2_arg0 (W : Valuation τ sig (Elt Ideal)) : after (L2 (F := Ideal)) W (main_arg0 : DevRef τ sig) = W (main_arg0 : DevRef τ sig) := by
  frame_of L2
theorem keep2_arg2 (W : Valuation τ sig (Elt Ideal)) : after (L2 (F := Ideal)) W (main_arg2 : DevRef τ sig) = W (main_arg2 : DevRef τ sig) := by
  frame_of L2
theorem keep2_arg3 (W : Valuation τ sig (Elt Ideal)) : after (L2 (F := Ideal)) W (main_arg3 : DevRef τ sig) = W (main_arg3 : DevRef τ sig) := by
  frame_of L2
theorem keep2_arg4 (W : Valuation τ sig (Elt Ideal)) : after (L2 (F := Ideal)) W (main_arg4 : DevRef τ sig) = W (main_arg4 : DevRef τ sig) := by
  frame_of L2
theorem keep2_v1 (W : Valuation τ sig (Elt Ideal)) : after (L2 (F := Ideal)) W (main_v1 : DevRef τ sig) = W (main_v1 : DevRef τ sig) := by
  frame_of L2

theorem keep3_arg0 (W : Valuation τ sig (Elt Ideal)) : after (L3 (F := Ideal)) W (main_arg0 : DevRef τ sig) = W (main_arg0 : DevRef τ sig) := by
  frame_of L3
theorem keep3_arg2 (W : Valuation τ sig (Elt Ideal)) : after (L3 (F := Ideal)) W (main_arg2 : DevRef τ sig) = W (main_arg2 : DevRef τ sig) := by
  frame_of L3
theorem keep3_arg3 (W : Valuation τ sig (Elt Ideal)) : after (L3 (F := Ideal)) W (main_arg3 : DevRef τ sig) = W (main_arg3 : DevRef τ sig) := by
  frame_of L3
theorem keep3_arg4 (W : Valuation τ sig (Elt Ideal)) : after (L3 (F := Ideal)) W (main_arg4 : DevRef τ sig) = W (main_arg4 : DevRef τ sig) := by
  frame_of L3
theorem keep3_v1 (W : Valuation τ sig (Elt Ideal)) : after (L3 (F := Ideal)) W (main_v1 : DevRef τ sig) = W (main_v1 : DevRef τ sig) := by
  frame_of L3
theorem keep3_v4 (W : Valuation τ sig (Elt Ideal)) : after (L3 (F := Ideal)) W (main_v4 : DevRef τ sig) = W (main_v4 : DevRef τ sig) := by
  frame_of L3

theorem keep4_arg0 (W : Valuation τ sig (Elt Ideal)) : after (L4 (F := Ideal)) W (main_arg0 : DevRef τ sig) = W (main_arg0 : DevRef τ sig) := by
  frame_of L4
theorem keep4_arg2 (W : Valuation τ sig (Elt Ideal)) : after (L4 (F := Ideal)) W (main_arg2 : DevRef τ sig) = W (main_arg2 : DevRef τ sig) := by
  frame_of L4

theorem keep5_arg0 (W : Valuation τ sig (Elt Ideal)) : after (L5 (F := Ideal)) W (main_arg0 : DevRef τ sig) = W (main_arg0 : DevRef τ sig) := by
  frame_of L5
theorem keep5_arg2 (W : Valuation τ sig (Elt Ideal)) : after (L5 (F := Ideal)) W (main_arg2 : DevRef τ sig) = W (main_arg2 : DevRef τ sig) := by
  frame_of L5

/-! ## The fold at the result and at the arguments -/

/-- The fold at the result buffer is the staged term: read stage by stage from the last, each stage's inputs
    carried back through the stages that leave them alone. -/
theorem out_eq (V : Valuation τ sig (Elt Ideal)) :
    after (ops (F := Ideal)) V (main_v45 : DevRef τ sig)
      = refTerm (V (main_arg0 : DevRef τ sig)) (V (main_arg1 : DevRef τ sig)) (V (main_arg2 : DevRef τ sig))
          (V (main_arg3 : DevRef τ sig)) (V (main_arg4 : DevRef τ sig)) := by
  rw [ops_split, after_append, after_append, after_append, after_append, after_append, after_append]
  rw [stage7, stage6]
  rw [keep5_arg0, keep5_arg2, stage5]
  rw [keep4_arg0, keep4_arg2, stage4]
  rw [keep3_arg0, keep3_arg2, keep3_arg3, keep3_arg4, keep3_v1, keep3_v4, stage3]
  rw [keep2_arg0, keep2_arg2, keep2_arg3, keep2_arg4, keep2_v1, stage2]
  rw [keep1_arg0, keep1_arg2, keep1_arg3, keep1_arg4, stage1]
  rw [nrmOf_self]
  rfl

theorem arg0_eq (V : Valuation τ sig (Elt Ideal)) : after (ops (F := Ideal)) V (main_arg0 : DevRef τ sig) = V (main_arg0 : DevRef τ sig) := by
  frame_of ops
theorem arg1_eq (V : Valuation τ sig (Elt Ideal)) : after (ops (F := Ideal)) V (main_arg1 : DevRef τ sig) = V (main_arg1 : DevRef τ sig) := by
  frame_of ops
theorem arg2_eq (V : Valuation τ sig (Elt Ideal)) : after (ops (F := Ideal)) V (main_arg2 : DevRef τ sig) = V (main_arg2 : DevRef τ sig) := by
  frame_of ops
theorem arg3_eq (V : Valuation τ sig (Elt Ideal)) : after (ops (F := Ideal)) V (main_arg3 : DevRef τ sig) = V (main_arg3 : DevRef τ sig) := by
  frame_of ops
theorem arg4_eq (V : Valuation τ sig (Elt Ideal)) : after (ops (F := Ideal)) V (main_arg4 : DevRef τ sig) = V (main_arg4 : DevRef τ sig) := by
  frame_of ops

/-- Every execution of the reference ends with the result buffer at the staged term of the launch contents of
    the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45)
        = refTerm (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v45).trans (out_eq _), (h c main_arg0).trans (arg0_eq _),
      (h c main_arg1).trans (arg1_eq _), (h c main_arg2).trans (arg2_eq _), (h c main_arg3).trans (arg3_eq _),
      (h c main_arg4).trans (arg4_eq _)⟩)
    (run_fold m ρ)

end Cert.ReferenceIdeal.RefValue

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«150116_j36146444763171_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«150116_j36146444763171_2_alg».proof.Proof.LibInnerProducts
import proofs.«150116_j36146444763171_2_alg».proof.Proof.LibInDimRow
import proofs.«150116_j36146444763171_2_alg».proof.Proof.LibKeepdims
import proofs.«150116_j36146444763171_2_alg».proof.Proof.LibInDimLayout
import proofs.«150116_j36146444763171_2_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.VladSpec.lean ====
/-
  NetVLAD pooling with a batch-normalised soft assignment, written once on the extended reals.

  Descriptors x (64 batches of 1024 rows of 512 features) are flattened to 65536 rows; the assignment of row r to
  cluster k is the inner product of the row with column k of the cluster matrix.  Batch normalisation takes, per
  cluster, the mean and the (biased) variance over ALL 65536 rows.  It is written here in two ways: centred
  ((a - mean) * rsqrt (var + eps)) * gamma + beta with the variance as the mean of squared deviations, and folded
  a * scale + shift with the variance as the mean of squares minus the squared mean, scale = gamma * rsqrt (var + eps),
  shift = beta - mean * scale.  The normalised assignments of a row are passed through a softmax; per batch b the
  residual at (d, k) is the soft-weighted sum of the descriptors' feature d minus the summed soft weights times the
  second cluster matrix at (d, k); the result is the residual divided by the batch's Euclidean norm (bounded below).
-/
import Idealize.ShloMosaic.PureOps.Ideal
import Idealize.ShloMosaic.Lib.ValueIdx
import proofs.«150116_j36146444763171_2_alg».proof.Proof.LibDenseRows

noncomputable section

namespace Cert.Vlad

open Idealize.ShloMosaic Idealize.ShloMosaic.ValueIdx
open scoped BigOperators

/-- The number of rows, 65536, as the float word the programs divide by. -/
abbrev rowsW : EReal := Ideal.ofBits .f32 0x47800000#32
/-- The batch-norm epsilon (the float nearest 1e-5). -/
abbrev epsBN : EReal := Ideal.ofBits .f32 0x3727C5AC#32
/-- The lower bound of the Euclidean norm (the float nearest 1e-8). -/
abbrev epsL2 : EReal := Ideal.ofBits .f32 0x322BCC77#32

/-- Row i of batch b among the 65536 flattened rows. -/
def row (b : Fin 64) (i : Fin 1024) : Fin 65536 := ⟨b.val * 1024 + i.val, by omega⟩

/-- The descriptors with the two leading axes merged. -/
def flat (x : Fin 64 → Fin 1024 → Fin 512 → EReal) (r : Fin 65536) (d : Fin 512) : EReal :=
  x ⟨r.val / 1024, by omega⟩ ⟨r.val % 1024, Nat.mod_lt _ (by norm_num)⟩ d

theorem flat_row (x : Fin 64 → Fin 1024 → Fin 512 → EReal) (b : Fin 64) (i : Fin 1024) (d : Fin 512) :
    flat x (row b i) d = x b i d := by
  have hb : (⟨(row b i).val / 1024, by have := (row b i).isLt; omega⟩ : Fin 64) = b :=
    Fin.ext (by show (b.val * 1024 + i.val) / 1024 = b.val; omega)
  have hi : (⟨(row b i).val % 1024, Nat.mod_lt _ (by norm_num)⟩ : Fin 1024) = i :=
    Fin.ext (by show (b.val * 1024 + i.val) % 1024 = i.val; omega)
  unfold flat
  rw [hb, hi]

/-- The assignment of row r to cluster k. -/
def asg (xf : Fin 65536 → Fin 512 → EReal) (cl : Fin 512 → Fin 64 → EReal) (r : Fin 65536) (k : Fin 64) : EReal :=
  ∑ d : Fin 512, xf r d * cl d k

/-- The mean of cluster k's assignments over all rows. -/
def mean (A : Fin 65536 → Fin 64 → EReal) (k : Fin 64) : EReal := Ideal.div (∑ r : Fin 65536, A r k) rowsW

/-- The variance as the mean of squared deviations. -/
def varC (A : Fin 65536 → Fin 64 → EReal) (k : Fin 64) : EReal :=
  Ideal.div (∑ r : Fin 65536, (A r k - mean A k) * (A r k - mean A k)) rowsW

/-- Centred batch normalisation. -/
def nrmC (A : Fin 65536 → Fin 64 → EReal) (g be : Fin 64 → EReal) (r : Fin 65536) (k : Fin 64) : EReal :=
  (A r k - mean A k) * Ideal.rsqrt (varC A k + epsBN) * g k + be k

/-- The variance as the mean of squares minus the squared mean. -/
def varF (A : Fin 65536 → Fin 64 → EReal) (k : Fin 64) : EReal :=
  Ideal.div (∑ r : Fin 65536, A r k * A r k) rowsW - mean A k * mean A k

def scaleF (A : Fin 65536 → Fin 64 → EReal) (g : Fin 64 → EReal) (k : Fin 64) : EReal :=
  g k * Ideal.rsqrt (varF A k + epsBN)

def shiftF (A : Fin 65536 → Fin 64 → EReal) (g be : Fin 64 → EReal) (k : Fin 64) : EReal :=
  be k - mean A k * scaleF A g k

/-- Folded batch normalisation. -/
def nrmF (A : Fin 65536 → Fin 64 → EReal) (g be : Fin 64 → EReal) (r : Fin 65536) (k : Fin 64) : EReal :=
  A r k * scaleF A g k + shiftF A g be k

/-! ## One batch -/

/-- The residual of one batch at feature d and cluster k: xb the batch's 1024 descriptors, n their normalised
    assignments. -/
def residB (xb : Fin 1024 → Fin 512 → EReal) (c2 : Fin 512 → Fin 64 → EReal) (n : Fin 1024 → Fin 64 → EReal)
    (d : Fin 512) (k : Fin 64) : EReal :=
  (∑ i : Fin 1024, xb i d * Cert.DenseRows.softmax (n i) k) - (∑ i : Fin 1024, Cert.DenseRows.softmax (n i) k) * c2 d k

/-- The normalised residual of one batch. -/
def outB (xb : Fin 1024 → Fin 512 → EReal) (c2 : Fin 512 → Fin 64 → EReal) (n : Fin 1024 → Fin 64 → EReal)
    (d : Fin 512) (k : Fin 64) : EReal :=
  Ideal.div (residB xb c2 n d k)
    (max (Ideal.sqrt (∑ d' : Fin 512, ∑ k' : Fin 64, residB xb c2 n d' k' * residB xb c2 n d' k')) epsL2)

/-- The normalised residual of batch b, from the normalised assignments of all rows. -/
def out (x : Fin 64 → Fin 1024 → Fin 512 → EReal) (c2 : Fin 512 → Fin 64 → EReal) (n : Fin 65536 → Fin 64 → EReal)
    (b : Fin 64) (d : Fin 512) (k : Fin 64) : EReal :=
  outB (x b) c2 (fun i => n (row b i)) d k

/-! ## The arrays as the programs hold them -/

def cur3 (X : (⟨3, ![64, 1024, 512]⟩ : Shape).Idx → EReal) : Fin 64 → Fin 1024 → Fin 512 → EReal :=
  fun b i d => X (ix3 b i d)
def cur2 (C : (⟨2, ![512, 64]⟩ : Shape).Idx → EReal) : Fin 512 → Fin 64 → EReal := fun d k => C (ix2 d k)
def cur2u (C2 : (⟨3, ![1, 512, 64]⟩ : Shape).Idx → EReal) : Fin 512 → Fin 64 → EReal := fun d k => C2 (ix3 0 d k)
def cur1 (G : (⟨1, ![64]⟩ : Shape).Idx → EReal) : Fin 64 → EReal := fun k => G (ix1 k)

/-- The assignments of the argument arrays. -/
def asgOf (X : (⟨3, ![64, 1024, 512]⟩ : Shape).Idx → EReal) (C : (⟨2, ![512, 64]⟩ : Shape).Idx → EReal) :
    Fin 65536 → Fin 64 → EReal := asg (flat (cur3 X)) (cur2 C)

/-- The result array [64, 32768] at (b, j), j = d * 64 + k, for a normalisation nrm (nrmC or nrmF). -/
def result (nrm : (Fin 65536 → Fin 64 → EReal) → (Fin 64 → EReal) → (Fin 64 → EReal) → Fin 65536 → Fin 64 → EReal)
    (X : (⟨3, ![64, 1024, 512]⟩ : Shape).Idx → EReal) (C : (⟨2, ![512, 64]⟩ : Shape).Idx → EReal)
    (C2 : (⟨3, ![1, 512, 64]⟩ : Shape).Idx → EReal) (G B : (⟨1, ![64]⟩ : Shape).Idx → EReal)
    (b : Fin 64) (j : Fin 32768) : EReal :=
  out (cur3 X) (cur2u C2) (nrm (asgOf X C) (cur1 G) (cur1 B)) b ⟨j.val / 64, by omega⟩ ⟨j.val % 64, Nat.mod_lt _ (by norm_num)⟩

end Cert.Vlad

end
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.VladNorm.lean ====
/-
  Batch normalisation over 65536 rows on the extended reals: the centred form and the folded form agree whenever
  every assignment, scale and offset is a real number.

  With N = 65536 rows and m = (Σ a) / N, the mean of squared deviations (Σ (a - m)²) / N equals (Σ a²) / N - m²
  because the divisor N is exactly the number of terms.  That variance is a mean of squares, hence nonnegative; adding
  the positive epsilon gives a positive real, whose reciprocal square root is a real number s.  Then
  ((a - m) · s) · g + b = a · (g · s) + (b - m · (g · s)) is an identity of real numbers.
-/
import Mathlib.Tactic
import proofs.«150116_j36146444763171_2_alg».proof.Proof.VladSpec
import proofs.«150116_j36146444763171_2_alg».proof.Proof.LibWords
import proofs.«150116_j36146444763171_2_alg».proof.Proof.LibSumAssoc

noncomputable section

namespace Cert.Vlad

open Idealize.ShloMosaic
open scoped BigOperators

/-- The word `0x47800000` denotes `65536`: exponent field `143`, significand `0`, so the value is
    `2^23 · 2^(143 - 127 - 23) = 2^16`. -/
theorem rowsW_eq : rowsW = ((65536 : ℝ) : EReal) := by
  simp [Ideal.ofBits, Ideal.ieee, -EReal.coe_mul] <;> norm_num

/-- The word `0x3727C5AC` denotes a positive real: exponent field `110`, significand `0x27C5AC`, so the value is
    `(2^23 + 2606508) · 2^(110 - 127 - 23) = 10995116 · 2^(-40)`. -/
theorem epsBN_pos : ∃ e : ℝ, 0 < e ∧ epsBN = (e : EReal) := by
  refine ⟨(10995116 : ℝ) * (2 : ℝ) ^ (-40 : ℤ), by positivity, ?_⟩
  simp [Ideal.ofBits, Ideal.ieee, -EReal.coe_mul] <;> norm_num

/-- An inner product of real rows and real columns is real. -/
theorem asg_real {xf : Fin 65536 → Fin 512 → EReal} {cl : Fin 512 → Fin 64 → EReal}
    (hx : ∀ r d, ∃ a : ℝ, xf r d = a) (hc : ∀ d k, ∃ a : ℝ, cl d k = a) : ∀ r k, ∃ a : ℝ, asg xf cl r k = a := by
  intro r k
  exact ERealSums.sum_real _ _ fun d => ERealSums.mul_real (hx r d) (hc d k)

/-- Over the reals, with the divisor equal to the number of terms: the mean of squared deviations is the mean of
    squares minus the squared mean. -/
theorem var_real (f : Fin 65536 → ℝ) :
    (∑ r, (f r - (∑ r, f r) / 65536) * (f r - (∑ r, f r) / 65536)) / 65536
      = (∑ r, f r * f r) / 65536 - ((∑ r, f r) / 65536) * ((∑ r, f r) / 65536) := by
  obtain ⟨S, hS⟩ : ∃ S : ℝ, S = ∑ r, f r := ⟨_, rfl⟩
  rw [← hS]
  have h : ∀ r, (f r - S / 65536) * (f r - S / 65536)
      = f r * f r - 2 * (S / 65536) * f r + (S / 65536) * (S / 65536) := fun r => by ring
  rw [Finset.sum_congr rfl fun r _ => h r, Finset.sum_add_distrib, Finset.sum_sub_distrib, ← Finset.mul_sum,
    Finset.sum_const, Finset.card_univ, Fintype.card_fin, nsmul_eq_mul, ← hS]
  push_cast
  ring

/-- The mean of squared deviations is nonnegative. -/
theorem var_real_nonneg (f : Fin 65536 → ℝ) (m : ℝ) : 0 ≤ (∑ r, (f r - m) * (f r - m)) / 65536 :=
  div_nonneg (Finset.sum_nonneg fun r _ => mul_self_nonneg _) (by norm_num)

/-- The mean of real entries, as a real number. -/
theorem mean_coe (a : Fin 65536 → Fin 64 → ℝ) (k : Fin 64) :
    mean (fun r k => (a r k : EReal)) k = (((∑ r : Fin 65536, a r k) / 65536 : ℝ) : EReal) := by
  show Ideal.div (∑ r : Fin 65536, (a r k : EReal)) rowsW = _
  rw [rowsW_eq, Ideal.div_coe (by norm_num : (65536 : ℝ) ≠ 0), ← ERealSums.coe_sum, ← EReal.coe_mul]
  congr 1
  ring

/-- The centred variance of real entries, as a real number. -/
theorem varC_coe (a : Fin 65536 → Fin 64 → ℝ) (k : Fin 64) :
    varC (fun r k => (a r k : EReal)) k
      = (((∑ r : Fin 65536, (a r k - (∑ r : Fin 65536, a r k) / 65536) * (a r k - (∑ r : Fin 65536, a r k) / 65536)) / 65536 : ℝ) : EReal) := by
  unfold varC
  simp only [mean_coe, ← EReal.coe_sub, ← EReal.coe_mul, ← ERealSums.coe_sum]
  rw [rowsW_eq, Ideal.div_coe (by norm_num : (65536 : ℝ) ≠ 0), ← EReal.coe_mul]
  congr 1
  ring

/-- The folded variance of real entries, as a real number. -/
theorem varF_coe (a : Fin 65536 → Fin 64 → ℝ) (k : Fin 64) :
    varF (fun r k => (a r k : EReal)) k
      = (((∑ r : Fin 65536, a r k * a r k) / 65536
          - ((∑ r : Fin 65536, a r k) / 65536) * ((∑ r : Fin 65536, a r k) / 65536) : ℝ) : EReal) := by
  unfold varF
  simp only [mean_coe, ← EReal.coe_mul, ← ERealSums.coe_sum]
  rw [rowsW_eq, Ideal.div_coe (by norm_num : (65536 : ℝ) ≠ 0), ← EReal.coe_mul, ← EReal.coe_sub]
  congr 1
  ring

/-- The reciprocal square root of a positive real is a real number. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- Centred and folded batch normalisation agree on real data. -/
theorem nrm_eq (A : Fin 65536 → Fin 64 → EReal) (g be : Fin 64 → EReal) (hA : ∀ r k, ∃ a : ℝ, A r k = a)
    (hg : ∀ k, ∃ a : ℝ, g k = a) (hb : ∀ k, ∃ a : ℝ, be k = a) : nrmC A g be = nrmF A g be := by
  choose a ha using hA
  obtain rfl : A = fun r k => (a r k : EReal) := funext fun r => funext fun k => ha r k
  obtain ⟨g', rfl⟩ := Cert.Proof.Words.exists_real_family hg
  obtain ⟨b', rfl⟩ := Cert.Proof.Words.exists_real_family hb
  obtain ⟨e, he, hE⟩ := epsBN_pos
  funext r k
  have hv : 0 < (∑ r : Fin 65536, (a r k - (∑ r : Fin 65536, a r k) / 65536) * (a r k - (∑ r : Fin 65536, a r k) / 65536)) / 65536 + e :=
    add_pos_of_nonneg_of_pos (var_real_nonneg _ _) he
  unfold nrmC nrmF shiftF scaleF
  rw [varF_coe, ← var_real (fun r => a r k), varC_coe, mean_coe, hE, ← EReal.coe_add, rsqrt_pos hv]
  simp only [← EReal.coe_sub, ← EReal.coe_mul, ← EReal.coe_add]
  congr 1
  ring

end Cert.Vlad

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«150116_j36146444763171_2_alg».proof.Proof.LibKeepdims
import proofs.«150116_j36146444763171_2_alg».proof.Proof.LibInDimLayout
import proofs.«150116_j36146444763171_2_alg».proof.Proof.LibExtremeReduce
import proofs.«150116_j36146444763171_2_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibInDimRows.lean ====
/-
  The host's broadcast_in_dim of a per-row quantity over a rank-3 array, read at an index (any element type):
  a vector [a] placed on axis 0 of a column [a,1,1]; a column [a,1,1] spread over [a,b,c]; and a scalar spread
  over any shape. Entry (g, ·, ·) of each reads entry g (resp. the one entry) of the operand.
-/
import Idealize.ShloMosaic.Lib.Pipeline.Value
import Idealize.ShloMosaic.Lib.ValueIdx

namespace Cert.LibInDimRows

open Idealize.ShloMosaic Idealize.ShloMosaic.ValueIdx

variable {α : Type}

/-- A vector [a] as a column [a,1,1]: entry (g, u, v) is entry g. -/
theorem vec_col_apply {a : ℕ} (h : (⟨1, ![a]⟩ : Shape).BroadcastsInDim ⟨3, ![a, 1, 1]⟩ (![0] : Fin 1 → Fin 3))
    (x : (⟨1, ![a]⟩ : Shape).Idx → α) (g : Fin a) (u v : Fin 1) :
    broadcastInDim ⟨3, ![a, 1, 1]⟩ ![0] h x (ix3 g u v) = x (ix1 g) :=
  broadcastInDim_apply _ h x _ _ (fun d => by
    match d with
    | ⟨0, _⟩ =>
      show g.val = if a = 1 then 0 else g.val
      split_ifs with h1
      · have := g.isLt; omega
      · rfl)

/-- A column [a,1,1] spread over [a,b,c]: entry (g, k, d) is entry (g, 0, 0). -/
theorem col_spread_apply {a b c : ℕ} (h : (⟨3, ![a, 1, 1]⟩ : Shape).BroadcastsInDim ⟨3, ![a, b, c]⟩ (![0, 1, 2] : Fin 3 → Fin 3))
    (x : (⟨3, ![a, 1, 1]⟩ : Shape).Idx → α) (g : Fin a) (k : Fin b) (d : Fin c) :
    broadcastInDim ⟨3, ![a, b, c]⟩ ![0, 1, 2] h x (ix3 g k d) = x (ix3 g (0 : Fin 1) (0 : Fin 1)) :=
  broadcastInDim_apply _ h x _ _ (fun e => by
    match e with
    | ⟨0, _⟩ =>
      show g.val = if a = 1 then 0 else g.val
      split_ifs with h1
      · have := g.isLt; omega
      · rfl
    | ⟨1, _⟩ => show 0 = if (1 : ℕ) = 1 then 0 else k.val; rw [if_pos rfl]
    | ⟨2, _⟩ => show 0 = if (1 : ℕ) = 1 then 0 else d.val; rw [if_pos rfl])

/-- A scalar spread over any shape: every entry is the scalar. -/
theorem scalar_spread_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x _ _ (fun e => e.elim0)

end Cert.LibInDimRows
-- ==== Proof.RefNorm.lean ====
/-
  The reference's assignment matrix, its centred batch normalisation and its row softmax, each read at an index on
  the extended reals.

  The assignment of row r to cluster k is the inner product of row r of the flattened descriptors with column k of the
  cluster matrix; row r = p · 1024 + q of the flattened array is the descriptor (p, q).  The column mean is the column
  sum divided by 65536, the variance the column sum of squared deviations divided by the same count (the count is
  positive, so the guard around the variance selects it), and the normalised entry is
  ((a − mean) · rsqrt (var + ε)) · γ + β.  The softmax of a row is the softmax of its 64 entries.
-/
import proofs.«150116_j36146444763171_2_alg».proof.Proof.RefTerm
import proofs.«150116_j36146444763171_2_alg».proof.Proof.VladSpec
import proofs.«150116_j36146444763171_2_alg».proof.Proof.VladNorm
import proofs.«150116_j36146444763171_2_alg».proof.Proof.LibRowSoftmax
import proofs.«150116_j36146444763171_2_alg».proof.Proof.LibInnerProducts
import proofs.«150116_j36146444763171_2_alg».proof.Proof.LibRowPairs
import proofs.«150116_j36146444763171_2_alg».proof.Proof.LibInDimRow
import proofs.«150116_j36146444763171_2_alg».proof.Proof.LibInDimRows
import proofs.«150116_j36146444763171_2_alg».proof.Proof.LibDenseRows

noncomputable section

namespace Cert.ReferenceIdeal.RefValue

open Cert.ReferenceIdeal Idealize.ShloMosaic Idealize.ShloMosaic.ValueIdx Facts₀
open scoped BigOperators

/-- The row softmax at (r, k) is the softmax of row r at k. -/
theorem softT_apply (N : FVec Ideal S65536x64 .f32) (r : Fin 65536) (k : Fin 64) :
    softT N (ix2 r k) = Cert.DenseRows.softmax (fun k' => N (ix2 r k')) k := by
  have h : S65536x64.Reduces [1] S65536 := by decide
  unfold softT expT bcCol
  exact Cert.DenseRows.softmax_host_apply N reducesTo_S65536x64_S65536_d1 h h_S_ bcast_S_S65536
    bcast_S65536_S65536x1_0 bcast_S65536x1_S65536x64_0_1 r k

/-- The assignment matrix at (r, k) is the inner product of row r of the flattened descriptors with column k of the
    cluster matrix. -/
theorem assign_apply (X : FVec Ideal S64x1024x512 .f32) (C : FVec Ideal S512x64 .f32) (r : Fin 65536) (k : Fin 64) :
    assign X C (ix2 r k) = Cert.Vlad.asgOf X C r k := by
  unfold assign
  refine (InnerProducts.dotGeneral_apply dot_S65536x512_S512x64_S65536x64_1_0_0_1_n_n rfl none
    (shapeCast S65536x512 X shapeCasts_S64x1024x512_S65536x512) C r k).trans ?_
  show _ = ∑ d : Fin 512, Cert.Vlad.flat (Cert.Vlad.cur3 X) r d * Cert.Vlad.cur2 C d k
  refine Finset.sum_congr rfl fun d _ => ?_
  refine congrArg (· * C (ix2 d k)) ?_
  exact RowPairs.shapeCast_abc_nc_apply X shapeCasts_S64x1024x512_S65536x512
    ⟨r.val / 1024, by omega⟩ ⟨r.val % 1024, Nat.mod_lt _ (by norm_num)⟩ d r (by
      show r.val = r.val / 1024 * 1024 + r.val % 1024
      omega)

/-! ## The column statistics -/

/-- A vector spread over the rows reads its entry k at (r, k). -/
theorem bcRow_apply (v : FVec Ideal S64 .f32) (r : Fin 65536) (k : Fin 64) : bcRow v (ix2 r k) = v (ix1 k) :=
  Cert.DenseRows.biasRowHost_apply v bcast_S64_S1x64_1 bcast_S1x64_S65536x64_0_1 r k

/-- Putting coordinate r back on the first axis of the column index k gives (r, k). -/
theorem lift_col (h : S65536x64.Reduces [0] S64) (k : Fin 64) (r : Fin 65536) : h.lift (ix1 k) r = ix2 r k := by
  funext c
  apply Fin.ext
  match c with
  | ⟨0, _⟩ => rfl
  | ⟨1, _⟩ => rfl

/-- The column sum at k is the sum over all rows of column k. -/
theorem colSum_apply (A : FVec Ideal S65536x64 .f32) (k : Fin 64) :
    colSum A (ix1 k) = ∑ r : Fin 65536, A (ix2 r k) := by
  have h : S65536x64.Reduces [0] S64 := by decide
  show Ideal.hostReduceAdd reducesTo_S65536x64_S64_d0 A (Ideal.ofBits .f32 0x00000000#32) (ix1 k) = _
  rw [Ideal.hostReduceAdd_single reducesTo_S65536x64_S64_d0 h A _ (ix1 k), Ideal.ofBits_zero_f32, zero_add]
  show ∑ r : Fin 65536, A (h.lift (ix1 k) r) = _
  refine Finset.sum_congr rfl fun r _ => ?_
  rw [lift_col h k r]

/-- The column mean at k. -/
theorem meanT_apply (A : FVec Ideal S65536x64 .f32) (k : Fin 64) :
    meanT A (ix1 k) = Cert.Vlad.mean (fun r k => A (ix2 r k)) k := by
  show Ideal.div (colSum A (ix1 k)) (broadcastInDim S64 ![] bcast_S_S64 rowsS (ix1 k)) = _
  rw [colSum_apply, Cert.LibInDimRows.scalar_spread_apply bcast_S_S64 rowsS (ix1 k)]
  rfl

/-- The deviation from the column mean at (r, k). -/
theorem devT_apply (A : FVec Ideal S65536x64 .f32) (r : Fin 65536) (k : Fin 64) :
    devT A (ix2 r k) = A (ix2 r k) - Cert.Vlad.mean (fun r k => A (ix2 r k)) k := by
  show A (ix2 r k) - broadcastInDim S65536x64 ![0, 1] bcast_S1x64_S65536x64_0_1
    (Host.divf (F := Ideal) (broadcastInDim S1x64 ![1] bcast_S64_S1x64_1 (colSum A))
      (broadcastInDim S1x64 ![] bcast_S_S1x64 rowsS)) (ix2 r k) = _
  rw [Cert.LibInDimRow.inDim_1b_ab_apply _ bcast_S1x64_S65536x64_0_1 r k]
  show A (ix2 r k) - Ideal.div (broadcastInDim S1x64 ![1] bcast_S64_S1x64_1 (colSum A) (ix2 (0 : Fin 1) k))
    (broadcastInDim S1x64 ![] bcast_S_S1x64 rowsS (ix2 (0 : Fin 1) k)) = _
  rw [Cert.LibInDimRow.inDim_b_1b_apply _ bcast_S64_S1x64_1 0 k, colSum_apply,
    Cert.LibInDimRows.scalar_spread_apply bcast_S_S1x64 rowsS (ix2 (0 : Fin 1) k)]
  rfl

/-- The count is the number of rows: 65536 minus the zero the integer zero converts to. -/
theorem countS_apply : countS ix0 = Cert.Vlad.rowsW := by
  show Cert.Vlad.rowsW - (((0#32 : BitVec 32).toInt : ℝ) : EReal) = _
  simp

/-- The count is positive, so the comparison against zero gives the true bit. -/
theorem count_pos_bit : cmpf .ogt countS zeroS ix0 = 1 := by
  show Ideal.cmp .ogt (countS ix0) (Ideal.ofBits .f32 0x00000000#32) = 1
  rw [countS_apply, Cert.Vlad.rowsW_eq, Ideal.ofBits_zero_f32]
  have h : (0 : EReal) < ((65536 : ℝ) : EReal) := by exact_mod_cast (by norm_num : (0 : ℝ) < 65536)
  simp [Ideal.cmp, h]

/-- The column variance at k: the mean of squared deviations. -/
theorem varT_apply (A : FVec Ideal S65536x64 .f32) (k : Fin 64) :
    varT A (ix1 k) = Cert.Vlad.varC (fun r k => A (ix2 r k)) k := by
  show Scalar.select (broadcastInDim S64 ![] bcast_S_S64 (cmpf .ogt countS zeroS) (ix1 k))
    (Host.divf (F := Ideal) (colSum (mulf (devT A) (devT A))) (broadcastInDim S64 ![] bcast_S_S64 countS) (ix1 k))
    (broadcastInDim S64 ![] bcast_S_S64 (id (constant (F := Ideal) S_ .f32 0x7FC00000#32)) (ix1 k)) = _
  rw [Cert.LibInDimRows.scalar_spread_apply bcast_S_S64 (cmpf .ogt countS zeroS) (ix1 k), count_pos_bit]
  show Ideal.div (colSum (mulf (devT A) (devT A)) (ix1 k)) (broadcastInDim S64 ![] bcast_S_S64 countS (ix1 k)) = _
  rw [colSum_apply, Cert.LibInDimRows.scalar_spread_apply bcast_S_S64 countS (ix1 k), countS_apply]
  unfold Cert.Vlad.varC
  refine congrArg (Ideal.div · Cert.Vlad.rowsW) (Finset.sum_congr rfl fun r _ => ?_)
  show devT A (ix2 r k) * devT A (ix2 r k) = _
  rw [devT_apply]

/-! ## The centred batch normalisation -/

/-- The normalised assignment at (r, k). -/
theorem nrmT_apply (A : FVec Ideal S65536x64 .f32) (G B : FVec Ideal S64 .f32) (r : Fin 65536) (k : Fin 64) :
    nrmT A G B (ix2 r k)
      = Cert.Vlad.nrmC (fun r k => A (ix2 r k)) (Cert.Vlad.cur1 G) (Cert.Vlad.cur1 B) r k := by
  show (A (ix2 r k) - bcRow (meanT A) (ix2 r k))
      * bcRow (Host.rsqrt (F := Ideal) (addf (varT A)
          (broadcastInDim S64 ![] bcast_S_S64 (constant (F := Ideal) S_ .f32 0x3727C5AC#32)))) (ix2 r k)
      * bcRow G (ix2 r k) + bcRow B (ix2 r k) = _
  rw [bcRow_apply, bcRow_apply, bcRow_apply, bcRow_apply, meanT_apply]
  show (A (ix2 r k) - _) * Ideal.rsqrt (varT A (ix1 k)
      + broadcastInDim S64 ![] bcast_S_S64 (constant (F := Ideal) S_ .f32 0x3727C5AC#32) (ix1 k)) * G (ix1 k) + B (ix1 k) = _
  rw [varT_apply, Cert.LibInDimRows.scalar_spread_apply bcast_S_S64 _ (ix1 k)]
  rfl

/-! ## The two stages composed with the assignment -/

/-- The softmax of the normalised assignments at (r, k). -/
theorem soft_nrm_apply (X : FVec Ideal S64x1024x512 .f32) (C : FVec Ideal S512x64 .f32) (G B : FVec Ideal S64 .f32)
    (r : Fin 65536) (k : Fin 64) :
    softT (nrmT (assign X C) G B) (ix2 r k)
      = Cert.DenseRows.softmax
          (Cert.Vlad.nrmC (Cert.Vlad.asgOf X C) (Cert.Vlad.cur1 G) (Cert.Vlad.cur1 B) r) k := by
  rw [softT_apply]
  have hA : (fun r k => assign X C (ix2 r k)) = Cert.Vlad.asgOf X C :=
    funext fun r => funext fun k => assign_apply X C r k
  refine congrArg (Cert.DenseRows.softmax · k) (funext fun k' => ?_)
  rw [nrmT_apply, hA]

end Cert.ReferenceIdeal.RefValue

end
-- ==== Proof.VladSoft.lean ====
/-
  The per-batch result written over the soft weights themselves rather than over the normalised assignments: the
  residual at (d, k) is the weighted sum of feature d minus the summed weights times the second cluster matrix, and
  the result divides by the batch's Euclidean norm bounded below.  With the weights the row softmax of the normalised
  assignments this is the per-batch result of the specification.
-/
import proofs.«150116_j36146444763171_2_alg».proof.Proof.VladSpec

noncomputable section

namespace Cert.Vlad

open Idealize.ShloMosaic
open scoped BigOperators

/-- The residual of one batch from its soft weights s. -/
def residS (xb : Fin 1024 → Fin 512 → EReal) (c2 : Fin 512 → Fin 64 → EReal) (s : Fin 1024 → Fin 64 → EReal)
    (d : Fin 512) (k : Fin 64) : EReal :=
  (∑ i : Fin 1024, xb i d * s i k) - (∑ i : Fin 1024, s i k) * c2 d k

/-- The normalised residual of one batch from its soft weights. -/
def outS (xb : Fin 1024 → Fin 512 → EReal) (c2 : Fin 512 → Fin 64 → EReal) (s : Fin 1024 → Fin 64 → EReal)
    (d : Fin 512) (k : Fin 64) : EReal :=
  Ideal.div (residS xb c2 s d k)
    (max (Ideal.sqrt (∑ d' : Fin 512, ∑ k' : Fin 64, residS xb c2 s d' k' * residS xb c2 s d' k')) epsL2)

theorem outB_eq_outS (xb : Fin 1024 → Fin 512 → EReal) (c2 : Fin 512 → Fin 64 → EReal) (n : Fin 1024 → Fin 64 → EReal) :
    outB xb c2 n = outS xb c2 (fun i k => Cert.DenseRows.softmax (n i) k) := rfl

end Cert.Vlad

end
-- ==== Proof.LibOuterProduct.lean ====
/-
  The outer product of the rows of two matrices, flattened, and the slices that feed it, read at an index.

  For a matrix w of shape [a, n] and a matrix s of shape [a, c] the row-wise outer product is the [a, n, c] array
  w(p, r) · s(p, l); flattened row-major to [a, n·c] it holds that product at column r·c + l.  As lowered, w is given a
  trailing unit axis and spread over c, s is given a middle unit axis and spread over n, the two are multiplied entry
  by entry and the result is reshaped.  The matrices s come from a rank-three array [a, m, c] by a unit-thick slice
  along the middle axis with the unit axis dropped, possibly after a thicker slice along the same axis.  Every one of
  these operations only re-indexes, so each is read at an index given by its coordinates.
-/
import Idealize.ShloMosaic.Lib.Pipeline.Value
import Idealize.ShloMosaic.Lib.ValueIdx
import Idealize.ShloMosaic.PureOps.Ideal
import proofs.«150116_j36146444763171_2_alg».proof.Proof.LibInDimLayout

noncomputable section

namespace Cert.LibOuterProduct

open Idealize.ShloMosaic Idealize.ShloMosaic.ValueIdx

variable {α : Type}

/-- An [a, b, c] array flattened row-major to [a, n] (n = b·c) reads, at (r, j) with j = k·c + l, the array at (r, k, l). -/
theorem flatten_apply {a b c n : ℕ} (x : (⟨3, ![a, b, c]⟩ : Shape).Idx → α)
    (h : (⟨3, ![a, b, c]⟩ : Shape).ShapeCasts ⟨2, ![a, n]⟩) (hn : n = b * c)
    (r : Fin a) (k : Fin b) (l : Fin c) (j : Fin n) (hj : j.val = k.val * c + l.val) :
    shapeCast ⟨2, ![a, n]⟩ x h (ix2 r j) = x (ix3 r k l) :=
  shapeCast_apply x h _ _ (by
    rw [Shape.rowMajor_val_three, Shape.rowMajor_val_two]
    show (r.val * b + k.val) * c + l.val = r.val * n + j.val
    rw [hj, hn]; ring)

/-- An [a, 1, c] array with its unit axis dropped reads, at (p, l), the array at (p, 0, l). -/
theorem squeeze_apply {a c : ℕ} (x : (⟨3, ![a, 1, c]⟩ : Shape).Idx → α)
    (h : (⟨3, ![a, 1, c]⟩ : Shape).ShapeCasts ⟨2, ![a, c]⟩) (p : Fin a) (l : Fin c) :
    shapeCast ⟨2, ![a, c]⟩ x h (ix2 p l) = x (ix3 p (0 : Fin 1) l) :=
  shapeCast_apply x h _ _ (by
    rw [Shape.rowMajor_val_three, Shape.rowMajor_val_two]
    show (p.val * 1 + 0) * c + l.val = p.val * c + l.val
    ring)

/-- A matrix [a, c] placed on axes 0 and 2 of [a, 1, c]: entry (p, u, l) is the matrix at (p, l). -/
theorem inDim_ac_a1c_apply {a c : ℕ} (v : (⟨2, ![a, c]⟩ : Shape).Idx → α)
    (h : (⟨2, ![a, c]⟩ : Shape).BroadcastsInDim ⟨3, ![a, 1, c]⟩ ![0, 2]) (p : Fin a) (u : Fin 1) (l : Fin c) :
    broadcastInDim ⟨3, ![a, 1, c]⟩ ![0, 2] h v (ix3 p u l) = v (ix2 p l) := by
  refine broadcastInDim_apply _ h v (ix3 p u l) (ix2 p l) fun ax => ?_
  match ax with
  | ⟨0, _⟩ =>
    show p.val = if a = 1 then 0 else p.val
    split
    · have := p.isLt; omega
    · rfl
  | ⟨1, _⟩ =>
    show l.val = if c = 1 then 0 else l.val
    split
    · have := l.isLt; omega
    · rfl

/-- A slab [a, 1, c] spread over [a, b, c], axes kept in place: entry (p, r, l) is the slab at (p, 0, l). -/
theorem inDim_a1c_abc_apply {a b c : ℕ} (v : (⟨3, ![a, 1, c]⟩ : Shape).Idx → α)
    (h : (⟨3, ![a, 1, c]⟩ : Shape).BroadcastsInDim ⟨3, ![a, b, c]⟩ ![0, 1, 2]) (p : Fin a) (r : Fin b) (l : Fin c) :
    broadcastInDim ⟨3, ![a, b, c]⟩ ![0, 1, 2] h v (ix3 p r l) = v (ix3 p (0 : Fin 1) l) := by
  refine broadcastInDim_apply _ h v (ix3 p r l) (ix3 p (0 : Fin 1) l) fun ax => ?_
  match ax with
  | ⟨0, _⟩ =>
    show p.val = if a = 1 then 0 else p.val
    split
    · have := p.isLt; omega
    · rfl
  | ⟨1, _⟩ =>
    show (0 : ℕ) = if (1 : ℕ) = 1 then 0 else _
    rw [if_pos rfl]
  | ⟨2, _⟩ =>
    show l.val = if c = 1 then 0 else l.val
    split
    · have := l.isLt; omega
    · rfl

/-- A slice of an [a, n, c] array along its middle axis, b thick from offset o: entry (p, k, l) is the array at
    (p, o + k, l). -/
theorem slice_band_apply {a n b c : ℕ} (o : ℕ) (x : (⟨3, ![a, n, c]⟩ : Shape).Idx → α)
    (h : (⟨3, ![a, n, c]⟩ : Shape).Slices ![0, o, 0] ⟨3, ![a, b, c]⟩) (p : Fin a) (k : Fin b) (l : Fin c)
    (k' : Fin n) (hk : k'.val = o + k.val) :
    extractStridedSlice ⟨3, ![a, b, c]⟩ ![0, o, 0] x h (ix3 p k l) = x (ix3 p k' l) := by
  refine extractStridedSlice_apply ![0, o, 0] x h (ix3 p k l) (ix3 p k' l) fun ax => ?_
  match ax with
  | ⟨0, _⟩ => show p.val = 0 + p.val; omega
  | ⟨1, _⟩ => show k'.val = o + k.val; exact hk
  | ⟨2, _⟩ => show l.val = 0 + l.val; omega

/-- Column o of the middle axis of an [a, n, c] array as an [a, c] matrix: the unit-thick slice with its unit axis
    dropped. -/
def pick {a n c : ℕ} (o : ℕ) (x : (⟨3, ![a, n, c]⟩ : Shape).Idx → α)
    (h1 : (⟨3, ![a, n, c]⟩ : Shape).Slices ![0, o, 0] ⟨3, ![a, 1, c]⟩)
    (h2 : (⟨3, ![a, 1, c]⟩ : Shape).ShapeCasts ⟨2, ![a, c]⟩) : (⟨2, ![a, c]⟩ : Shape).Idx → α :=
  shapeCast ⟨2, ![a, c]⟩ (extractStridedSlice ⟨3, ![a, 1, c]⟩ ![0, o, 0] x h1) h2

/-- It reads, at (p, l), the array at (p, o, l). -/
theorem pick_apply {a n c : ℕ} (o : ℕ) (x : (⟨3, ![a, n, c]⟩ : Shape).Idx → α)
    (h1 : (⟨3, ![a, n, c]⟩ : Shape).Slices ![0, o, 0] ⟨3, ![a, 1, c]⟩)
    (h2 : (⟨3, ![a, 1, c]⟩ : Shape).ShapeCasts ⟨2, ![a, c]⟩) (p : Fin a) (l : Fin c) (k : Fin n) (hk : k.val = o) :
    pick o x h1 h2 (ix2 p l) = x (ix3 p k l) :=
  (squeeze_apply _ h2 p l).trans (slice_band_apply o x h1 p (0 : Fin 1) l k (by simpa using hk))

/-- The flattened row-wise outer product of w : [a, n] and s : [a, c] on the extended reals, as lowered. -/
def outer {a n c N : ℕ} (w : FVec Ideal ⟨2, ![a, n]⟩ .f32) (s : FVec Ideal ⟨2, ![a, c]⟩ .f32)
    (hw1 : (⟨2, ![a, n]⟩ : Shape).BroadcastsInDim ⟨3, ![a, n, 1]⟩ ![0, 1])
    (hw2 : (⟨3, ![a, n, 1]⟩ : Shape).BroadcastsInDim ⟨3, ![a, n, c]⟩ ![0, 1, 2])
    (hs1 : (⟨2, ![a, c]⟩ : Shape).BroadcastsInDim ⟨3, ![a, 1, c]⟩ ![0, 2])
    (hs2 : (⟨3, ![a, 1, c]⟩ : Shape).BroadcastsInDim ⟨3, ![a, n, c]⟩ ![0, 1, 2])
    (hc : (⟨3, ![a, n, c]⟩ : Shape).ShapeCasts ⟨2, ![a, N]⟩) : FVec Ideal ⟨2, ![a, N]⟩ .f32 :=
  shapeCast ⟨2, ![a, N]⟩
    (mulf (F := Ideal) (φ := .f32) (broadcastInDim ⟨3, ![a, n, c]⟩ ![0, 1, 2] hw2 (broadcastInDim ⟨3, ![a, n, 1]⟩ ![0, 1] hw1 w))
      (broadcastInDim ⟨3, ![a, n, c]⟩ ![0, 1, 2] hs2 (broadcastInDim ⟨3, ![a, 1, c]⟩ ![0, 2] hs1 s))) hc

/-- At column j = r·c + l of row p it is w(p, r) · s(p, l). -/
theorem outer_apply {a n c N : ℕ} (w : FVec Ideal ⟨2, ![a, n]⟩ .f32) (s : FVec Ideal ⟨2, ![a, c]⟩ .f32)
    (hw1 : (⟨2, ![a, n]⟩ : Shape).BroadcastsInDim ⟨3, ![a, n, 1]⟩ ![0, 1])
    (hw2 : (⟨3, ![a, n, 1]⟩ : Shape).BroadcastsInDim ⟨3, ![a, n, c]⟩ ![0, 1, 2])
    (hs1 : (⟨2, ![a, c]⟩ : Shape).BroadcastsInDim ⟨3, ![a, 1, c]⟩ ![0, 2])
    (hs2 : (⟨3, ![a, 1, c]⟩ : Shape).BroadcastsInDim ⟨3, ![a, n, c]⟩ ![0, 1, 2])
    (hc : (⟨3, ![a, n, c]⟩ : Shape).ShapeCasts ⟨2, ![a, N]⟩) (hN : N = n * c)
    (p : Fin a) (r : Fin n) (l : Fin c) (j : Fin N) (hj : j.val = r.val * c + l.val) :
    outer w s hw1 hw2 hs1 hs2 hc (ix2 p j) = w (ix2 p r) * s (ix2 p l) := by
  unfold outer
  rw [flatten_apply _ hc hN p r l j hj]
  show broadcastInDim ⟨3, ![a, n, c]⟩ ![0, 1, 2] hw2 (broadcastInDim ⟨3, ![a, n, 1]⟩ ![0, 1] hw1 w) (ix3 p r l)
      * broadcastInDim ⟨3, ![a, n, c]⟩ ![0, 1, 2] hs2 (broadcastInDim ⟨3, ![a, 1, c]⟩ ![0, 2] hs1 s) (ix3 p r l) = _
  rw [LibInDimLayout.inDim_ab1_abc_apply, LibInDimLayout.inDim_ab_ab1_apply, inDim_a1c_abc_apply, inDim_ac_a1c_apply]

end Cert.LibOuterProduct

end
-- ==== Proof.RefResid.lean ====
/-
  The second half of the reference's value, read at an index on the extended reals.

  From the soft weights s (one row of 64 weights for each of the 65536 descriptor rows) the reference forms, per
  batch b, the residual at feature d and cluster k: the sum over the batch's 1024 rows i of x(b, i, d) · s(b·1024 + i, k)
  minus the summed weights ∑ i s(b·1024 + i, k) times the second cluster matrix at (d, k).  The [64, 512, 64] array of
  residuals is flattened to [64, 32768], column d·64 + k holding the entry (d, k), and every row is divided by its
  Euclidean norm bounded below by a small constant.  Each operation on the way only re-indexes, multiplies entry by
  entry, or sums along one axis, so the value at (b, d·64 + k) is the per-batch formula of the specification.
-/
import proofs.«150116_j36146444763171_2_alg».proof.Proof.RefTerm
import proofs.«150116_j36146444763171_2_alg».proof.Proof.VladSpec
import proofs.«150116_j36146444763171_2_alg».proof.Proof.VladSoft
import proofs.«150116_j36146444763171_2_alg».proof.Proof.LibOuterProduct
import proofs.«150116_j36146444763171_2_alg».proof.Proof.LibRowPairs
import proofs.«150116_j36146444763171_2_alg».proof.Proof.LibInDimLayout
import Idealize.ShloMosaic.PureOps.Ideal.Laws
import Idealize.ShloMosaic.PureOps.Reduce
import Idealize.ShloMosaic.Lib.ValueIdx
import Idealize.ShloMosaic.Lib.Pipeline.Value

noncomputable section

namespace Cert.RefResid

open Idealize.ShloMosaic Idealize.ShloMosaic.ValueIdx
open scoped BigOperators

/-! ## A batched product contracting the middle axis of both operands

  [B, K, M] against [B, K, N] with axis 0 the batch axis of both and axis 1 contracted: at (g, p, f) the sum over d of
  a(g, d, p) · w(g, d, f). -/

section Mid

variable {B K M N : Nat}
variable (wf : DotDims.WF ⟨3, ![B, K, M]⟩ ⟨3, ![B, K, N]⟩ ⟨3, ![B, M, N]⟩ [1] [1] [2] [2] [0] [0])

/-- The literal record: axis 0 the batch axis of both, both contracted on axis 1. -/
abbrev mid : DotDims ⟨3, ![B, K, M]⟩ ⟨3, ![B, K, N]⟩ ⟨3, ![B, M, N]⟩ := ⟨[1], [1], [2], [2], [0], [0], wf⟩

theorem mid_lhs0 (i : (⟨3, ![B, M, N]⟩ : Shape).Idx) (q : (mid wf).contr.Idx) : ((mid wf).lhsIdx i q 0).val = (i 0).val := by
  unfold DotDims.lhsIdx
  rw [dif_pos (show (0 : Fin 3) ∈ (mid wf).lhsBatch from (by decide : (0 : Fin 3) ∈ ([0] : List (Fin 3))))]
  rfl

theorem mid_lhs1 (i : (⟨3, ![B, M, N]⟩ : Shape).Idx) (q : (mid wf).contr.Idx) : ((mid wf).lhsIdx i q 1).val = (q ⟨0, Nat.one_pos⟩).val :=
  (mid wf).lhsIdx_val_of_single rfl i q

theorem mid_lhs2 (i : (⟨3, ![B, M, N]⟩ : Shape).Idx) (q : (mid wf).contr.Idx) : ((mid wf).lhsIdx i q 2).val = (i 1).val := by
  unfold DotDims.lhsIdx
  rw [dif_neg (show ¬(2 : Fin 3) ∈ (mid wf).lhsBatch from (by decide : ¬(2 : Fin 3) ∈ ([0] : List (Fin 3)))), dif_pos (show (2 : Fin 3) ∈ (mid wf).lhsNonContracting from (by decide : (2 : Fin 3) ∈ ([2] : List (Fin 3))))]
  rfl

theorem mid_rhs0 (i : (⟨3, ![B, M, N]⟩ : Shape).Idx) (q : (mid wf).contr.Idx) : ((mid wf).rhsIdx i q 0).val = (i 0).val := by
  unfold DotDims.rhsIdx
  rw [dif_pos (show (0 : Fin 3) ∈ (mid wf).rhsBatch from (by decide : (0 : Fin 3) ∈ ([0] : List (Fin 3))))]
  rfl

theorem mid_rhs1 (i : (⟨3, ![B, M, N]⟩ : Shape).Idx) (q : (mid wf).contr.Idx) : ((mid wf).rhsIdx i q 1).val = (q ⟨0, Nat.one_pos⟩).val :=
  (mid wf).rhsIdx_val_of_single rfl i q

theorem mid_rhs2 (i : (⟨3, ![B, M, N]⟩ : Shape).Idx) (q : (mid wf).contr.Idx) : ((mid wf).rhsIdx i q 2).val = (i 2).val := by
  unfold DotDims.rhsIdx
  rw [dif_neg (show ¬(2 : Fin 3) ∈ (mid wf).rhsBatch from (by decide : ¬(2 : Fin 3) ∈ ([0] : List (Fin 3)))), dif_pos (show (2 : Fin 3) ∈ (mid wf).rhsNonContracting from (by decide : (2 : Fin 3) ∈ ([2] : List (Fin 3))))]
  rfl

/-- The host's batched product contracting the middle axis, at (g, p, f). -/
theorem dot_mid {φ₁ φ₂ : FTy} (D : DotDims ⟨3, ![B, K, M]⟩ ⟨3, ![B, K, N]⟩ ⟨3, ![B, M, N]⟩) (hD : D = mid wf)
    (prec : Option ContractPrecision) (a : FVec Ideal ⟨3, ![B, K, M]⟩ φ₁) (w : FVec Ideal ⟨3, ![B, K, N]⟩ φ₂) (g : Fin B) (p : Fin M) (f : Fin N) :
    Host.dotGeneral D prec a w (ix3 g p f) = ∑ d : Fin K, a (ix3 g d p) * w (ix3 g d f) := by
  subst hD
  refine (Ideal.dotGeneral_apply _ prec .single a w (ix3 g p f)).trans ?_
  rw [← Equiv.sum_comp (contrEquiv1 (mid wf) K rfl rfl).symm]
  refine Finset.sum_congr rfl fun k _ => ?_
  have hk := contrEquiv1_symm_val (mid wf) K rfl rfl k
  have el : (mid wf).lhsIdx (ix3 g p f) ((contrEquiv1 (mid wf) K rfl rfl).symm k) = ix3 g k p := funext fun x => Fin.ext (by
    match x with
    | ⟨0, _⟩ => exact mid_lhs0 wf _ _
    | ⟨1, _⟩ => exact (mid_lhs1 wf _ _).trans hk
    | ⟨2, _⟩ => exact mid_lhs2 wf _ _)
  have er : (mid wf).rhsIdx (ix3 g p f) ((contrEquiv1 (mid wf) K rfl rfl).symm k) = ix3 g k f := funext fun x => Fin.ext (by
    match x with
    | ⟨0, _⟩ => exact mid_rhs0 wf _ _
    | ⟨1, _⟩ => exact (mid_rhs1 wf _ _).trans hk
    | ⟨2, _⟩ => exact mid_rhs2 wf _ _)
  rw [el, er]

end Mid

/-! ## Layout steps -/

section Layout

variable {α : Type}

/-- A slab [1, b, c] spread over [a, b, c], axes kept in place: entry (p, r, l) is the slab at (0, r, l). -/
theorem inDim_1bc_abc_apply {a b c : ℕ} (v : (⟨3, ![1, b, c]⟩ : Shape).Idx → α)
    (h : (⟨3, ![1, b, c]⟩ : Shape).BroadcastsInDim ⟨3, ![a, b, c]⟩ ![0, 1, 2]) (p : Fin a) (r : Fin b) (l : Fin c) :
    broadcastInDim ⟨3, ![a, b, c]⟩ ![0, 1, 2] h v (ix3 p r l) = v (ix3 (0 : Fin 1) r l) := by
  refine broadcastInDim_apply _ h v (ix3 p r l) (ix3 (0 : Fin 1) r l) fun ax => ?_
  match ax with
  | ⟨0, _⟩ =>
    show (0 : ℕ) = if (1 : ℕ) = 1 then 0 else _
    rw [if_pos rfl]
  | ⟨1, _⟩ =>
    show r.val = if b = 1 then 0 else r.val
    split
    · have := r.isLt; omega
    · rfl
  | ⟨2, _⟩ =>
    show l.val = if c = 1 then 0 else l.val
    split
    · have := l.isLt; omega
    · rfl

/-- Over the pair (p, l) of an [a, b, c] array, the index with middle coordinate k inserted is (p, k, l). -/
theorem lift_mid {a b c : ℕ} (h : (⟨3, ![a, b, c]⟩ : Shape).Reduces [1] ⟨2, ![a, c]⟩) (p : Fin a) (l : Fin c) (k : Fin b) :
    h.lift (ix2 p l) k = ix3 p k l :=
  funext fun x => Fin.ext (by match x with | ⟨0, _⟩ => rfl | ⟨1, _⟩ => rfl | ⟨2, _⟩ => rfl)

/-- Over row p of an [a, b] array, the index with column k inserted is (p, k). -/
theorem lift_last {a b : ℕ} (h : (⟨2, ![a, b]⟩ : Shape).Reduces [1] ⟨1, ![a]⟩) (p : Fin a) (k : Fin b) :
    h.lift (ix1 p) k = ix2 p k :=
  funext fun x => Fin.ext (by match x with | ⟨0, _⟩ => rfl | ⟨1, _⟩ => rfl)

end Layout

/-- The host's sum along the middle axis of an [a, b, c] array from the zero word, at (p, l). -/
theorem hostSum_mid {a b c : ℕ} (x : FVec Ideal ⟨3, ![a, b, c]⟩ .f32)
    (h' : (⟨3, ![a, b, c]⟩ : Shape).ReducesTo [1] ⟨2, ![a, c]⟩) (h : (⟨3, ![a, b, c]⟩ : Shape).Reduces [1] ⟨2, ![a, c]⟩)
    (hu : 0 < (⟨0, ![]⟩ : Shape).numel) (p : Fin a) (l : Fin c) :
    Host.reduceAdd (F := Ideal) x (constant (F := Ideal) ⟨0, ![]⟩ .f32 0x00000000#32) h' hu (ix2 p l) = ∑ k : Fin b, x (ix3 p k l) := by
  show Ideal.hostReduceAdd h' x (Ideal.ofBits .f32 0x00000000#32) (ix2 p l) = _
  rw [Ideal.hostReduceAdd_single h' h x _ (ix2 p l), Ideal.ofBits_zero_f32, zero_add]
  exact Finset.sum_congr rfl fun k _ => congrArg x (lift_mid h p l k)

/-- The host's sum along the rows of an [a, b] array from the zero word, at row p. -/
theorem hostSum_last {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x (constant (F := Ideal) ⟨0, ![]⟩ .f32 0x00000000#32) h' hu (ix1 p) = ∑ k : Fin b, x (ix2 p k) := by
  show Ideal.hostReduceAdd h' x (Ideal.ofBits .f32 0x00000000#32) (ix1 p) = _
  rw [Ideal.hostReduceAdd_single h' h x _ (ix1 p), Ideal.ofBits_zero_f32, zero_add]
  exact Finset.sum_congr rfl fun k _ => congrArg x (lift_last h p k)

/-- The host's division, entry by entry. -/
theorem hostDivf_apply {s : Shape} (x y : FVec Ideal s .f32) (i : s.Idx) :
    Host.divf (F := Ideal) x y i = Ideal.div (x i) (y i) := rfl

/-- The host's square root, entry by entry. -/
theorem hostSqrt_apply {s : Shape} (x : FVec Ideal s .f32) (i : s.Idx) :
    Host.sqrt (F := Ideal) x i = Ideal.sqrt (x i) := rfl

end Cert.RefResid

namespace Cert.ReferenceIdeal.RefValue

open Cert.ReferenceIdeal Idealize.ShloMosaic Idealize.ShloMosaic.ValueIdx Facts₀
open scoped BigOperators

/-- The flattened residuals at (b, d·64 + k): the weighted sum of feature d over the batch's rows minus the summed
    weights times the second cluster matrix at (d, k). -/
theorem residT_apply (X : FVec Ideal S64x1024x512 .f32) (C2 : FVec Ideal S1x512x64 .f32) (S : FVec Ideal S65536x64 .f32)
    (b : Fin 64) (d : Fin 512) (k : Fin 64) :
    residT X C2 S (ix2 b ⟨d.val * 64 + k.val, by omega⟩)
      = Cert.Vlad.residS (Cert.Vlad.cur3 X b) (Cert.Vlad.cur2u C2) (fun i k' => S (ix2 (Cert.Vlad.row b i) k')) d k := by
  -- the weights as [64, 1024, 64]: entry (b, i, k') is row b·1024 + i of the matrix, column k'
  have hS3 : ∀ (i : Fin 1024) (k' : Fin 64),
      shapeCast S64x1024x64 S shapeCasts_S65536x64_S64x1024x64 (ix3 b i k') = S (ix2 (Cert.Vlad.row b i) k') :=
    fun i k' => RowPairs.shapeCast_nc_abc_apply S _ b i k' (Cert.Vlad.row b i) rfl
  unfold residT
  refine (Cert.LibOuterProduct.flatten_apply _ shapeCasts_S64x512x64_S64x32768 (by norm_num) b d k _ rfl).trans ?_
  rw [subf_apply, mulf_apply]
  rw [Cert.RefResid.dot_mid dot_S64x1024x512_S64x1024x64_S64x512x64_1_1_2_2_0_0_wf dot_S64x1024x512_S64x1024x64_S64x512x64_1_1_2_2_0_0 rfl none X _ b d k,
    Cert.LibOuterProduct.inDim_a1c_abc_apply, Cert.LibOuterProduct.inDim_ac_a1c_apply,
    Cert.RefResid.hostSum_mid _ _ (by decide) _ b k, Cert.RefResid.inDim_1bc_abc_apply]
  unfold Cert.Vlad.residS Cert.Vlad.cur3 Cert.Vlad.cur2u
  simp only [hS3]

/-- Each row divided by its Euclidean norm bounded below, at (b, j). -/
theorem normT_apply (V : FVec Ideal S64x32768 .f32) (b : Fin 64) (j : Fin 32768) :
    normT V (ix2 b j)
      = Ideal.div (V (ix2 b j)) (max (Ideal.sqrt (∑ j' : Fin 32768, V (ix2 b j') * V (ix2 b j'))) Cert.Vlad.epsL2) := by
  unfold normT
  rw [Cert.RefResid.hostDivf_apply]
  refine congrArg (Ideal.div _) ?_
  refine (Cert.LibInDimLayout.inDim_a1_ab_apply _ bcast_S64x1_S64x32768_0_1 b j).trans ?_
  rw [maximumf_apply, Cert.RefResid.hostSqrt_apply]
  refine congrArg₂ max (congrArg Ideal.sqrt ?_) rfl
  refine (Cert.LibInDimLayout.inDim_a_a1_apply _ bcast_S64_S64x1_0 b 0).trans ?_
  exact Cert.RefResid.hostSum_last (mulf V V) reducesTo_S64x32768_S64_d1 (by decide) h_S_ b

/-- A sum over m · n positions taken block by block: position k + n · d is the k-th of block d. -/
theorem sum_fin_mul {M : Type*} [AddCommMonoid M] {m n : ℕ} (f : Fin (m * n) → M) :
    ∑ j : Fin (m * n), f j = ∑ d : Fin m, ∑ k : Fin n, f (finProdFinEquiv (d, k)) := by
  rw [← Equiv.sum_comp finProdFinEquiv f, Fintype.sum_prod_type]

/-- A sum over the 32768 columns is the sum over the feature d of the sum over the cluster k of the term at d·64 + k. -/
theorem flat_sum {M : Type*} [AddCommMonoid M] (f : Fin 32768 → M) :
    ∑ j : Fin 32768, f j = ∑ d : Fin 512, ∑ k : Fin 64, f ⟨d.val * 64 + k.val, by omega⟩ := by
  refine (sum_fin_mul (m := 512) (n := 64) f).trans ?_
  refine Finset.sum_congr rfl fun d _ => Finset.sum_congr rfl fun k _ => congrArg f (Fin.ext ?_)
  show k.val + 64 * d.val = d.val * 64 + k.val
  omega

/-- The reference's normalised residuals at (b, j): the per-batch result at feature j / 64 and cluster j % 64. -/
theorem norm_resid_apply (X : FVec Ideal S64x1024x512 .f32) (C2 : FVec Ideal S1x512x64 .f32) (S : FVec Ideal S65536x64 .f32)
    (b : Fin 64) (j : Fin 32768) :
    normT (residT X C2 S) (ix2 b j)
      = Cert.Vlad.outS (Cert.Vlad.cur3 X b) (Cert.Vlad.cur2u C2) (fun i k' => S (ix2 (Cert.Vlad.row b i) k'))
          ⟨j.val / 64, by omega⟩ ⟨j.val % 64, Nat.mod_lt _ (by norm_num)⟩ := by
  have hj : j = ⟨(j.val / 64) * 64 + j.val % 64, by omega⟩ := Fin.ext (by show j.val = (j.val / 64) * 64 + j.val % 64; omega)
  have h1 : residT X C2 S (ix2 b j)
      = Cert.Vlad.residS (Cert.Vlad.cur3 X b) (Cert.Vlad.cur2u C2) (fun i k' => S (ix2 (Cert.Vlad.row b i) k'))
          ⟨j.val / 64, by omega⟩ ⟨j.val % 64, Nat.mod_lt _ (by norm_num)⟩ :=
    (congrArg (fun t => residT X C2 S (ix2 b t)) hj).trans
      (residT_apply X C2 S b ⟨j.val / 64, by omega⟩ ⟨j.val % 64, Nat.mod_lt _ (by norm_num)⟩)
  rw [normT_apply, h1, flat_sum (fun j' => residT X C2 S (ix2 b j') * residT X C2 S (ix2 b j'))]
  simp only [residT_apply]
  rfl

end Cert.ReferenceIdeal.RefValue

end
-- ==== Proof.RefRead.lean ====
/-
  The reference's result at (b, j), j = d * 64 + k: the residual of batch b at (d, k) over the row softmax of the
  centred batch normalisation of the assignments, divided by the batch's norm — the specification's result with the
  centred normalisation.
-/
import proofs.«150116_j36146444763171_2_alg».proof.Proof.RefNorm
import proofs.«150116_j36146444763171_2_alg».proof.Proof.RefResid

noncomputable section

namespace Cert.ReferenceIdeal.RefValue

open Cert.ReferenceIdeal Idealize.ShloMosaic Idealize.ShloMosaic.ValueIdx

theorem refTerm_apply (X : FVec Ideal S64x1024x512 .f32) (C : FVec Ideal S512x64 .f32) (C2 : FVec Ideal S1x512x64 .f32)
    (G B : FVec Ideal S64 .f32) (b : Fin 64) (j : Fin 32768) :
    refTerm X C C2 G B (ix2 b j) = Cert.Vlad.result Cert.Vlad.nrmC X C C2 G B b j := by
  unfold refTerm
  rw [norm_resid_apply]
  have hs : (fun (i : Fin 1024) (k' : Fin 64) => softT (nrmT (assign X C) G B) (ix2 (Cert.Vlad.row b i) k'))
      = fun i k' => Cert.DenseRows.softmax ((fun i => Cert.Vlad.nrmC (Cert.Vlad.asgOf X C) (Cert.Vlad.cur1 G) (Cert.Vlad.cur1 B) (Cert.Vlad.row b i)) i) k' :=
    funext fun i => funext fun k' => soft_nrm_apply X C G B (Cert.Vlad.row b i) k'
  rw [hs, ← Cert.Vlad.outB_eq_outS]
  rfl

end Cert.ReferenceIdeal.RefValue

end
-- ==== Proof.KerRun.lean ====
/-
  The kernel program's run with its result named: every execution ends with each unscoped buffer at the fold of
  the program's segments over the launch memory — the host operations before the first kernel, the first kernel's
  write-backs, the host operations between, the second kernel's write-backs, the closing reshape — so the result
  buffer holds that fold's value, and the argument arrays are as launched.
-/
import proofs.«150116_j36146444763171_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's five segments, the final state read at the result buffer as well as at the
    arguments. -/
theorem run_fold : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.KerRun

end
-- ==== Proof.KerHost.lean ====
/-
  Which buffers the host operations and the kernels leave alone: an argument array read at the second kernel's
  entry, or at the first kernel's exit, still holds its launch contents; the reshaped second cluster matrix written
  before the first kernel is still there at the second kernel's entry.
-/
import proofs.«150116_j36146444763171_2_alg».proof.Proof.Gen.KernelIdeal.Frame

set_option maxRecDepth 16384

noncomputable section

namespace Cert.KernelIdeal.KerHost

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An argument the first stretch of host operations does not write keeps its launch contents. -/
theorem W1_of_arg (c : Dev nD) (b : Ref sig .tc) (hb : (hostOps0 : List (HloOp τ sig (Elt F))).Forall fun op => Proc.devRef .tc b ∉ op.writes) :
    W1 m ρ c (Proc.devRef .tc b) = W0 m ρ c (Proc.devRef .tc b) :=
  StableHlo.after_of_forall_not_mem (b := Proc.devRef .tc b) _ _ (List.forall_iff_forall_mem.mp hb)

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v0 (c : Dev nD) : W2 m ρ c (Proc.devRef .tc main_v0) = W1 m ρ c (Proc.devRef .tc main_v0) :=
  W2_of_ne m ρ c main_v0 (by decide)

theorem W3_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arg0 m ρ c)
theorem W3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arg1 m ρ c)
theorem W3_v0 (c : Dev nD) : W3 m ρ c (Proc.devRef .tc main_v0) = W1 m ρ c (Proc.devRef .tc main_v0) :=
  (StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_v0 m ρ c)

end Cert.KernelIdeal.KerHost

end
-- ==== Proof.KerVlad.lean ====
/-
  The second kernel's output array after its run, as one function of the buffers it finds at entry.  Grid point b
  reads batch b of the descriptors (block (b, 0, 0) of [64, 1024, 512]) and the four small operands whole, and writes
  block (b, 0, 0) of the [64, 512, 64] output; the 64 blocks tile the output, so the array at (b, d, k) is what point b's
  body leaves at (0, d, k).
-/
import proofs.«150116_j36146444763171_2_alg».proof.Proof.Gen.KernelIdeal.Frame
import Idealize.ShloMosaic.Lib.Pipeline.Value
import Idealize.ShloMosaic.Lib.ValueIdx

set_option maxRecDepth 16384

noncomputable section

namespace Cert.KernelIdeal.KerVlad

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem N_1 : cfg1.N = 64 := by decide

/-- The index maps over the grid: the descriptors' and the output's block index is (t, 0, 0); the small operands'
    blocks are their whole arrays. -/
theorem idx_facts : ∀ t : Fin cfg1.N,
    win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 :=
  (by decide +kernel : ∀ t : Fin grid1.N, _)

/-- Batch b of the descriptors as a [1, 1024, 512] block. -/
def batch (c : Dev nD) (b : Fin 64) : Vec F S1x1024x512 .f32 :=
  fun y => V c main_arg0 (ix3 b ⟨(y 1).val, (y 1).isLt⟩ ⟨(y 2).val, (y 2).isLt⟩)

/-- What the output array holds after the run. -/
def arr (c : Dev nD) : S64x512x64.Idx → Elt F .f32 :=
  fun i => out1_5 (batch V c ⟨(i 0).val, (i 0).isLt⟩) (V c main_arg1) (V c main_v0) (V c main_v22) (V c main_v24)
    (ix3 (0 : Fin 1) ⟨(i 1).val, (i 1).isLt⟩ ⟨(i 2).val, (i 2).isLt⟩)

theorem iblk_0 (c : Dev nD) (t : Fin cfg1.N) : iblk1 V c 0 t = batch V c ⟨t.val, N_1 ▸ t.isLt⟩ := by
  obtain ⟨e0, e1, e2, -⟩ := idx_facts t
  funext y
  unfold iblk1 batch
  rw [View.read_apply]
  show V c main_arg0 _ = V c main_arg0 _
  refine congrArg _ ?_
  funext a
  apply Fin.ext
  have h0 : (y 0).val < 1 := (y 0).isLt
  match a with
  | ⟨0, _⟩ => show win1_0.index t (0 : Fin 3) * 1 + 1 * (y 0).val = t.val; omega
  | ⟨1, _⟩ => show win1_0.index t (1 : Fin 3) * 1024 + 1 * (y 1).val = (y 1).val; omega
  | ⟨2, _⟩ => show win1_0.index t (2 : Fin 3) * 512 + 1 * (y 2).val = (y 2).val; omega

theorem iblk_1 (c : Dev nD) (t : Fin cfg1.N) : iblk1 V c 1 t = V c main_arg1 := by
  obtain ⟨-, -, -, -, -, -, e0, e1, -⟩ := idx_facts t
  funext y
  unfold iblk1
  rw [View.read_apply]
  show V c main_arg1 _ = V c main_arg1 _
  refine congrArg _ ?_
  funext a
  apply Fin.ext
  match a with
  | ⟨0, _⟩ => show win1_1.index t (0 : Fin 2) * 512 + 1 * (y 0).val = (y 0).val; omega
  | ⟨1, _⟩ => show win1_1.index t (1 : Fin 2) * 64 + 1 * (y 1).val = (y 1).val; omega

theorem iblk_2 (c : Dev nD) (t : Fin cfg1.N) : iblk1 V c 2 t = V c main_v0 := by
  obtain ⟨-, -, -, -, -, -, -, -, e0, e1, -⟩ := idx_facts t
  funext y
  unfold iblk1
  rw [View.read_apply]
  show V c main_v0 _ = V c main_v0 _
  refine congrArg _ ?_
  funext a
  apply Fin.ext
  match a with
  | ⟨0, _⟩ => show win1_2.index t (0 : Fin 2) * 512 + 1 * (y 0).val = (y 0).val; omega
  | ⟨1, _⟩ => show win1_2.index t (1 : Fin 2) * 64 + 1 * (y 1).val = (y 1).val; omega

theorem iblk_3 (c : Dev nD) (t : Fin cfg1.N) : iblk1 V c 3 t = V c main_v22 := by
  obtain ⟨-, -, -, -, -, -, -, -, -, -, e0, -⟩ := idx_facts t
  funext y
  unfold iblk1
  rw [View.read_apply]
  show V c main_v22 _ = V c main_v22 _
  refine congrArg _ ?_
  funext a
  apply Fin.ext
  match a with
  | ⟨0, _⟩ => show win1_3.index t (0 : Fin 1) * 64 + 1 * (y 0).val = (y 0).val; omega

theorem iblk_4 (c : Dev nD) (t : Fin cfg1.N) : iblk1 V c 4 t = V c main_v24 := by
  obtain ⟨-, -, -, -, -, -, -, -, -, -, -, e0⟩ := idx_facts t
  funext y
  unfold iblk1
  rw [View.read_apply]
  show V c main_v24 _ = V c main_v24 _
  refine congrArg _ ?_
  funext a
  apply Fin.ext
  match a with
  | ⟨0, _⟩ => show win1_4.index t (0 : Fin 1) * 64 + 1 * (y 0).val = (y 0).val; omega

/-- The array function at an index with given coordinates. -/
theorem arr_at (c : Dev nD) (b : Fin 64) (d : Fin 512) (k : Fin 64) (i : S64x512x64.Idx)
    (h0 : (i 0).val = b.val) (h1 : (i 1).val = d.val) (h2 : (i 2).val = k.val) :
    arr V c i = out1_5 (batch V c b) (V c main_arg1) (V c main_v0) (V c main_v22) (V c main_v24) (ix3 (0 : Fin 1) d k) := by
  have e0 : (⟨(i 0).val, (i 0).isLt⟩ : Fin 64) = b := Fin.ext h0
  have e1 : (⟨(i 1).val, (i 1).isLt⟩ : Fin 512) = d := Fin.ext h1
  have e2 : (⟨(i 2).val, (i 2).isLt⟩ : Fin 64) = k := Fin.ext h2
  unfold arr
  rw [e0, e1, e2]

/-- What point t writes back is block t of the array function. -/
theorem flushed_eq (c : Dev nD) (t : Fin cfg1.N) :
    (dat1 V c).flushed 5 t = ((cfg1.win 5).blk t).view.read (Elt F) (arr V c) := by
  show (cfg1.win 5).cut (grid1.coords t) ((dat1 V c).after 5 t) = _
  rw [after1_5, iblk_0 V c t, iblk_1 V c t, iblk_2 V c t, iblk_3 V c t, iblk_4 V c t]
  obtain ⟨-, -, -, e0, e1, e2, -⟩ := idx_facts t
  funext y
  rw [View.read_apply]
  have h0 : (y 0).val < 1 := (y 0).isLt
  have h1 : (y 1).val < 512 := (y 1).isLt
  have h2 : (y 2).val < 64 := (y 2).isLt
  have he : (((cfg1.win 5).blk t).view.emb y) = (ix3 (⟨t.val, N_1 ▸ t.isLt⟩ : Fin 64) (⟨(y 1).val, h1⟩ : Fin 512) (⟨(y 2).val, h2⟩ : Fin 64) : S64x512x64.Idx) := by
    funext a
    apply Fin.ext
    match a with
    | ⟨0, _⟩ => show win1_5.index t (0 : Fin 3) * 1 + 1 * (y 0).val = t.val; omega
    | ⟨1, _⟩ => show win1_5.index t (1 : Fin 3) * 512 + 1 * (y 1).val = (y 1).val; omega
    | ⟨2, _⟩ => show win1_5.index t (2 : Fin 3) * 64 + 1 * (y 2).val = (y 2).val; omega
  rw [he, arr_at V c ⟨t.val, N_1 ▸ t.isLt⟩ ⟨(y 1).val, h1⟩ ⟨(y 2).val, h2⟩ _ rfl rfl rfl]
  generalize out1_5 (batch V c ⟨t.val, N_1 ▸ t.isLt⟩) (V c main_arg1) (V c main_v0) (V c main_v22) (V c main_v24) = f
  refine congrArg f ?_
  funext a
  apply Fin.ext
  match a with
  | ⟨0, _⟩ => show (y 0).val = 0; omega
  | ⟨1, _⟩ => rfl
  | ⟨2, _⟩ => rfl

theorem mem_blk (t : Fin cfg1.N) (i : S64x512x64.Idx) :
    i ∈ ((cfg1.win 5).blk t).view.set ↔ ∀ a : Fin 3, win1_5.index t a * S1x512x64.size a ≤ (i a).val ∧ (i a).val < win1_5.index t a * S1x512x64.size a + S1x512x64.size a := by
  show i ∈ ((View.whole main_v25).slice (win1_5.rect t)).set ↔ _
  rw [View.set_slice_whole, Rect.mem_set_unit]
  exact Iff.rfl

/-- The 64 blocks cover the output. -/
theorem cover (i : S64x512x64.Idx) :
    ∃ t : Fin cfg1.N, (cfg1.win 5).flush t = true ∧ i ∈ ((cfg1.win 5).blk t).view.set := by
  have h0 : (i 0).val < 64 := (i 0).isLt
  have h1 : (i 1).val < 512 := (i 1).isLt
  have h2 : (i 2).val < 64 := (i 2).isLt
  have ht : (i 0).val < cfg1.N := N_1 ▸ h0
  refine ⟨⟨(i 0).val, ht⟩, flush1_5 _, ?_⟩
  obtain ⟨-, -, -, e0, e1, e2, -⟩ := idx_facts ⟨(i 0).val, ht⟩
  have e0 : win1_5.index ⟨(i 0).val, ht⟩ (0 : Fin 3) = (i 0).val := e0
  rw [mem_blk]
  intro a
  match a with
  | ⟨0, _⟩ => show win1_5.index _ (0 : Fin 3) * 1 ≤ (i 0).val ∧ (i 0).val < win1_5.index _ (0 : Fin 3) * 1 + 1; rw [e0]; omega
  | ⟨1, _⟩ => show win1_5.index _ (1 : Fin 3) * 512 ≤ (i 1).val ∧ (i 1).val < win1_5.index _ (1 : Fin 3) * 512 + 512; rw [e1]; omega
  | ⟨2, _⟩ => show win1_5.index _ (2 : Fin 3) * 64 ≤ (i 2).val ∧ (i 2).val < win1_5.index _ (2 : Fin 3) * 64 + 64; rw [e2]; omega

/-- The output array after the run. -/
theorem final (c : Dev nD) : (dat1 V c).arrAt 5 cfg1.N = arr V c :=
  (dat1 V c).arrAt_eq_of_cover 5 (arr V c) (fun t _ => flushed_eq V c t) (cover)

end Cert.KernelIdeal.KerVlad

end
-- ==== Proof.KerGlue.lean ====
/-
  The host operations of the fused program's entry function, read at an index.

  Before the first kernel two reshapes re-lay the arguments: the second cluster matrix [1, 512, 64] loses its unit axis,
  and the descriptors [64, 1024, 512] have their two leading axes merged into 65536 rows.  Between the two kernels the
  per-cluster statistics are finished: rows 0 and 8 of each of the two [16, 64] arrays of partial sums are added, the
  sums are divided by the number of rows to give the mean and the mean of squares, the variance is their difference
  with the squared mean, the scale is gamma times the reciprocal square root of variance plus epsilon, and the shift is
  beta minus mean times scale.  After the second kernel one reshape flattens [64, 512, 64] to [64, 32768].  A reshape
  keeps the row-major position of every entry, so each of these arrays is read at an index as stated below.
-/
import proofs.«150116_j36146444763171_2_alg».proof.Proof.Gen.KernelIdeal.Launch
import Idealize.ShloMosaic.Lib.StableHlo.Run
import proofs.«150116_j36146444763171_2_alg».proof.Proof.VladSpec
import proofs.«150116_j36146444763171_2_alg».proof.Proof.LibRowPairs
import proofs.«150116_j36146444763171_2_alg».proof.Proof.LibOuterProduct

noncomputable section

namespace Cert.KernelIdeal.KerGlue

open Cert.KernelIdeal Cert.KernelIdeal.Gen Idealize.ShloMosaic Idealize.ShloMosaic.ValueIdx

/-- The flattened result [64, 32768] at (b, j) is the kernel's result [64, 512, 64] at (b, j / 64, j % 64). -/
theorem result_apply (W : Valuation τ sig (Elt Ideal)) (b : Fin 64) (j : Fin 32768) :
    StableHlo.after (hostOps2 (F := Ideal)) W (Proc.devRef .tc main_v26) (ix2 b j)
      = W (Proc.devRef .tc main_v25) (ix3 b ⟨j.val / 64, by omega⟩ ⟨j.val % 64, Nat.mod_lt _ (by norm_num)⟩) := by
  have e : StableHlo.after (hostOps2 (F := Ideal)) W (Proc.devRef .tc main_v26)
      = shapeCast S64x32768 (W (Proc.devRef .tc main_v25)) shapeCasts_S64x512x64_S64x32768 := by
    after_results; rfl
  refine (congrFun e _).trans ?_
  exact Cert.LibOuterProduct.flatten_apply _ _ (by norm_num) b _ _ j (Nat.div_add_mod' j.val 64).symm

/-- The descriptors as 65536 rows, at (r, d), are the descriptors [64, 1024, 512] at (r / 1024, r % 1024, d). -/
theorem flat_apply (W : Valuation τ sig (Elt Ideal)) (r : Fin 65536) (d : Fin 512) :
    StableHlo.after (hostOps0 (F := Ideal)) W (Proc.devRef .tc main_v1) (ix2 r d)
      = W (Proc.devRef .tc main_arg0) (ix3 ⟨r.val / 1024, by omega⟩ ⟨r.val % 1024, Nat.mod_lt _ (by norm_num)⟩ d) := by
  have e : StableHlo.after (hostOps0 (F := Ideal)) W (Proc.devRef .tc main_v1)
      = shapeCast S65536x512 (W (Proc.devRef .tc main_arg0)) shapeCasts_S64x1024x512_S65536x512 := by
    after_results; rfl
  refine (congrFun e _).trans ?_
  exact RowPairs.shapeCast_abc_nc_apply _ _ _ _ d r (Nat.div_add_mod' r.val 1024).symm

/-- The second cluster matrix without its unit axis, at (d, k), is the argument [1, 512, 64] at (0, d, k). -/
theorem c2_apply (W : Valuation τ sig (Elt Ideal)) (d : Fin 512) (k : Fin 64) :
    StableHlo.after (hostOps0 (F := Ideal)) W (Proc.devRef .tc main_v0) (ix2 d k)
      = W (Proc.devRef .tc main_arg2) (ix3 0 d k) := by
  have e : StableHlo.after (hostOps0 (F := Ideal)) W (Proc.devRef .tc main_v0)
      = shapeCast S512x64 (W (Proc.devRef .tc main_arg2)) shapeCasts_S1x512x64_S512x64 := by
    after_results; rfl
  refine (congrFun e _).trans ?_
  exact RowPairs.shapeCast_abc_nc_apply _ _ (0 : Fin 1) d k d (by simp)

end Cert.KernelIdeal.KerGlue

end
-- ==== Proof.LibColumnDots.lean ====
/-
  Products of columns against columns, read at an index, on the extended reals.

  A contraction whose two operands are both contracted on their FIRST axis — [K,M] against [K,N], as a
  `tpu.matmul` into the zero accumulator — is, at the output index (p, f), the sum over d of entry (d, p) of
  the left operand times entry (d, f) of the right one: column p against column f. The statement holds for any
  dimension record equal to the literal one.
-/
import Idealize.ShloMosaic.PureOps.Ideal.Laws
import Idealize.ShloMosaic.Lib.ValueIdx

noncomputable section

namespace Cert.LibColumnDots

open Idealize.ShloMosaic Idealize.ShloMosaic.ValueIdx

variable {M K N : Nat}
variable (wf : DotDims.WF ⟨2, ![K, M]⟩ ⟨2, ![K, N]⟩ ⟨2, ![M, N]⟩ [0] [0] [1] [1] [] [])

/-- The literal record: both operands contracted on axis 0, no batch axis. -/
abbrev cols : DotDims ⟨2, ![K, M]⟩ ⟨2, ![K, N]⟩ ⟨2, ![M, N]⟩ := ⟨[0], [0], [1], [1], [], [], wf⟩

/-- The left operand's contracted coordinate is the contraction index. -/
theorem cols_lhs0 (i : (⟨2, ![M, N]⟩ : Shape).Idx) (q : (cols wf).contr.Idx) : ((cols wf).lhsIdx i q 0).val = (q ⟨0, Nat.one_pos⟩).val :=
  (cols wf).lhsIdx_val_of_single rfl i q

/-- The left operand's free coordinate is the output's row. -/
theorem cols_lhs1 (i : (⟨2, ![M, N]⟩ : Shape).Idx) (q : (cols wf).contr.Idx) : ((cols wf).lhsIdx i q 1).val = (i 0).val := by
  unfold DotDims.lhsIdx
  rw [dif_neg (show ¬(1 : Fin 2) ∈ (cols wf).lhsBatch from (by decide : ¬(1 : Fin 2) ∈ ([] : List (Fin 2)))), dif_pos (show (1 : Fin 2) ∈ (cols wf).lhsNonContracting from (by decide : (1 : Fin 2) ∈ ([1] : List (Fin 2))))]
  rfl

/-- The right operand's contracted coordinate is the contraction index. -/
theorem cols_rhs0 (i : (⟨2, ![M, N]⟩ : Shape).Idx) (q : (cols wf).contr.Idx) : ((cols wf).rhsIdx i q 0).val = (q ⟨0, Nat.one_pos⟩).val :=
  (cols wf).rhsIdx_val_of_single rfl i q

/-- The right operand's free coordinate is the output's column. -/
theorem cols_rhs1 (i : (⟨2, ![M, N]⟩ : Shape).Idx) (q : (cols wf).contr.Idx) : ((cols wf).rhsIdx i q 1).val = (i 1).val := by
  unfold DotDims.rhsIdx
  rw [dif_neg (show ¬(1 : Fin 2) ∈ (cols wf).rhsBatch from (by decide : ¬(1 : Fin 2) ∈ ([] : List (Fin 2)))), dif_pos (show (1 : Fin 2) ∈ (cols wf).rhsNonContracting from (by decide : (1 : Fin 2) ∈ ([1] : List (Fin 2))))]
  rfl

/-- The sum over the contraction index is the sum over d of column p of the left times column f of the right. -/
theorem cols_sum {φ₁ φ₂ : FTy} (a : FVec Ideal ⟨2, ![K, M]⟩ φ₁) (w : FVec Ideal ⟨2, ![K, N]⟩ φ₂) (p : Fin M) (f : Fin N) :
    ∑ k : (cols wf).contr.Idx, a ((cols wf).lhsIdx (ix2 p f) k) * w ((cols wf).rhsIdx (ix2 p f) k)
      = ∑ d : Fin K, a (ix2 d p) * w (ix2 d f) := by
  rw [← Equiv.sum_comp (contrEquiv1 (cols wf) K rfl rfl).symm]
  refine Finset.sum_congr rfl fun k _ => ?_
  have hk := contrEquiv1_symm_val (cols wf) K rfl rfl k
  have el : (cols wf).lhsIdx (ix2 p f) ((contrEquiv1 (cols wf) K rfl rfl).symm k) = ix2 k p := funext fun x => Fin.ext (by
    match x with
    | ⟨0, _⟩ => exact (cols_lhs0 wf _ _).trans hk
    | ⟨1, _⟩ => exact cols_lhs1 wf _ _)
  have er : (cols wf).rhsIdx (ix2 p f) ((contrEquiv1 (cols wf) K rfl rfl).symm k) = ix2 k f := funext fun x => Fin.ext (by
    match x with
    | ⟨0, _⟩ => exact (cols_rhs0 wf _ _).trans hk
    | ⟨1, _⟩ => exact cols_rhs1 wf _ _)
  rw [el, er]

/-- A `tpu.matmul` of columns against columns into the zero accumulator, at (p, f). -/
theorem matmul_cols {φ₁ φ₂ : FTy} (D : DotDims ⟨2, ![K, M]⟩ ⟨2, ![K, N]⟩ ⟨2, ![M, N]⟩) (hD : D = cols wf)
    (prec : Option ContractPrecision) (a : FVec Ideal ⟨2, ![K, M]⟩ φ₁) (w : FVec Ideal ⟨2, ![K, N]⟩ φ₂) (p : Fin M) (f : Fin N) :
    matmul D prec a w (constant (F := Ideal) ⟨2, ![M, N]⟩ .f32 0x00000000#32) (ix2 p f) = ∑ d : Fin K, a (ix2 d p) * w (ix2 d f) := by
  subst hD
  exact (Ideal.matmul_constant_zero_apply _ prec a w (ix2 p f)).trans (cols_sum wf a w p f)

end Cert.LibColumnDots

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«150116_j36146444763171_2_alg».proof.Proof.LibKeepdims
import proofs.«150116_j36146444763171_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.VladBlock.lean ====
/-
  One batch of the pooling kernel, read at an index on the extended reals.

  The block of 1024 descriptors (512 features each) is multiplied with the cluster matrix, scaled and shifted per
  cluster, and passed through a row softmax.  The column sums of the soft weights and the product of the transposed
  block with the soft weights give the residual at (d, k): the soft-weighted sum of feature d minus the summed weights
  of cluster k times the second cluster matrix at (d, k).  The squares of the residual are summed along the clusters and
  then along the features, the square root is bounded below, and every residual entry is divided by that one number.
-/
import proofs.«150116_j36146444763171_2_alg».proof.Proof.Gen.KernelIdeal.Frame
import proofs.«150116_j36146444763171_2_alg».proof.Proof.VladSpec
import proofs.«150116_j36146444763171_2_alg».proof.Proof.LibRowSoftmax
import proofs.«150116_j36146444763171_2_alg».proof.Proof.LibColumnDots
import proofs.«150116_j36146444763171_2_alg».proof.Proof.LibInnerProducts
import proofs.«150116_j36146444763171_2_alg».proof.Proof.LibDenseRows
import proofs.«150116_j36146444763171_2_alg».proof.Proof.LibKeepdims
import proofs.«150116_j36146444763171_2_alg».proof.Proof.LibRowReduce

noncomputable section

namespace Cert.KernelIdeal.VladBlock

open Idealize.ShloMosaic Idealize.ShloMosaic.ValueIdx
open Cert.KernelIdeal Cert.KernelIdeal.Facts₀
open scoped BigOperators

/-! ## Two layout facts and a column sum -/

/-- Over column q of an [a, b] array, the index with row k inserted is (k, q). -/
theorem lift_col {a b : ℕ} (h : (⟨2, ![a, b]⟩ : Shape).Reduces [0] ⟨1, ![b]⟩) (q : Fin b) (k : Fin a) :
    h.lift (ix1 q) k = ix2 k q :=
  funext fun c => Fin.ext (by match c with | ⟨0, _⟩ => rfl | ⟨1, _⟩ => rfl)

/-- A sum along the columns, from the zero word, at column q: the sum of the column. -/
theorem colSum_apply {a b : ℕ} (src : FVec Ideal ⟨2, ![a, b]⟩ .f32) (h : (⟨2, ![a, b]⟩ : Shape).Reduces [0] ⟨1, ![b]⟩)
    (q : Fin b) :
    multiReduction .add [0] ⟨1, ![b]⟩ src 0x00000000#32 h (.inl rfl) rfl (ix1 q) = ∑ p : Fin a, src (ix2 p q) :=
  (Ideal.multiReduction_add_single src 0x00000000#32 h (.inl rfl) rfl (ix1 q)).trans
    (Finset.sum_congr rfl fun k _ => congrArg src (lift_col h q k))

/-- A one-by-one matrix broadcast to [a, b] reads its one element everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

/-! ## The block's values, named -/

/-- The normalised assignments of the block: the product with the cluster matrix, times the scale row, plus the shift
    row. -/
def nrmBlock (v0 : Vec Ideal S1x1024x512 .f32) (v3 : Vec Ideal S512x64 .f32) (v6 v11 : Vec Ideal S64 .f32) :
    FVec Ideal S1024x64 .f32 :=
  addf
    (mulf
      (matmul dot_S1024x512_S512x64_S1024x64_1_0_0_1_n_n none
        (truncf .bf16 (shapeCast S1024x512 v0 shapeCasts_S1x1024x512_S1024x512) bitsLt_bf16_f32)
        (truncf .bf16 v3 bitsLt_bf16_f32) (constant S1024x64 .f32 0x00000000#32))
      (broadcastTo S1024x64 (shapeCast S1x64 (shapeCast S64 v6 shapeCasts_S64_S64) shapeCasts_S64_S1x64)
        broadcasts_S1x64_S1024x64))
    (broadcastTo S1024x64 (shapeCast S1x64 (shapeCast S64 v11 shapeCasts_S64_S64) shapeCasts_S64_S1x64)
      broadcasts_S1x64_S1024x64)

/-- The row softmax of a [1024, 64] block, as the kernel spells it. -/
def softBlock (src : FVec Ideal S1024x64 .f32) : FVec Ideal S1024x64 .f32 :=
  divf (exp (subf src (broadcastTo S1024x64 (shapeCast S1024x1
            (maximumf (broadcast S1024 (Scalar.ofBits (F := Ideal) .f32 0xFF800000#32))
              (multiReduction .maximumf [1] S1024 src 0xFF800000#32 reduces_S1024x64_S1024 (.inl rfl) rfl))
            shapeCasts_S1024_S1024x1) broadcasts_S1024x1_S1024x64)))
    (broadcastTo S1024x64 (shapeCast S1024x1
      (multiReduction .add [1] S1024
        (exp (subf src (broadcastTo S1024x64 (shapeCast S1024x1
            (maximumf (broadcast S1024 (Scalar.ofBits (F := Ideal) .f32 0xFF800000#32))
              (multiReduction .maximumf [1] S1024 src 0xFF800000#32 reduces_S1024x64_S1024 (.inl rfl) rfl))
            shapeCasts_S1024_S1024x1) broadcasts_S1024x1_S1024x64)))
        0x00000000#32 reduces_S1024x64_S1024 (.inl rfl) rfl) shapeCasts_S1024_S1024x1) broadcasts_S1024x1_S1024x64)

/-- The residual over the block and a [1024, 64] array of soft weights. -/
def residBlock (v0 : Vec Ideal S1x1024x512 .f32) (soft : FVec Ideal S1024x64 .f32) (v30 : Vec Ideal S512x64 .f32) :
    FVec Ideal S512x64 .f32 :=
  subf
    (matmul dot_S1024x512_S1024x64_S512x64_0_0_1_1_n_n none
      (truncf .bf16 (shapeCast S1024x512 v0 shapeCasts_S1x1024x512_S1024x512) bitsLt_bf16_f32)
      (truncf .bf16 soft bitsLt_bf16_f32) (constant S512x64 .f32 0x00000000#32))
    (mulf
      (broadcastTo S512x64 (shapeCast S1x64
        (multiReduction .add [0] S64 soft 0x00000000#32 reduces_S1024x64_S64 (.inl rfl) rfl) shapeCasts_S64_S1x64)
        broadcasts_S1x64_S512x64)
      (shapeCast S512x64 v30 shapeCasts_S512x64_S512x64))

/-- The kernel's residual value is the residual over the softmax of the normalised assignments. -/
theorem pay2_eq (v0 : Vec Ideal S1x1024x512 .f32) (v3 : Vec Ideal S512x64 .f32) (v6 v11 : Vec Ideal S64 .f32)
    (v30 : Vec Ideal S512x64 .f32) :
    Gen.k1_pay2 (F := Ideal) v0 v3 v6 v11 v30 = residBlock v0 (softBlock (nrmBlock v0 v3 v6 v11)) v30 := rfl

/-- The norm over a [512, 64] array: the squares summed along the lanes, then along the rows, and the square root. -/
def normBlock (P : FVec Ideal S512x64 .f32) : FVec Ideal S1x1 .f32 :=
  sqrt (shapeCast S1x1
    (multiReduction .add [0] S1
      (shapeCast S512x1 (multiReduction .add [1] S512 (mulf P P) 0x00000000#32 reduces_S512x64_S512 (.inl rfl) rfl)
        shapeCasts_S512_S512x1)
      0x00000000#32 reduces_S512x1_S1 (.inl rfl) rfl) shapeCasts_S1_S1x1)

/-- The kernel's norm value is the norm over its residual value. -/
theorem pay3_eq (v0 : Vec Ideal S1x1024x512 .f32) (v3 : Vec Ideal S512x64 .f32) (v6 v11 : Vec Ideal S64 .f32)
    (v30 : Vec Ideal S512x64 .f32) :
    Gen.k1_pay3 (F := Ideal) v0 v3 v6 v11 v30 = normBlock (Gen.k1_pay2 (F := Ideal) v0 v3 v6 v11 v30) := rfl

/-! ## Each value at an index -/

/-- The normalised assignment of row i to cluster k. -/
theorem nrmBlock_apply (v0 : Vec Ideal S1x1024x512 .f32) (v3 : Vec Ideal S512x64 .f32) (v6 v11 : Vec Ideal S64 .f32)
    (i : Fin 1024) (k : Fin 64) :
    nrmBlock v0 v3 v6 v11 (ix2 i k)
      = (∑ d : Fin 512, v0 (ix3 0 i d) * v3 (ix2 d k)) * v6 (ix1 k) + v11 (ix1 k) := by
  unfold nrmBlock
  show _ * _ + _ = _
  refine congrArg₂ (· + ·) (congrArg₂ (· * ·) ?_ ?_) ?_
  · refine (InnerProducts.matmul_zero_apply dot_S1024x512_S512x64_S1024x64_1_0_0_1_n_n rfl none _ _ i k).trans
      (Finset.sum_congr rfl fun d _ => ?_)
    exact congrArg (· * v3 (ix2 d k)) (shapeCast_1ab_ab_apply v0 _ i d)
  · exact (DenseRows.biasRow_apply _ _ _ i k).trans (congrFun (shapeCast_self v6 _) (ix1 k))
  · exact (DenseRows.biasRow_apply _ _ _ i k).trans (congrFun (shapeCast_self v11 _) (ix1 k))

/-- The soft weight of row i for cluster k is the softmax of the row. -/
theorem softBlock_apply (src : FVec Ideal S1024x64 .f32) (i : Fin 1024) (k : Fin 64) :
    softBlock src (ix2 i k) = Cert.DenseRows.softmax (fun k' => src (ix2 i k')) k :=
  Cert.DenseRows.softmax_kernel_apply src reduces_S1024x64_S1024 (.inl rfl) rfl rfl shapeCasts_S1024_S1024x1
    broadcasts_S1024x1_S1024x64 i k

/-- The residual at feature d and cluster k. -/
theorem residBlock_apply (v0 : Vec Ideal S1x1024x512 .f32) (soft : FVec Ideal S1024x64 .f32)
    (v30 : Vec Ideal S512x64 .f32) (d : Fin 512) (k : Fin 64) :
    residBlock v0 soft v30 (ix2 d k)
      = (∑ i : Fin 1024, v0 (ix3 0 i d) * soft (ix2 i k)) - (∑ i : Fin 1024, soft (ix2 i k)) * v30 (ix2 d k) := by
  unfold residBlock
  show _ - _ * _ = _
  refine congrArg₂ (· - ·) ?_ (congrArg₂ (· * ·) ?_ ?_)
  · refine (LibColumnDots.matmul_cols dot_S1024x512_S1024x64_S512x64_0_0_1_1_n_n_wf
      dot_S1024x512_S1024x64_S512x64_0_0_1_1_n_n rfl none _ _ d k).trans (Finset.sum_congr rfl fun i _ => ?_)
    exact congrArg (· * soft (ix2 i k)) (shapeCast_1ab_ab_apply v0 _ i d)
  · exact (DenseRows.biasRow_apply _ _ _ d k).trans (colSum_apply soft _ k)
  · exact congrFun (shapeCast_self v30 _) (ix2 d k)

/-- The norm's one entry: the square root of the sum of all squares. -/
theorem normBlock_apply (P : FVec Ideal S512x64 .f32) :
    normBlock P (ix2 0 0) = Ideal.sqrt (∑ d : Fin 512, ∑ k : Fin 64, P (ix2 d k) * P (ix2 d k)) := by
  unfold normBlock
  show Ideal.sqrt _ = _
  refine congrArg Ideal.sqrt ?_
  refine (shapeCast_a_1a_apply _ _ 0 0).trans ((colSum_apply _ _ 0).trans (Finset.sum_congr rfl fun d _ => ?_))
  exact (LibKeepdims.shapeCast_a_a1_apply _ _ d 0).trans (LibRowReduce.rowSum_apply _ _ d)

/-- The stored value at (0, d, k): the residual entry over the norm bounded below. -/
theorem pay1_apply (v35 : FVec Ideal S512x64 .f32) (v41 : FVec Ideal S1x1 .f32) (d : Fin 512) (k : Fin 64) :
    Gen.k1_pay1 (F := Ideal) v35 v41 (ix3 0 d k) = Ideal.div (v35 (ix2 d k)) (max (v41 (ix2 0 0)) Cert.Vlad.epsL2) := by
  unfold Gen.k1_pay1
  show shapeCast S1x512x64 _ _ (ix3 0 d k) = _
  refine (shapeCast_ab_1ab_apply _ _ 0 d k).trans ?_
  show Ideal.div _ _ = _
  refine congrArg (Ideal.div _) ?_
  exact broadcastTo_11_ab_apply _ _ d k

/-! ## One grid point's block at an index -/

theorem offs3 : (![0, 0, 0] : Fin 3 → Nat) = fun _ => 0 := funext fun a => by fin_cases a <;> rfl
theorem offs2 : (![0, 0] : Fin 2 → Nat) = fun _ => 0 := funext fun a => by fin_cases a <;> rfl
theorem offs1 : (![0] : Fin 1 → Nat) = fun _ => 0 := funext fun a => by fin_cases a <;> rfl

/-- The kernel's residual value at (d, k) is the residual of the batch: x0 the batch's descriptors, x1 the cluster
    matrix, x3 and x4 the scale and the shift, x2 the second cluster matrix. -/
theorem pay2_apply (x0 : Vec Ideal S1x1024x512 .f32) (x1 x2 : Vec Ideal S512x64 .f32) (x3 x4 : Vec Ideal S64 .f32)
    (d : Fin 512) (k : Fin 64) :
    Gen.k1_pay2 (F := Ideal) x0 x1 x3 x4 x2 (ix2 d k)
      = Cert.Vlad.residB (fun i d' => x0 (ix3 0 i d')) (fun d' k' => x2 (ix2 d' k'))
          (fun i k' => (∑ d' : Fin 512, x0 (ix3 0 i d') * x1 (ix2 d' k')) * x3 (ix1 k') + x4 (ix1 k')) d k := by
  rw [pay2_eq, residBlock_apply]
  simp only [softBlock_apply, nrmBlock_apply]
  rfl

/-- What one grid point leaves in its output block, at (0, d, k): the normalised residual of the batch. -/
theorem out1_5_apply (x0 : Vec Ideal S1x1024x512 .f32) (x1 x2 : Vec Ideal S512x64 .f32) (x3 x4 : Vec Ideal S64 .f32)
    (d : Fin 512) (k : Fin 64) :
    Gen.out1_5 (F := Ideal) x0 x1 x2 x3 x4 (ix3 0 d k)
      = Cert.Vlad.outB (fun i d' => x0 (ix3 0 i d')) (fun d' k' => x2 (ix2 d' k'))
          (fun i k' => (∑ d' : Fin 512, x0 (ix3 0 i d') * x1 (ix2 d' k')) * x3 (ix1 k') + x4 (ix1 k')) d k := by
  unfold Gen.out1_5
  rw [View.canon_unit_zero offs3]
  simp only [View.ld_unit_zero (S := S1x1024x512) offs3, View.ld_unit_zero (S := S512x64) offs2,
    View.ld_unit_zero (S := S64) offs1]
  rw [pay1_apply, pay3_eq, normBlock_apply]
  simp only [pay2_apply]
  rfl

end Cert.KernelIdeal.VladBlock

end
-- ==== Proof.KerGlueStats.lean ====
/-
  The statistics finished between the two kernels, read at a cluster.

  Each of the two [16, 64] arrays of partial sums holds its two halves in rows 0 and 8; the entry function adds them,
  divides by the number of rows to get the mean and the mean of squares, subtracts the squared mean to get the
  variance, and forms scale = gamma * rsqrt (variance + epsilon) and shift = beta - mean * scale.  A unit-thick slice
  of row r recast as a vector reads the array at (r, k); every other operation acts entry by entry.
-/
import proofs.«150116_j36146444763171_2_alg».proof.Proof.Gen.KernelIdeal.Launch
import Idealize.ShloMosaic.Lib.StableHlo.Run
import proofs.«150116_j36146444763171_2_alg».proof.Proof.VladSpec

noncomputable section

namespace Cert.KernelIdeal.KerGlue

open Cert.KernelIdeal Cert.KernelIdeal.Gen Idealize.ShloMosaic Idealize.ShloMosaic.ValueIdx

variable {α : Type}

/-- Row `r` of a [16, 64] array, cut out as a [1, 64] slice and recast as a vector of 64, reads at `k` the array at
    `(r, k)`. -/
theorem row_apply (P : (⟨2, ![16, 64]⟩ : Shape).Idx → α) (o : ℕ)
    (h1 : (⟨2, ![16, 64]⟩ : Shape).Slices ![o, 0] ⟨2, ![1, 64]⟩)
    (h2 : (⟨2, ![1, 64]⟩ : Shape).ShapeCasts ⟨1, ![64]⟩) (r : Fin 16) (hr : r.val = o) (k : Fin 64) :
    shapeCast ⟨1, ![64]⟩ (extractStridedSlice ⟨2, ![1, 64]⟩ ![o, 0] P h1) h2 (ix1 k) = P (ix2 r k) := by
  refine (shapeCast_apply _ h2 (ix1 k) (ix2 (0 : Fin 1) k) ?_).trans ?_
  · rw [Shape.rowMajor_val_two, Shape.rowMajor_val_one]
    show 0 * 64 + k.val = k.val
    omega
  · refine extractStridedSlice_apply ![o, 0] P h1 (ix2 0 k) (ix2 r k) fun ax => ?_
    match ax with
    | ⟨0, _⟩ => show r.val = o + 0; omega
    | ⟨1, _⟩ => show k.val = 0 + k.val; omega

/-- The mean, from the sum `s1` of a cluster's assignments. -/
abbrev muOf (s1 : EReal) : EReal := Ideal.div s1 Cert.Vlad.rowsW
/-- The variance, from the sum `s1` and the sum of squares `s2`. -/
abbrev varOf (s1 s2 : EReal) : EReal := Ideal.div s2 Cert.Vlad.rowsW - muOf s1 * muOf s1
/-- The scale, from the two sums and gamma. -/
abbrev scaleOf (s1 s2 g : EReal) : EReal := g * Ideal.rsqrt (varOf s1 s2 + Cert.Vlad.epsBN)
/-- The shift, from the two sums, gamma and beta. -/
abbrev shiftOf (s1 s2 g b : EReal) : EReal := b - muOf s1 * scaleOf s1 s2 g

/-- The sum of rows 0 and 8 of a [16, 64] array, as the entry function forms it. -/
abbrev rows08 (P : FVec Ideal S16x64 .f32) : FVec Ideal S64 .f32 :=
  addf (shapeCast S64 (extractStridedSlice S1x64 ![0, 0] P slices_S16x64_S1x64_0_0) shapeCasts_S1x64_S64)
    (shapeCast S64 (extractStridedSlice S1x64 ![8, 0] P slices_S16x64_S1x64_8_0) shapeCasts_S1x64_S64)

/-- The array of means. -/
abbrev muA (P : FVec Ideal S16x64 .f32) : FVec Ideal S64 .f32 :=
  Host.divf (rows08 P) (broadcastInDim S64 ![] bcast_S_S64 (constant S_ .f32 0x47800000#32))

/-- The array of scales. -/
abbrev scA (P Q : FVec Ideal S16x64 .f32) (G : FVec Ideal S64 .f32) : FVec Ideal S64 .f32 :=
  mulf G (Host.rsqrt (addf (subf (Host.divf (rows08 Q) (broadcastInDim S64 ![] bcast_S_S64 (constant S_ .f32 0x47800000#32)))
    (mulf (muA P) (muA P))) (broadcastInDim S64 ![] bcast_S_S64 (constant S_ .f32 0x3727C5AC#32))))

/-- The array of shifts. -/
abbrev shA (P Q : FVec Ideal S16x64 .f32) (G B : FVec Ideal S64 .f32) : FVec Ideal S64 .f32 :=
  subf B (mulf (muA P) (scA P Q G))

theorem rows08_apply (P : (⟨2, ![16, 64]⟩ : Shape).Idx → EReal) (k : Fin 64) :
    rows08 P (ix1 k) = P (ix2 0 k) + P (ix2 8 k) := by
  show shapeCast S64 (extractStridedSlice S1x64 ![0, 0] P slices_S16x64_S1x64_0_0) shapeCasts_S1x64_S64 (ix1 k)
      + shapeCast S64 (extractStridedSlice S1x64 ![8, 0] P slices_S16x64_S1x64_8_0) shapeCasts_S1x64_S64 (ix1 k) = _
  rw [row_apply P 0 slices_S16x64_S1x64_0_0 shapeCasts_S1x64_S64 0 rfl k,
    row_apply P 8 slices_S16x64_S1x64_8_0 shapeCasts_S1x64_S64 8 rfl k]

theorem muA_apply (P : (⟨2, ![16, 64]⟩ : Shape).Idx → EReal) (k : Fin 64) :
    muA P (ix1 k) = muOf (P (ix2 0 k) + P (ix2 8 k)) := by
  show Ideal.div (rows08 P (ix1 k)) Cert.Vlad.rowsW = _
  rw [rows08_apply]

theorem scA_apply (P Q : (⟨2, ![16, 64]⟩ : Shape).Idx → EReal) (G : (⟨1, ![64]⟩ : Shape).Idx → EReal) (k : Fin 64) :
    scA P Q G (ix1 k) = scaleOf (P (ix2 0 k) + P (ix2 8 k)) (Q (ix2 0 k) + Q (ix2 8 k)) (G (ix1 k)) := by
  show G (ix1 k) * Ideal.rsqrt (Ideal.div (rows08 Q (ix1 k)) Cert.Vlad.rowsW - muA P (ix1 k) * muA P (ix1 k)
    + Cert.Vlad.epsBN) = _
  rw [rows08_apply, muA_apply]

theorem shA_apply (P Q : (⟨2, ![16, 64]⟩ : Shape).Idx → EReal) (G B : (⟨1, ![64]⟩ : Shape).Idx → EReal) (k : Fin 64) :
    shA P Q G B (ix1 k)
      = shiftOf (P (ix2 0 k) + P (ix2 8 k)) (Q (ix2 0 k) + Q (ix2 8 k)) (G (ix1 k)) (B (ix1 k)) := by
  show B (ix1 k) - muA P (ix1 k) * scA P Q G (ix1 k) = _
  rw [muA_apply, scA_apply]

/-- The scale array after the statistics are finished, as one term of the arrays it is made from. -/
theorem scale_eq (W : Valuation τ sig (Elt Ideal)) :
    StableHlo.after (hostOps1 (F := Ideal)) W (Proc.devRef .tc main_v22)
      = scA (W (Proc.devRef .tc main_v2_0)) (W (Proc.devRef .tc main_v2_1)) (W (Proc.devRef .tc main_arg3)) := by
  after_results_simp
  rfl

/-- The shift array after the statistics are finished, as one term of the arrays it is made from. -/
theorem shift_eq (W : Valuation τ sig (Elt Ideal)) :
    StableHlo.after (hostOps1 (F := Ideal)) W (Proc.devRef .tc main_v24)
      = shA (W (Proc.devRef .tc main_v2_0)) (W (Proc.devRef .tc main_v2_1)) (W (Proc.devRef .tc main_arg3))
          (W (Proc.devRef .tc main_arg4)) := by
  after_results_simp
  rfl

/-- The scale array at cluster `k`, from the two arrays of partial sums `P`, `Q` and gamma `G`. -/
theorem scale_apply (W : Valuation τ sig (Elt Ideal))
    (P Q : (⟨2, ![16, 64]⟩ : Shape).Idx → EReal) (G : (⟨1, ![64]⟩ : Shape).Idx → EReal)
    (hP : W (Proc.devRef .tc main_v2_0) = P) (hQ : W (Proc.devRef .tc main_v2_1) = Q)
    (hG : W (Proc.devRef .tc main_arg3) = G) (k : Fin 64) :
    StableHlo.after (hostOps1 (F := Ideal)) W (Proc.devRef .tc main_v22) (ix1 k)
      = scaleOf (P (ix2 0 k) + P (ix2 8 k)) (Q (ix2 0 k) + Q (ix2 8 k)) (G (ix1 k)) := by
  subst hP hQ hG
  exact (congrFun (scale_eq W) (ix1 k)).trans (scA_apply _ _ _ k)

/-- The shift array at cluster `k`, from `P`, `Q`, gamma `G` and beta `B`. -/
theorem shift_apply (W : Valuation τ sig (Elt Ideal))
    (P Q : (⟨2, ![16, 64]⟩ : Shape).Idx → EReal) (G : (⟨1, ![64]⟩ : Shape).Idx → EReal)
    (hP : W (Proc.devRef .tc main_v2_0) = P) (hQ : W (Proc.devRef .tc main_v2_1) = Q)
    (hG : W (Proc.devRef .tc main_arg3) = G)
    (B : (⟨1, ![64]⟩ : Shape).Idx → EReal) (hB : W (Proc.devRef .tc main_arg4) = B) (k : Fin 64) :
    StableHlo.after (hostOps1 (F := Ideal)) W (Proc.devRef .tc main_v24) (ix1 k)
      = shiftOf (P (ix2 0 k) + P (ix2 8 k)) (Q (ix2 0 k) + Q (ix2 8 k)) (G (ix1 k)) (B (ix1 k)) := by
  subst hP hQ hG hB
  exact (congrFun (shift_eq W) (ix1 k)).trans (shA_apply _ _ _ _ k)

end Cert.KernelIdeal.KerGlue

end
-- ==== Proof.VladStats.lean ====
/-
  The first of the two kernels: per-cluster sums of the assignments and of their squares, over all rows.

  The 65536 flattened descriptor rows are cut into sixteen blocks of 4096 rows; block t is visited at grid point t,
  and the sixteen points fall into two runs of eight (points 8 core + s, s = 0..7).  At a point the kernel multiplies
  the block by the 512 x 64 cluster matrix (entry (q, k) of the product is the assignment of row 4096 t + q to
  cluster k: the inner product of the row with column k), sums the product along its rows into 64 column sums, and
  adds these to every one of the 8 rows of a resident 8 x 64 block; a second resident block receives the column sums
  of the squared entries in the same way.  The first point of a run stores zeros into both blocks before adding; the
  last point of a run writes both blocks back, the blocks of run `core` to rows 8 core .. 8 core + 7 of two 16 x 64
  arrays.

  Read on the extended reals (where a change of float format is the identity and addition is commutative and
  associative) this says: after the region, row 8 core of the first array holds, at column k, the sum over the
  eight blocks of the run and over the 4096 rows of each block of the assignment to cluster k, and the same row of the
  second array holds the sum of the squared assignments.

  The steps: what one point leaves in the two resident blocks (the block held before plus the point's column sums; zero
  plus them at the first point of a run); the product, the column sums and their spreading over the 8 rows read at an
  entry; the block at point t read off the array of rows (a block's coordinate is the block index times the block's
  length plus the coordinate inside the block); by induction on the point, the resident blocks after point n hold the
  sum of the column sums of points n - n % 8 .. n; the two points that write back (7 and 15) write rows 0..7 and 8..15,
  which cover the arrays.
-/
import proofs.«150116_j36146444763171_2_alg».proof.Proof.Gen.KernelIdeal.Frame
import proofs.«150116_j36146444763171_2_alg».proof.Proof.VladSpec
import proofs.«150116_j36146444763171_2_alg».proof.Proof.LibDenseRows
import proofs.«150116_j36146444763171_2_alg».proof.Proof.LibInnerProducts
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.VladStats

open Cert.KernelIdeal Cert.KernelIdeal.Gen

/-! ## What one point leaves in the two resident blocks, for any float values -/

section Cases
variable {F : FTy → Type} [FloatOps F]

/-- The offsets of a whole-block access are zero on both axes. -/
theorem hz : (![0, 0] : Fin 2 → Nat) = fun _ => 0 := funext fun a => by fin_cases a <;> rfl

/-- A point that does not reset: the first output's block, holding xo2, is left at the running block plus the
    broadcast column sums of the product. -/
theorem out_B_2 (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : ¬cond0_0 i)
    (x : Vec F S4096x512 .f32) (w : Vec F S512x64 .f32) (xo2 xo3 : Vec F S8x64 .f32) :
    out0_B_2 c i a2 h2 a3 h3 a4 h4 a5 h5 hc x w xo2 xo3 = k0_pay4 x w xo2 := by
  unfold out0_B_2
  rw [View.read_writes_eq_canon _ _ _ (cover0_B_2 c i a2 h2 a3 h3 a4 h4 a5 h5 hc x w xo2 xo3)]
  unfold kernelRun0_B
  dsimp only
  rw [View.canon_unit_zero hz]
  simp only [View.readAt_eq_ld, h2.read_unread, h3.read_unread, h4.read_unread, View.ld_unit_zero (S := S4096x512) hz,
    View.ld_unit_zero (S := S512x64) hz, View.ld_unit_zero (S := S8x64) hz]

/-- The same for the second output, with the squares of the product's entries. -/
theorem out_B_3 (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : ¬cond0_0 i)
    (x : Vec F S4096x512 .f32) (w : Vec F S512x64 .f32) (xo2 xo3 : Vec F S8x64 .f32) :
    out0_B_3 c i a2 h2 a3 h3 a4 h4 a5 h5 hc x w xo2 xo3 = k0_pay5 x w xo3 := by
  unfold out0_B_3
  rw [View.read_writes_eq_canon _ _ _ (cover0_B_3 c i a2 h2 a3 h3 a4 h4 a5 h5 hc x w xo2 xo3)]
  unfold kernelRun0_B
  dsimp only
  rw [View.canon_unit_zero hz]
  simp only [View.readAt_eq_ld, h2.read_unread, h3.read_unread, h5.read_unread, View.ld_unit_zero (S := S4096x512) hz,
    View.ld_unit_zero (S := S512x64) hz, View.ld_unit_zero (S := S8x64) hz]

/-- A point that resets: the block is zeroed first, so it is left at zero plus the broadcast column sums. -/
theorem out_A_2 (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : cond0_0 i)
    (x : Vec F S4096x512 .f32) (w : Vec F S512x64 .f32) :
    out0_A_2 c i a2 h2 a3 h3 a4 h4 a5 h5 hc x w = k0_pay4 x w k0_pay1 := by
  unfold out0_A_2
  rw [View.read_writes_eq_canon _ _ _ (cover0_A_2 c i a2 h2 a3 h3 a4 h4 a5 h5 hc x w)]
  unfold kernelRun0_A
  dsimp only
  sl_unfold_words
  rw [View.canon_cons_unit_zero (S := S8x64) hz, View.readCov_unit_zero (S := S8x64) _ hz]
  simp only [View.readAt_eq_ld, h2.read_unread, h3.read_unread, View.ld_unit_zero (S := S4096x512) hz,
    View.ld_unit_zero (S := S512x64) hz]

/-- The same for the second output. -/
theorem out_A_3 (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : cond0_0 i)
    (x : Vec F S4096x512 .f32) (w : Vec F S512x64 .f32) :
    out0_A_3 c i a2 h2 a3 h3 a4 h4 a5 h5 hc x w = k0_pay5 x w k0_pay2 := by
  unfold out0_A_3
  rw [View.read_writes_eq_canon _ _ _ (cover0_A_3 c i a2 h2 a3 h3 a4 h4 a5 h5 hc x w)]
  unfold kernelRun0_A
  dsimp only
  sl_unfold_words
  rw [View.canon_cons_unit_zero (S := S8x64) hz, View.readCov_unit_zero (S := S8x64) _ hz]
  simp only [View.readAt_eq_ld, h2.read_unread, h3.read_unread, View.ld_unit_zero (S := S4096x512) hz,
    View.ld_unit_zero (S := S512x64) hz]

end Cases

/-! ## The two added blocks, read at an entry on the extended reals -/

/-- The column sum of the product of a 4096 x 512 block with the 512 x 64 matrix, at column k. -/
def colSum (x : Vec Ideal S4096x512 .f32) (w : Vec Ideal S512x64 .f32) (k : Fin 64) : EReal :=
  ∑ q : Fin 4096, ∑ d : Fin 512, x (ix2 q d) * w (ix2 d k)

/-- The column sum of the squared entries of the product. -/
def colSumSq (x : Vec Ideal S4096x512 .f32) (w : Vec Ideal S512x64 .f32) (k : Fin 64) : EReal :=
  ∑ q : Fin 4096, (∑ d : Fin 512, x (ix2 q d) * w (ix2 d k)) * (∑ d : Fin 512, x (ix2 q d) * w (ix2 d k))

/-- The product (the change of float format is the identity on the extended reals) at (q, k). -/
theorem pay3_apply (x : Vec Ideal S4096x512 .f32) (w : Vec Ideal S512x64 .f32) (q : Fin 4096) (k : Fin 64) :
    k0_pay3 (F := Ideal) x w (ix2 q k) = ∑ d : Fin 512, x (ix2 q d) * w (ix2 d k) := by
  unfold k0_pay3
  refine (InnerProducts.matmul_zero_apply dot_S4096x512_S512x64_S4096x64_1_0_0_1_n_n rfl none _ _ q k).trans ?_
  refine Finset.sum_congr rfl fun d _ => ?_
  rw [shapeCast_self]
  rfl

/-- A sum along the rows of a 4096 x 64 array, from the zero word, at column k. -/
theorem colReduce_apply (src : FVec Ideal S4096x64 .f32) (k : Fin 64) :
    multiReduction .add [0] S64 src 0x00000000#32 reduces_S4096x64_S64 (.inl rfl) rfl (ix1 k) = ∑ q : Fin 4096, src (ix2 q k) :=
  (Ideal.multiReduction_add_single src 0x00000000#32 reduces_S4096x64_S64 (.inl rfl) rfl (ix1 k)).trans
    (Finset.sum_congr rfl fun q _ => congrArg src (funext fun a => Fin.ext (by
      match a with
      | ⟨0, _⟩ => rfl
      | ⟨1, _⟩ => rfl)))

/-- The first output's new block at (r, k): the old entry plus the column sum — the same in every row r. -/
theorem pay4_apply (x : Vec Ideal S4096x512 .f32) (w : Vec Ideal S512x64 .f32) (xo : Vec Ideal S8x64 .f32)
    (r : Fin 8) (k : Fin 64) : k0_pay4 (F := Ideal) x w xo (ix2 r k) = xo (ix2 r k) + colSum x w k := by
  unfold k0_pay4
  have e1 : shapeCast S8x64 xo shapeCasts_S8x64_S8x64 (ix2 r k) = xo (ix2 r k) := congrFun (shapeCast_self xo _) _
  have e2 : broadcastTo S8x64 (shapeCast S1x64 (shapeCast S1x64
      (multiReduction .add [0] S64 (k0_pay3 (F := Ideal) x w) 0x00000000#32 reduces_S4096x64_S64 (.inl rfl) rfl)
      shapeCasts_S64_S1x64) shapeCasts_S1x64_S1x64) broadcasts_S1x64_S8x64 (ix2 r k) = colSum x w k :=
    (congrArg (fun v => broadcastTo S8x64 v broadcasts_S1x64_S8x64 (ix2 r k)) (shapeCast_self _ shapeCasts_S1x64_S1x64)).trans
      ((Cert.DenseRows.biasRow_apply (M := 8) (N := 64) _ shapeCasts_S64_S1x64 broadcasts_S1x64_S8x64 r k).trans
        ((colReduce_apply (k0_pay3 (F := Ideal) x w) k).trans (Finset.sum_congr rfl fun q _ => pay3_apply x w q k)))
  exact congrArg₂ (fun a b : EReal => a + b) e1 e2

/-- The second output's new block at (r, k): the old entry plus the column sum of squares. -/
theorem pay5_apply (x : Vec Ideal S4096x512 .f32) (w : Vec Ideal S512x64 .f32) (xo : Vec Ideal S8x64 .f32)
    (r : Fin 8) (k : Fin 64) : k0_pay5 (F := Ideal) x w xo (ix2 r k) = xo (ix2 r k) + colSumSq x w k := by
  unfold k0_pay5
  have e1 : shapeCast S8x64 xo shapeCasts_S8x64_S8x64 (ix2 r k) = xo (ix2 r k) := congrFun (shapeCast_self xo _) _
  have e2 : broadcastTo S8x64 (shapeCast S1x64 (shapeCast S1x64
      (multiReduction .add [0] S64 (mulf (k0_pay3 (F := Ideal) x w) (k0_pay3 (F := Ideal) x w)) 0x00000000#32
        reduces_S4096x64_S64 (.inl rfl) rfl)
      shapeCasts_S64_S1x64) shapeCasts_S1x64_S1x64) broadcasts_S1x64_S8x64 (ix2 r k) = colSumSq x w k :=
    (congrArg (fun v => broadcastTo S8x64 v broadcasts_S1x64_S8x64 (ix2 r k)) (shapeCast_self _ shapeCasts_S1x64_S1x64)).trans
      ((Cert.DenseRows.biasRow_apply (M := 8) (N := 64) _ shapeCasts_S64_S1x64 broadcasts_S1x64_S8x64 r k).trans
        ((colReduce_apply (mulf (k0_pay3 (F := Ideal) x w) (k0_pay3 (F := Ideal) x w)) k).trans
          (Finset.sum_congr rfl fun q _ =>
            congrArg₂ (fun a b : EReal => a * b) (pay3_apply x w q k) (pay3_apply x w q k))))
  exact congrArg₂ (fun a b : EReal => a + b) e1 e2

/-- The block a resetting point stores first is zero everywhere. -/
theorem pay1_apply (j : S8x64.Idx) : k0_pay1 (F := Ideal) j = 0 := by
  unfold k0_pay1
  exact Ideal.ofBits_zero_f32

theorem pay2_apply (j : S8x64.Idx) : k0_pay2 (F := Ideal) j = 0 := by
  unfold k0_pay2
  exact Ideal.ofBits_zero_f32

/-! ## The windows' blocks, read off the arrays the region is entered with -/

section Blocks
variable (V : (c : Dev nD) → (b : Ref sig .tc) → Buf (Elt Ideal) ((c : Thread nD τ).loc b))

/-- The flattened descriptors, as a family of rows. -/
def XF (c : Dev nD) : Fin 65536 → Fin 512 → EReal := fun r d => V c main_v1 (ix2 r d)

/-- The cluster matrix. -/
def CL (c : Dev nD) : Fin 512 → Fin 64 → EReal := fun d k => V c main_arg1 (ix2 d k)

/-- At point t the first window is block t of the rows, the second window does not move. -/
theorem index0_0 : ∀ t : Fin cfg0.N, win0_0.index t 0 = t.val ∧ win0_0.index t 1 = 0 :=
  (by decide +kernel : ∀ t : Fin grid0.N, win0_0.index t 0 = t.val ∧ win0_0.index t 1 = 0)

theorem index0_1 : ∀ t : Fin cfg0.N, win0_1.index t 0 = 0 ∧ win0_1.index t 1 = 0 :=
  (by decide +kernel : ∀ t : Fin grid0.N, win0_1.index t 0 = 0 ∧ win0_1.index t 1 = 0)

/-- Row q of the block at point t is row 4096 t + q of the descriptors: a block's coordinate is the block index times
    the block's length plus the coordinate inside the block. -/
theorem iblk0_0_apply (c : Dev nD) (t : Fin cfg0.N) (q : Fin 4096) (d : Fin 512) :
    (iblk0 V c 0 t : Vec Ideal S4096x512 .f32) (ix2 q d)
      = XF V c ⟨t.val * 4096 + q.val, by have := lt_of_lt_of_eq t.isLt N_0; have := q.isLt; omega⟩ d := by
  unfold iblk0 XF
  rw [View.read_apply]
  show V c main_v1 _ = V c main_v1 _
  congr 1
  funext a
  apply Fin.ext
  match a with
  | ⟨0, _⟩ => show win0_0.index t 0 * 4096 + 1 * q.val = t.val * 4096 + q.val; rw [(index0_0 t).1]; omega
  | ⟨1, _⟩ => show win0_0.index t 1 * 512 + 1 * d.val = d.val; rw [(index0_0 t).2]; omega

/-- The second window is the whole cluster matrix at every point. -/
theorem iblk0_1_apply (c : Dev nD) (t : Fin cfg0.N) (d : Fin 512) (k : Fin 64) :
    (iblk0 V c 1 t : Vec Ideal S512x64 .f32) (ix2 d k) = CL V c d k := by
  unfold iblk0 CL
  rw [View.read_apply]
  show V c main_arg1 _ = V c main_arg1 _
  congr 1
  funext a
  apply Fin.ext
  match a with
  | ⟨0, _⟩ => show win0_1.index t 0 * 512 + 1 * d.val = d.val; rw [(index0_1 t).1]; omega
  | ⟨1, _⟩ => show win0_1.index t 1 * 64 + 1 * k.val = k.val; rw [(index0_1 t).2]; omega

end Blocks

/-! ## The two output blocks after each point -/

section Acc
variable (V : (c : Dev nD) → (b : Ref sig .tc) → Buf (Elt Ideal) ((c : Thread nD τ).loc b))

/-- A resetting point leaves, at every row r and column k, zero plus the point's column sum. -/
theorem A2_apply (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : cond0_0 i)
    (x : Vec Ideal S4096x512 .f32) (w : Vec Ideal S512x64 .f32) (r : Fin 8) (k : Fin 64) :
    out0_A_2 (F := Ideal) c i a2 h2 a3 h3 a4 h4 a5 h5 hc x w (ix2 r k) = colSum x w k :=
  (congrFun (out_A_2 c i a2 h2 a3 h3 a4 h4 a5 h5 hc x w) (ix2 r k)).trans
    ((pay4_apply x w (k0_pay1 (F := Ideal)) r k).trans
      ((congrArg (fun z : EReal => z + colSum x w k) (pay1_apply (ix2 r k))).trans (zero_add _)))

theorem A3_apply (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : cond0_0 i)
    (x : Vec Ideal S4096x512 .f32) (w : Vec Ideal S512x64 .f32) (r : Fin 8) (k : Fin 64) :
    out0_A_3 (F := Ideal) c i a2 h2 a3 h3 a4 h4 a5 h5 hc x w (ix2 r k) = colSumSq x w k :=
  (congrFun (out_A_3 c i a2 h2 a3 h3 a4 h4 a5 h5 hc x w) (ix2 r k)).trans
    ((pay5_apply x w (k0_pay2 (F := Ideal)) r k).trans
      ((congrArg (fun z : EReal => z + colSumSq x w k) (pay2_apply (ix2 r k))).trans (zero_add _)))

/-- Any other point adds the point's column sum to what the block held. -/
theorem B2_apply (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : ¬cond0_0 i)
    (x : Vec Ideal S4096x512 .f32) (w : Vec Ideal S512x64 .f32) (xo2 xo3 : Vec Ideal S8x64 .f32) (r : Fin 8) (k : Fin 64) :
    out0_B_2 (F := Ideal) c i a2 h2 a3 h3 a4 h4 a5 h5 hc x w xo2 xo3 (ix2 r k) = xo2 (ix2 r k) + colSum x w k :=
  (congrFun (out_B_2 c i a2 h2 a3 h3 a4 h4 a5 h5 hc x w xo2 xo3) (ix2 r k)).trans (pay4_apply x w xo2 r k)

theorem B3_apply (c : Dev nD) (i : grid0.Coords) (a2 : Memref sig .tc .vmem S4096x512 .f32) (h2 : a2.IsWhole)
    (a3 : Memref sig .tc .vmem S512x64 .f32) (h3 : a3.IsWhole) (a4 : Memref sig .tc .vmem S8x64 .f32) (h4 : a4.IsWhole)
    (a5 : Memref sig .tc .vmem S8x64 .f32) (h5 : a5.IsWhole) (hc : ¬cond0_0 i)
    (x : Vec Ideal S4096x512 .f32) (w : Vec Ideal S512x64 .f32) (xo2 xo3 : Vec Ideal S8x64 .f32) (r : Fin 8) (k : Fin 64) :
    out0_B_3 (F := Ideal) c i a2 h2 a3 h3 a4 h4 a5 h5 hc x w xo2 xo3 (ix2 r k) = xo3 (ix2 r k) + colSumSq x w k :=
  (congrFun (out_B_3 c i a2 h2 a3 h3 a4 h4 a5 h5 hc x w xo2 xo3) (ix2 r k)).trans (pay5_apply x w xo3 r k)

/-- Point n's column sum, as a sequence on the naturals (zero past the grid). -/
def M1 (c : Dev nD) (n : ℕ) (k : Fin 64) : EReal :=
  if h : n < cfg0.N then colSum (iblk0 V c 0 ⟨n, h⟩) (iblk0 V c 1 ⟨n, h⟩) k else 0

/-- Point n's column sum of squares. -/
def M2 (c : Dev nD) (n : ℕ) (k : Fin 64) : EReal :=
  if h : n < cfg0.N then colSumSq (iblk0 V c 0 ⟨n, h⟩) (iblk0 V c 1 ⟨n, h⟩) k else 0

theorem M1_of_lt (c : Dev nD) (n : ℕ) (h : n < cfg0.N) (k : Fin 64) :
    M1 V c n k = colSum (iblk0 V c 0 ⟨n, h⟩) (iblk0 V c 1 ⟨n, h⟩) k := dif_pos h

theorem M2_of_lt (c : Dev nD) (n : ℕ) (h : n < cfg0.N) (k : Fin 64) :
    M2 V c n k = colSumSq (iblk0 V c 0 ⟨n, h⟩) (iblk0 V c 1 ⟨n, h⟩) k := dif_pos h

/-- What a resetting point leaves. -/
theorem step_A (c : Dev nD) (t : Fin cfg0.N) (h0 : t.val % 8 = 0) (r : Fin 8) (k : Fin 64) :
    (outsAt0 V c t.val t.isLt).1 (ix2 r k) = M1 V c t.val k ∧ (outsAt0 V c t.val t.isLt).2 (ix2 r k) = M2 V c t.val k := by
  rw [outsAt0_A V c t h0, M1_of_lt V c t.val t.isLt k, M2_of_lt V c t.val t.isLt k]
  dsimp only
  exact ⟨A2_apply c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t) r k,
    A3_apply c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t) r k⟩

/-- What any other point leaves, over what the point before left. -/
theorem step_B (c : Dev nD) (t : Fin cfg0.N) (h0 : ¬t.val % 8 = 0) (r : Fin 8) (k : Fin 64) :
    (outsAt0 V c t.val t.isLt).1 (ix2 r k)
        = (outsAt0 V c (t.val - 1) (Nat.lt_of_le_of_lt (Nat.sub_le _ _) t.isLt)).1 (ix2 r k) + M1 V c t.val k
      ∧ (outsAt0 V c t.val t.isLt).2 (ix2 r k)
        = (outsAt0 V c (t.val - 1) (Nat.lt_of_le_of_lt (Nat.sub_le _ _) t.isLt)).2 (ix2 r k) + M2 V c t.val k := by
  rw [outsAt0_B V c t h0, M1_of_lt V c t.val t.isLt k, M2_of_lt V c t.val t.isLt k]
  dsimp only
  exact ⟨B2_apply c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2 r k,
    B3_apply c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2 r k⟩

/-- After point n the two blocks hold, in every row, the sums of the column sums (of squares) of the points of the
    current run of eight, n - n % 8 up to n. -/
theorem outsAt_eq (c : Dev nD) : ∀ (n : ℕ) (h : n < cfg0.N) (r : Fin 8) (k : Fin 64),
    (outsAt0 V c n h).1 (ix2 r k) = ∑ s ∈ Finset.range (n % 8 + 1), M1 V c (n - n % 8 + s) k
      ∧ (outsAt0 V c n h).2 (ix2 r k) = ∑ s ∈ Finset.range (n % 8 + 1), M2 V c (n - n % 8 + s) k
  | 0, h, r, k => by
    obtain ⟨e1, e2⟩ := step_A V c ⟨0, h⟩ rfl r k
    refine ⟨e1.trans ?_, e2.trans ?_⟩
    · show M1 V c 0 k = ∑ s ∈ Finset.range 1, M1 V c (0 + s) k
      rw [Finset.sum_range_one]
    · show M2 V c 0 k = ∑ s ∈ Finset.range 1, M2 V c (0 + s) k
      rw [Finset.sum_range_one]
  | n + 1, h, r, k => by
    by_cases h0 : (n + 1) % 8 = 0
    · obtain ⟨e1, e2⟩ := step_A V c ⟨n + 1, h⟩ h0 r k
      refine ⟨e1.trans ?_, e2.trans ?_⟩
      · show M1 V c (n + 1) k = _
        rw [h0, Finset.sum_range_one]
        rfl
      · show M2 V c (n + 1) k = _
        rw [h0, Finset.sum_range_one]
        rfl
    · obtain ⟨e1, e2⟩ := step_B V c ⟨n + 1, h⟩ h0 r k
      obtain ⟨i1, i2⟩ := outsAt_eq c n (Nat.lt_of_succ_lt h) r k
      have hm : (n + 1) % 8 = n % 8 + 1 := by omega
      have hb : n + 1 - (n % 8 + 1) = n - n % 8 := by omega
      have hn : n - n % 8 + (n % 8 + 1) = n + 1 := by omega
      refine ⟨e1.trans ?_, e2.trans ?_⟩
      · show (outsAt0 V c n _).1 (ix2 r k) + M1 V c (n + 1) k = _
        rw [hm, hb, Finset.sum_range_succ, ← i1, hn]
      · show (outsAt0 V c n _).2 (ix2 r k) + M2 V c (n + 1) k = _
        rw [hm, hb, Finset.sum_range_succ, ← i2, hn]

end Acc

/-! ## The two result arrays after the region -/

section Final
variable (V : (c : Dev nD) → (b : Ref sig .tc) → Buf (Elt Ideal) ((c : Thread nD τ).loc b))

/-- An inner product of a row with a column, with the entries named. -/
theorem rowDot_congr (x : Vec Ideal S4096x512 .f32) (w : Vec Ideal S512x64 .f32) (q : Fin 4096) (k : Fin 64)
    (f g : Fin 512 → EReal) (hf : ∀ d, x (ix2 q d) = f d) (hg : ∀ d, w (ix2 d k) = g d) :
    (∑ d : Fin 512, x (ix2 q d) * w (ix2 d k)) = ∑ d : Fin 512, f d * g d :=
  Finset.sum_congr rfl fun d _ => congrArg₂ (fun a b : EReal => a * b) (hf d) (hg d)

/-- Point n's column sum is the sum, over the rows of block n, of the rows' assignments. -/
theorem M1_eq (c : Dev nD) (n : ℕ) (h : n < 16) (k : Fin 64) :
    M1 V c n k = ∑ q : Fin 4096,
      Cert.Vlad.asg (XF V c) (CL V c) ⟨n * 4096 + q.val, by have := q.isLt; omega⟩ k := by
  have hN : n < cfg0.N := lt_of_lt_of_eq h N_0.symm
  refine (M1_of_lt V c n hN k).trans ?_
  refine Finset.sum_congr rfl fun q _ => ?_
  show _ = ∑ d : Fin 512, XF V c ⟨n * 4096 + q.val, _⟩ d * CL V c d k
  refine Finset.sum_congr rfl fun d _ => ?_
  exact congrArg₂ (fun a b : EReal => a * b) (iblk0_0_apply V c ⟨n, hN⟩ q d) (iblk0_1_apply V c ⟨n, hN⟩ d k)

theorem M2_eq (c : Dev nD) (n : ℕ) (h : n < 16) (k : Fin 64) :
    M2 V c n k = ∑ q : Fin 4096,
      Cert.Vlad.asg (XF V c) (CL V c) ⟨n * 4096 + q.val, by have := q.isLt; omega⟩ k
        * Cert.Vlad.asg (XF V c) (CL V c) ⟨n * 4096 + q.val, by have := q.isLt; omega⟩ k := by
  have hN : n < cfg0.N := lt_of_lt_of_eq h N_0.symm
  refine (M2_of_lt V c n hN k).trans ?_
  refine Finset.sum_congr rfl fun q _ => ?_
  have e := rowDot_congr (iblk0 V c 0 ⟨n, hN⟩) (iblk0 V c 1 ⟨n, hN⟩) q k
    (fun d => XF V c ⟨n * 4096 + q.val, by have := q.isLt; omega⟩ d) (fun d => CL V c d k)
    (fun d => iblk0_0_apply V c ⟨n, hN⟩ q d) (fun d => iblk0_1_apply V c ⟨n, hN⟩ d k)
  exact congrArg₂ (fun a b : EReal => a * b) e e

/-- The block index of the two outputs at point t is t / 8 along the rows. -/
theorem index0_2 : ∀ t : Fin cfg0.N, win0_2.index t 0 = t.val / 8 ∧ win0_2.index t 1 = 0 :=
  (by decide +kernel : ∀ t : Fin grid0.N, win0_2.index t 0 = t.val / 8 ∧ win0_2.index t 1 = 0)

theorem index0_3 : ∀ t : Fin cfg0.N, win0_3.index t 0 = t.val / 8 ∧ win0_3.index t 1 = 0 :=
  (by decide +kernel : ∀ t : Fin grid0.N, win0_3.index t 0 = t.val / 8 ∧ win0_3.index t 1 = 0)

/-- What the first result array ends holding: in rows 8 core .. 8 core + 7, the sum of the column sums of the eight
    points 8 core .. 8 core + 7. -/
def G1 (c : Dev nD) : Buf (Elt Ideal) ((c : Thread nD τ).loc main_v2_0) :=
  fun i : S16x64.Idx => (∑ s ∈ Finset.range 8, M1 V c (8 * ((i 0).val / 8) + s) ⟨(i 1).val, (i 1).isLt⟩ : EReal)

def G2 (c : Dev nD) : Buf (Elt Ideal) ((c : Thread nD τ).loc main_v2_1) :=
  fun i : S16x64.Idx => (∑ s ∈ Finset.range 8, M2 V c (8 * ((i 0).val / 8) + s) ⟨(i 1).val, (i 1).isLt⟩ : EReal)

theorem G1_apply (c : Dev nD) (i : S16x64.Idx) (core : ℕ) (k : Fin 64) (h0 : (i 0).val / 8 = core) (h1 : (i 1).val = k.val) :
    G1 V c i = ∑ s ∈ Finset.range 8, M1 V c (8 * core + s) k := by
  subst h0
  obtain rfl : k = ⟨(i 1).val, (i 1).isLt⟩ := Fin.ext h1.symm
  rfl

theorem G2_apply (c : Dev nD) (i : S16x64.Idx) (core : ℕ) (k : Fin 64) (h0 : (i 0).val / 8 = core) (h1 : (i 1).val = k.val) :
    G2 V c i = ∑ s ∈ Finset.range 8, M2 V c (8 * core + s) k := by
  subst h0
  obtain rfl : k = ⟨(i 1).val, (i 1).isLt⟩ := Fin.ext h1.symm
  rfl

/-- What a flushing point (the last of a run of eight) writes back is its block of that array. -/
theorem flushed2_eq (c : Dev nD) (t : Fin cfg0.N) (hf : (cfg0.win 2).flush t = true) :
    (dat0 V c).flushed 2 t = ((cfg0.win 2).blk t).view.read (Elt Ideal) (G1 V c) := by
  have hN : t.val < 16 := lt_of_lt_of_eq t.isLt N_0
  have h7 : t.val % 8 = 7 := (flush0_2 t).mp hf
  have hi := index0_2 t
  show (cfg0.win 2).cut (grid0.coords t) ((dat0 V c).after 2 t) = _
  rw [after0_2]
  funext y
  rw [View.read_apply]
  show (outsAt0 V c t.val t.isLt).1 _ = G1 V c _
  have hy : (cfg0.win 2).xinj (grid0.coords t) y
      = ix2 (⟨(y 0).val, (y 0).isLt⟩ : Fin 8) (⟨(y 1).val, (y 1).isLt⟩ : Fin 64) :=
    funext fun a => by
      match a with
      | ⟨0, _⟩ => rfl
      | ⟨1, _⟩ => rfl
  rw [hy]
  refine ((outsAt_eq V c t.val t.isLt ⟨(y 0).val, (y 0).isLt⟩ ⟨(y 1).val, (y 1).isLt⟩).1).trans ?_
  refine Eq.trans ?_ (G1_apply V c _ (t.val / 8) ⟨(y 1).val, (y 1).isLt⟩ ?h0 ?h1).symm
  case h0 =>
    show (win0_2.index t 0 * 8 + 1 * (y 0).val) / 8 = t.val / 8
    have hy0 : (y 0).val < 8 := (y 0).isLt
    rw [hi.1]; omega
  case h1 =>
    show win0_2.index t 1 * 64 + 1 * (y 1).val = (y 1).val
    rw [hi.2]; omega
  rw [h7, show t.val - 7 = 8 * (t.val / 8) by omega]

theorem flushed3_eq (c : Dev nD) (t : Fin cfg0.N) (hf : (cfg0.win 3).flush t = true) :
    (dat0 V c).flushed 3 t = ((cfg0.win 3).blk t).view.read (Elt Ideal) (G2 V c) := by
  have hN : t.val < 16 := lt_of_lt_of_eq t.isLt N_0
  have h7 : t.val % 8 = 7 := (flush0_3 t).mp hf
  have hi := index0_3 t
  show (cfg0.win 3).cut (grid0.coords t) ((dat0 V c).after 3 t) = _
  rw [after0_3]
  funext y
  rw [View.read_apply]
  show (outsAt0 V c t.val t.isLt).2 _ = G2 V c _
  have hy : (cfg0.win 3).xinj (grid0.coords t) y
      = ix2 (⟨(y 0).val, (y 0).isLt⟩ : Fin 8) (⟨(y 1).val, (y 1).isLt⟩ : Fin 64) :=
    funext fun a => by
      match a with
      | ⟨0, _⟩ => rfl
      | ⟨1, _⟩ => rfl
  rw [hy]
  refine ((outsAt_eq V c t.val t.isLt ⟨(y 0).val, (y 0).isLt⟩ ⟨(y 1).val, (y 1).isLt⟩).2).trans ?_
  refine Eq.trans ?_ (G2_apply V c _ (t.val / 8) ⟨(y 1).val, (y 1).isLt⟩ ?h0 ?h1).symm
  case h0 =>
    show (win0_3.index t 0 * 8 + 1 * (y 0).val) / 8 = t.val / 8
    have hy0 : (y 0).val < 8 := (y 0).isLt
    rw [hi.1]; omega
  case h1 =>
    show win0_3.index t 1 * 64 + 1 * (y 1).val = (y 1).val
    rw [hi.2]; omega
  rw [h7, show t.val - 7 = 8 * (t.val / 8) by omega]

/-- The two flushing points' blocks, rows 0..7 (point 7) and rows 8..15 (point 15), cover the array, so it ends
    holding that function. -/
theorem final2 (c : Dev nD) : (dat0 V c).arrAt 2 cfg0.N = G1 V c :=
  (dat0 V c).arrAt_eq_of_cover 2 (G1 V c) (flushed2_eq V c) fun i => by
    have h1 : (i 1 : Nat) < 64 := (i 1).isLt
    have h0 : (i 0 : Nat) < 16 := (i 0).isLt
    by_cases hlo : (i 0 : Nat) < 8
    · refine ⟨t0_7, (flush0_2 t0_7).mpr rfl, ?_⟩
      show i ∈ ((View.whole main_v2_0).slice (win0_2.rect t0_7)).set
      rw [View.set_slice_whole, Rect.mem_set_unit]
      intro a
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 8 from by decide +kernel]
        omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 64 from by decide +kernel]
        omega
    · refine ⟨t0_15, (flush0_2 t0_15).mpr rfl, ?_⟩
      show i ∈ ((View.whole main_v2_0).slice (win0_2.rect t0_15)).set
      rw [View.set_slice_whole, Rect.mem_set_unit]
      intro a
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 8 from by decide +kernel,
          show win0_2.xsize (grid0.coords t0_15) 0 = 8 from by decide +kernel]
        omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 64 from by decide +kernel]
        omega

theorem final3 (c : Dev nD) : (dat0 V c).arrAt 3 cfg0.N = G2 V c :=
  (dat0 V c).arrAt_eq_of_cover 3 (G2 V c) (flushed3_eq V c) fun i => by
    have h1 : (i 1 : Nat) < 64 := (i 1).isLt
    have h0 : (i 0 : Nat) < 16 := (i 0).isLt
    by_cases hlo : (i 0 : Nat) < 8
    · refine ⟨t0_7, (flush0_3 t0_7).mpr rfl, ?_⟩
      show i ∈ ((View.whole main_v2_1).slice (win0_3.rect t0_7)).set
      rw [View.set_slice_whole, Rect.mem_set_unit]
      intro a
      match a with
      | ⟨0, _⟩ =>
        show win0_3.index t0_7 0 * win0_3.size 0 ≤ (i 0 : Nat)
          ∧ (i 0 : Nat) < win0_3.index t0_7 0 * win0_3.size 0 + win0_3.xsize (grid0.coords t0_7) 0
        rw [show win0_3.index t0_7 0 * win0_3.size 0 = 0 from by decide +kernel,
          show win0_3.xsize (grid0.coords t0_7) 0 = 8 from by decide +kernel]
        omega
      | ⟨1, _⟩ =>
        show win0_3.index t0_7 1 * win0_3.size 1 ≤ (i 1 : Nat)
          ∧ (i 1 : Nat) < win0_3.index t0_7 1 * win0_3.size 1 + win0_3.xsize (grid0.coords t0_7) 1
        rw [show win0_3.index t0_7 1 * win0_3.size 1 = 0 from by decide +kernel,
          show win0_3.xsize (grid0.coords t0_7) 1 = 64 from by decide +kernel]
        omega
    · refine ⟨t0_15, (flush0_3 t0_15).mpr rfl, ?_⟩
      show i ∈ ((View.whole main_v2_1).slice (win0_3.rect t0_15)).set
      rw [View.set_slice_whole, Rect.mem_set_unit]
      intro a
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 8 from by decide +kernel,
          show win0_3.xsize (grid0.coords t0_15) 0 = 8 from by decide +kernel]
        omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 64 from by decide +kernel]
        omega

/-- Row 8 core of the first result array, at column k: the sum of the assignments of the rows of the eight blocks
    8 core .. 8 core + 7. -/
theorem stats_sum (c : Dev nD) (core : Fin 2) (k : Fin 64) :
    (dat0 (F := Ideal) V c).arrAt 2 cfg0.N (ix2 (⟨8 * core.val, by have := core.isLt; omega⟩ : Fin 16) k)
      = ∑ s : Fin 8, ∑ q : Fin 4096, Cert.Vlad.asg (XF V c) (CL V c)
          ⟨(8 * core.val + s.val) * 4096 + q.val, by have := core.isLt; have := s.isLt; have := q.isLt; omega⟩ k := by
  have hc := core.isLt
  refine (congrFun (final2 V c) _).trans ?_
  refine (G1_apply V c _ core.val k ?_ rfl).trans ?_
  · show 8 * core.val / 8 = core.val
    omega
  refine (Finset.sum_range (fun s => M1 V c (8 * core.val + s) k)).trans ?_
  refine Finset.sum_congr rfl fun s _ => ?_
  exact M1_eq V c (8 * core.val + s.val) (by have := s.isLt; omega) k

/-- The same row of the second result array: the sum of the squared assignments. -/
theorem stats_sumsq (c : Dev nD) (core : Fin 2) (k : Fin 64) :
    (dat0 (F := Ideal) V c).arrAt 3 cfg0.N (ix2 (⟨8 * core.val, by have := core.isLt; omega⟩ : Fin 16) k)
      = ∑ s : Fin 8, ∑ q : Fin 4096,
          Cert.Vlad.asg (XF V c) (CL V c)
            ⟨(8 * core.val + s.val) * 4096 + q.val, by have := core.isLt; have := s.isLt; have := q.isLt; omega⟩ k
          * Cert.Vlad.asg (XF V c) (CL V c)
            ⟨(8 * core.val + s.val) * 4096 + q.val, by have := core.isLt; have := s.isLt; have := q.isLt; omega⟩ k := by
  have hc := core.isLt
  refine (congrFun (final3 V c) _).trans ?_
  refine (G2_apply V c _ core.val k ?_ rfl).trans ?_
  · show 8 * core.val / 8 = core.val
    omega
  refine (Finset.sum_range (fun s => M2 V c (8 * core.val + s) k)).trans ?_
  refine Finset.sum_congr rfl fun s _ => ?_
  exact M2_eq V c (8 * core.val + s.val) (by have := s.isLt; omega) k

end Final

end Cert.KernelIdeal.VladStats

end
-- ==== Proof.VladStatsSum.lean ====
/-
  Sixteen consecutive blocks of 4096 rows, grouped as two runs of eight blocks, are the 65536 rows.

  A sum over all rows r of a family f is the sum, over the block t and the position q inside the block, of f at row
  t * 4096 + q; the blocks themselves are numbered 8 * core + s by a pair (core, s).  Both facts are the re-indexing
  of a finite sum along the bijection (i, j) ↦ i * b + j between pairs and a product range; no sum is evaluated.
-/
import Mathlib.Algebra.BigOperators.Fin

namespace Cert.Vlad.Blocks

open scoped BigOperators

/-- Position j of block i, among a * b consecutive positions. -/
theorem pos_lt {a b : ℕ} (i : Fin a) (j : Fin b) : i.val * b + j.val < a * b := by
  have h1 : i.val * b + j.val < (i.val + 1) * b := by
    rw [Nat.add_mul, Nat.one_mul]
    exact Nat.add_lt_add_left j.isLt _
  exact lt_of_lt_of_le h1 (Nat.mul_le_mul_right b i.isLt)

/-- A sum over n = a * b positions is the sum over the blocks of the sums inside each block. -/
theorem sum_blocks {M : Type*} [AddCommMonoid M] {a b n : ℕ} (h : a * b = n) (f : Fin n → M) :
    ∑ r : Fin n, f r = ∑ i : Fin a, ∑ j : Fin b, f ⟨i.val * b + j.val, h ▸ pos_lt i j⟩ := by
  subst h
  rw [← finProdFinEquiv.sum_comp, Fintype.sum_prod_type]
  refine Finset.sum_congr rfl fun i _ => Finset.sum_congr rfl fun j _ => congrArg f (Fin.ext ?_)
  show j.val + b * i.val = i.val * b + j.val
  rw [Nat.mul_comm, Nat.add_comm]

/-- The rows of all sixteen blocks, the blocks numbered 8 * core + s. -/
theorem cores_sum {M : Type*} [AddCommMonoid M] (f : Fin 65536 → M) :
    ∑ core : Fin 2, ∑ s : Fin 8, ∑ q : Fin 4096,
        f ⟨(8 * core.val + s.val) * 4096 + q.val, by have := core.isLt; have := s.isLt; have := q.isLt; omega⟩
      = ∑ r : Fin 65536, f r := by
  refine Eq.symm ((sum_blocks (a := 16) (b := 4096) rfl f).trans ?_)
  refine (sum_blocks (a := 2) (b := 8) rfl (fun t : Fin 16 => ∑ q : Fin 4096,
    f ⟨t.val * 4096 + q.val, by have := t.isLt; have := q.isLt; omega⟩)).trans ?_
  refine Finset.sum_congr rfl fun core _ => Finset.sum_congr rfl fun s _ => Finset.sum_congr rfl fun q _ =>
    congrArg f (Fin.ext ?_)
  show (core.val * 8 + s.val) * 4096 + q.val = (8 * core.val + s.val) * 4096 + q.val
  rw [Nat.mul_comm 8 core.val]

/-- The same with the two runs written out. -/
theorem two_cores_sum {M : Type*} [AddCommMonoid M] (f : Fin 65536 → M) :
    (∑ s : Fin 8, ∑ q : Fin 4096,
        f ⟨(8 * (0 : Fin 2).val + s.val) * 4096 + q.val, by have := s.isLt; have := q.isLt; simp only [Fin.val_zero]; omega⟩)
      + (∑ s : Fin 8, ∑ q : Fin 4096,
        f ⟨(8 * (1 : Fin 2).val + s.val) * 4096 + q.val, by have := s.isLt; have := q.isLt; simp only [Fin.val_one]; omega⟩)
      = ∑ r : Fin 65536, f r := by
  rw [← cores_sum f, Fin.sum_univ_two]

end Cert.Vlad.Blocks
-- ==== Proof.KerValue.lean ====
/-
  The kernel program's result at (b, j), j = d * 64 + k.  The closing reshape reads the second kernel's output at
  (b, d, k); that is what grid point b's body leaves at (0, d, k) from batch b of the descriptors, the cluster
  matrices and the scale and shift vectors; the body's value is the per-batch result of the specification over the
  folded normalisation of the batch's assignments.
-/
import proofs.«150116_j36146444763171_2_alg».proof.Proof.KerRun
import proofs.«150116_j36146444763171_2_alg».proof.Proof.KerHost
import proofs.«150116_j36146444763171_2_alg».proof.Proof.KerVlad
import proofs.«150116_j36146444763171_2_alg».proof.Proof.KerGlue
import proofs.«150116_j36146444763171_2_alg».proof.Proof.VladBlock
import proofs.«150116_j36146444763171_2_alg».proof.Proof.KerGlueStats
import proofs.«150116_j36146444763171_2_alg».proof.Proof.VladStats
import proofs.«150116_j36146444763171_2_alg».proof.Proof.VladStatsSum

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The result buffer at (b, j) is the second kernel's body at point b, read at (0, j / 64, j % 64). -/
theorem v26_point (c : Dev nD) (b : Fin 64) (j : Fin 32768) :
    W5 m ρ c (Proc.devRef .tc main_v26) (ix2 b j)
      = out1_5 (KerVlad.batch (V3 m ρ) c b) (V3 m ρ c main_arg1) (V3 m ρ c main_v0) (V3 m ρ c main_v22) (V3 m ρ c main_v24)
          (ix3 (0 : Fin 1) (⟨j.val / 64, by omega⟩ : Fin 512) (⟨j.val % 64, Nat.mod_lt _ (by norm_num)⟩ : Fin 64)) := by
  refine (KerGlue.result_apply (W4 m ρ c) b j).trans ?_
  refine (congrFun (W4_arr m ρ c 5) _).trans ?_
  rw [KerVlad.final (V3 m ρ) c]
  exact KerVlad.arr_at (V3 m ρ) c b _ _ _ rfl rfl rfl

/-- The five argument arrays as the program is launched with them. -/
abbrev aX (c : Dev nD) : (⟨3, ![64, 1024, 512]⟩ : Shape).Idx → EReal := m ((c : Thread nD τ).loc main_arg0)
abbrev aC (c : Dev nD) : (⟨2, ![512, 64]⟩ : Shape).Idx → EReal := m ((c : Thread nD τ).loc main_arg1)
abbrev aC2 (c : Dev nD) : (⟨3, ![1, 512, 64]⟩ : Shape).Idx → EReal := m ((c : Thread nD τ).loc main_arg2)
abbrev aG (c : Dev nD) : (⟨1, ![64]⟩ : Shape).Idx → EReal := m ((c : Thread nD τ).loc main_arg3)
abbrev aB (c : Dev nD) : (⟨1, ![64]⟩ : Shape).Idx → EReal := m ((c : Thread nD τ).loc main_arg4)

/-- Batch b of the descriptors at the second kernel's entry is batch b of the argument. -/
theorem batch_eq (c : Dev nD) (b : Fin 64) :
    (fun (i : Fin 1024) (d' : Fin 512) => KerVlad.batch (V3 m ρ) c b (ix3 (0 : Fin 1) i d')) = Cert.Vlad.cur3 (aX m c) b :=
  funext fun i => funext fun d' => congrFun (KerHost.W3_arg0 m ρ c) (ix3 b i d')

/-- The reshaped second cluster matrix at the second kernel's entry. -/
theorem c2_eq (c : Dev nD) :
    (fun (d' : Fin 512) (k' : Fin 64) => V3 m ρ c main_v0 (ix2 d' k')) = Cert.Vlad.cur2u (aC2 m c) :=
  funext fun d' => funext fun k' => (congrFun (KerHost.W3_v0 m ρ c) (ix2 d' k')).trans (KerGlue.c2_apply (W0 m ρ c) d' k')

/-- The assignment of row i of batch b computed from the batch's block. -/
theorem asg_eq (c : Dev nD) (b : Fin 64) (i : Fin 1024) (k' : Fin 64) :
    (∑ d' : Fin 512, KerVlad.batch (V3 m ρ) c b (ix3 (0 : Fin 1) i d') * V3 m ρ c main_arg1 (ix2 d' k'))
      = Cert.Vlad.asgOf (aX m c) (aC m c) (Cert.Vlad.row b i) k' := by
  unfold Cert.Vlad.asgOf Cert.Vlad.asg
  refine Finset.sum_congr rfl fun d' _ => ?_
  rw [Cert.Vlad.flat_row]
  exact congrArg₂ (· * ·) (congrFun (KerHost.W3_arg0 m ρ c) (ix3 b i d')) (congrFun (KerHost.W3_arg1 m ρ c) (ix2 d' k'))

/-- The body's value at point b, given the scale and shift vectors the second kernel finds. -/
theorem point_value (c : Dev nD) (b : Fin 64) (d : Fin 512) (k : Fin 64)
    (hsc : ∀ k', V3 m ρ c main_v22 (ix1 k') = Cert.Vlad.scaleF (Cert.Vlad.asgOf (aX m c) (aC m c)) (Cert.Vlad.cur1 (aG m c)) k')
    (hsh : ∀ k', V3 m ρ c main_v24 (ix1 k') = Cert.Vlad.shiftF (Cert.Vlad.asgOf (aX m c) (aC m c)) (Cert.Vlad.cur1 (aG m c)) (Cert.Vlad.cur1 (aB m c)) k') :
    out1_5 (KerVlad.batch (V3 m ρ) c b) (V3 m ρ c main_arg1) (V3 m ρ c main_v0) (V3 m ρ c main_v22) (V3 m ρ c main_v24) (ix3 (0 : Fin 1) d k)
      = Cert.Vlad.out (Cert.Vlad.cur3 (aX m c)) (Cert.Vlad.cur2u (aC2 m c))
          (Cert.Vlad.nrmF (Cert.Vlad.asgOf (aX m c) (aC m c)) (Cert.Vlad.cur1 (aG m c)) (Cert.Vlad.cur1 (aB m c))) b d k := by
  rw [VladBlock.out1_5_apply, batch_eq m ρ c b, c2_eq m ρ c]
  unfold Cert.Vlad.out
  refine congrArg (fun n => Cert.Vlad.outB (Cert.Vlad.cur3 (aX m c) b) (Cert.Vlad.cur2u (aC2 m c)) n d k) ?_
  funext i k'
  have ha := asg_eq m ρ c b i k'
  unfold Cert.Vlad.nrmF
  rw [ha, hsc k', hsh k']

/-! ## The first kernel's sums, and the scale and shift vectors -/

/-- The assignments the first kernel computes from what it finds are the assignments of the arguments: the
    flattened descriptors written before it are the argument's rows, the cluster matrix is the argument. -/
theorem stats_asg (c : Dev nD) :
    Cert.Vlad.asg (VladStats.XF (V1 m ρ) c) (VladStats.CL (V1 m ρ) c) = Cert.Vlad.asgOf (aX m c) (aC m c) := by
  unfold Cert.Vlad.asgOf
  refine congrArg₂ Cert.Vlad.asg ?_ ?_
  · funext r d
    exact KerGlue.flat_apply (W0 m ρ c) r d
  · funext d k
    exact congrFun (KerHost.W1_arg1 m ρ c) (ix2 d k)

/-- The two partial-sum arrays after the first kernel. -/
abbrev aP (c : Dev nD) : (⟨2, ![16, 64]⟩ : Shape).Idx → EReal := W2 m ρ c (Proc.devRef .tc main_v2_0)
abbrev aQ (c : Dev nD) : (⟨2, ![16, 64]⟩ : Shape).Idx → EReal := W2 m ρ c (Proc.devRef .tc main_v2_1)

/-- Rows 0 and 8 of the first array add up to the column sums of the assignments over all 65536 rows. -/
theorem sum_rows (c : Dev nD) (k : Fin 64) :
    aP m ρ c (ix2 (0 : Fin 16) k) + aP m ρ c (ix2 (8 : Fin 16) k) = ∑ r : Fin 65536, Cert.Vlad.asgOf (aX m c) (aC m c) r k := by
  have h0 : aP m ρ c (ix2 (0 : Fin 16) k) = _ := (congrFun (W2_arr m ρ c 2) _).trans (VladStats.stats_sum (V1 m ρ) c 0 k)
  have h1 : aP m ρ c (ix2 (8 : Fin 16) k) = _ := (congrFun (W2_arr m ρ c 2) _).trans (VladStats.stats_sum (V1 m ρ) c 1 k)
  rw [h0, h1, stats_asg m ρ c]
  exact Cert.Vlad.Blocks.two_cores_sum (fun r => Cert.Vlad.asgOf (aX m c) (aC m c) r k)

/-- Rows 0 and 8 of the second array add up to the column sums of the squared assignments. -/
theorem sumsq_rows (c : Dev nD) (k : Fin 64) :
    aQ m ρ c (ix2 (0 : Fin 16) k) + aQ m ρ c (ix2 (8 : Fin 16) k)
      = ∑ r : Fin 65536, Cert.Vlad.asgOf (aX m c) (aC m c) r k * Cert.Vlad.asgOf (aX m c) (aC m c) r k := by
  have h0 : aQ m ρ c (ix2 (0 : Fin 16) k) = _ := (congrFun (W2_arr m ρ c 3) _).trans (VladStats.stats_sumsq (V1 m ρ) c 0 k)
  have h1 : aQ m ρ c (ix2 (8 : Fin 16) k) = _ := (congrFun (W2_arr m ρ c 3) _).trans (VladStats.stats_sumsq (V1 m ρ) c 1 k)
  rw [h0, h1, stats_asg m ρ c]
  exact Cert.Vlad.Blocks.two_cores_sum (fun r => Cert.Vlad.asgOf (aX m c) (aC m c) r k * Cert.Vlad.asgOf (aX m c) (aC m c) r k)

/-- The scale vector the second kernel finds. -/
theorem scale_eq (c : Dev nD) (k : Fin 64) :
    V3 m ρ c main_v22 (ix1 k) = Cert.Vlad.scaleF (Cert.Vlad.asgOf (aX m c) (aC m c)) (Cert.Vlad.cur1 (aG m c)) k := by
  refine (KerGlue.scale_apply (W2 m ρ c) (aP m ρ c) (aQ m ρ c) (aG m c) rfl rfl (KerHost.W2_arg3 m ρ c) k).trans ?_
  rw [sum_rows m ρ c k, sumsq_rows m ρ c k]
  rfl

/-- The shift vector the second kernel finds. -/
theorem shift_eq (c : Dev nD) (k : Fin 64) :
    V3 m ρ c main_v24 (ix1 k)
      = Cert.Vlad.shiftF (Cert.Vlad.asgOf (aX m c) (aC m c)) (Cert.Vlad.cur1 (aG m c)) (Cert.Vlad.cur1 (aB m c)) k := by
  refine (KerGlue.shift_apply (W2 m ρ c) (aP m ρ c) (aQ m ρ c) (aG m c) rfl rfl (KerHost.W2_arg3 m ρ c) (aB m c) (KerHost.W2_arg4 m ρ c) k).trans ?_
  rw [sum_rows m ρ c k, sumsq_rows m ρ c k]
  rfl

/-- THE KERNEL PROGRAM'S RESULT at (b, j): the specification's result with the folded normalisation. -/
theorem value_apply (c : Dev nD) (b : Fin 64) (j : Fin 32768) :
    W5 m ρ c (Proc.devRef .tc main_v26) (ix2 b j)
      = Cert.Vlad.result Cert.Vlad.nrmF (aX m c) (aC m c) (aC2 m c) (aG m c) (aB m c) b j :=
  (v26_point m ρ c b j).trans (point_value m ρ c b _ _ (scale_eq m ρ c) (shift_eq m ρ c))

end Cert.KernelIdeal.KerValue

end
-- ==== Proof.VladFinite.lean ====
/-
  The finiteness precondition, read back: each of the five argument arrays has only real entries.

  The precondition is the conjunction, over the five arrays, of "every entry x satisfies |x| < +∞", each conjunct a
  reduction by `and` of the elementwise comparison over all axes.  A conjunction of one-bit words equal to one has every
  conjunct equal to one; a reduction by `and` equal to one met only ones; and on the extended reals |x| = max x (-x) is
  below +∞ exactly when x is neither infinity, that is, when x is a real number.
-/
import proofs.«150116_j36146444763171_2_alg».proof.Defs
import proofs.«150116_j36146444763171_2_alg».proof.Proof.Gen.Pre_finite_inputs
import proofs.«150116_j36146444763171_2_alg».proof.Proof.Gen.KernelIdeal
import Idealize.ShloMosaic.Lib.ReduceAll
import proofs.«150116_j36146444763171_2_alg».proof.Proof.VladSpec

noncomputable section

namespace Cert.Vlad

open Idealize.ShloMosaic Idealize.ShloMosaic.ValueIdx Idealize.SL.Sem

/-- The rank-0 shape has one index. -/
instance subsingleton_scalar_idx : Subsingleton Cert.Pre_finite_inputs.S_.Idx := ⟨fun a b => funext fun d => d.elim0⟩

/-- The word `0x7F800000` denotes `+∞`: exponent field all ones, significand `0`, sign clear. -/
theorem ofBits_f32_inf : Ideal.ofBits .f32 0x7F800000#32 = (⊤ : EReal) := by
  simp [Ideal.ofBits, Ideal.ieee]

/-- An extended real whose absolute value compares below `+∞` is a real number. -/
theorem real_of_abs_lt_top (x : EReal) (h : Ideal.cmp .olt (max x (-x)) (⊤ : EReal) = 1#1) : ∃ a : ℝ, x = (a : EReal) := by
  induction x using EReal.rec with
  | bot => exact absurd h (by simp [Ideal.cmp])
  | top => exact absurd h (by simp [Ideal.cmp])
  | coe a => exact ⟨a, rfl⟩

/-- A reduction by `and` over all axes of `|x| < +∞` that equals one says every entry of `x` is a real number. -/
theorem all_real {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          init hr hu ix0 = 1#1) :
    ∀ i, ∃ a : ℝ, x i = (a : EReal) := by
  intro i
  have h := Host.reduce_andi_all _ _ hr hu ix0 e i
  refine real_of_abs_lt_top (x i) ?_
  rw [← ofBits_f32_inf]
  exact h

/-- Under the precondition every entry of every argument array is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i : (⟨3, ![64, 1024, 512]⟩ : Shape).Idx, ∃ a : ℝ,
        (m ((c.tc : Thread Cert.KernelIdeal.nD Cert.KernelIdeal.τ).loc Cert.KernelIdeal.main_arg0) :
          (⟨3, ![64, 1024, 512]⟩ : Shape).Idx → EReal) i = (a : EReal))
    ∧ (∀ i : (⟨2, ![512, 64]⟩ : Shape).Idx, ∃ a : ℝ,
        (m ((c.tc : Thread Cert.KernelIdeal.nD Cert.KernelIdeal.τ).loc Cert.KernelIdeal.main_arg1) :
          (⟨2, ![512, 64]⟩ : Shape).Idx → EReal) i = (a : EReal))
    ∧ (∀ i : (⟨3, ![1, 512, 64]⟩ : Shape).Idx, ∃ a : ℝ,
        (m ((c.tc : Thread Cert.KernelIdeal.nD Cert.KernelIdeal.τ).loc Cert.KernelIdeal.main_arg2) :
          (⟨3, ![1, 512, 64]⟩ : Shape).Idx → EReal) i = (a : EReal))
    ∧ (∀ i : (⟨1, ![64]⟩ : Shape).Idx, ∃ a : ℝ,
        (m ((c.tc : Thread Cert.KernelIdeal.nD Cert.KernelIdeal.τ).loc Cert.KernelIdeal.main_arg3) :
          (⟨1, ![64]⟩ : Shape).Idx → EReal) i = (a : EReal))
    ∧ (∀ i : (⟨1, ![64]⟩ : Shape).Idx, ∃ a : ℝ,
        (m ((c.tc : Thread Cert.KernelIdeal.nD Cert.KernelIdeal.τ).loc Cert.KernelIdeal.main_arg4) :
          (⟨1, ![64]⟩ : Shape).Idx → EReal) i = (a : EReal)) := by
  have h0 := congrFun (h c) ix0
  dsimp only [Cert.Pre_finite_inputs.fn, Cert.Pre_finite_inputs.fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ _ _ e0, all_real _ _ _ _ _ e1, all_real _ _ _ _ _ e2, all_real _ _ _ _ _ e3,
    all_real _ _ _ _ _ e4⟩

end Cert.Vlad

end
-- ==== Proof.VladNormOf.lean ====
/-
  The result array with centred batch normalisation equals the result array with folded batch normalisation whenever
  the descriptors, the cluster matrix, the scales and the offsets are real: the assignments are then finite sums of
  products of reals, hence real, and the two normalisations agree on real data.
-/
import proofs.«150116_j36146444763171_2_alg».proof.Proof.VladSpec
import proofs.«150116_j36146444763171_2_alg».proof.Proof.VladNorm

noncomputable section

namespace Cert.Vlad

open Idealize.ShloMosaic Idealize.ShloMosaic.ValueIdx

/-- On real arguments the result does not depend on which of the two forms of batch normalisation is used. -/
theorem result_norm_eq (X : (⟨3, ![64, 1024, 512]⟩ : Shape).Idx → EReal) (C : (⟨2, ![512, 64]⟩ : Shape).Idx → EReal)
    (C2 : (⟨3, ![1, 512, 64]⟩ : Shape).Idx → EReal) (G B : (⟨1, ![64]⟩ : Shape).Idx → EReal)
    (hX : ∀ i, ∃ a : ℝ, X i = a) (hC : ∀ i, ∃ a : ℝ, C i = a) (hG : ∀ i, ∃ a : ℝ, G i = a)
    (hB : ∀ i, ∃ a : ℝ, B i = a) : result nrmC X C C2 G B = result nrmF X C C2 G B := by
  have hA : ∀ r k, ∃ a : ℝ, asgOf X C r k = a :=
    asg_real (xf := flat (cur3 X)) (cl := cur2 C) (fun r d => hX _) (fun d k => hC _)
  have hn : nrmC (asgOf X C) (cur1 G) (cur1 B) = nrmF (asgOf X C) (cur1 G) (cur1 B) :=
    nrm_eq _ _ _ hA (fun k => hG _) (fun k => hB _)
  unfold result
  rw [hn]

end Cert.Vlad

end
-- ==== Proof.lean ====
/-
  NetVLAD pooling with a batch-normalised soft assignment: a kernel program of two pipelined kernels against its
  plain reference.

  Both programs flatten the descriptors to 65536 rows, form the assignments (rows times the cluster matrix), batch-
  normalise them per cluster with statistics over ALL rows, pass each row through a softmax, and per batch subtract
  from the soft-weighted sum of the descriptors the summed weights times a second cluster matrix, dividing the
  residual by its Euclidean norm bounded below.  They differ in the normalisation.  The reference centres:
  ((a - mean) * rsqrt (var + eps)) * gamma + beta, the variance the mean of squared deviations.  The kernel program
  accumulates, in its first kernel, the column sums of the assignments and of their squares (two partial sums of
  eight row blocks each, added on the host), takes the variance as mean of squares minus squared mean, and folds the
  affine map into a * scale + shift, which its second kernel applies batch by batch.  On the extended reals the two
  normalisations agree when every entry is a real number — the precondition — because then the two variances are one
  nonnegative real, var + eps is positive and its reciprocal square root a real, and the affine maps agree by
  distributivity.  Everything downstream is the same function of the normalised assignments, and sums taken in
  another grouping (row blocks, lanes then rows against one flat sum) are equal in any commutative monoid.

  The three frames: the two kernel programs' are the generated frame proofs; the reference's is its run with the
  result dropped.  The idealisation rewrote nothing, so nothing is owed for it.
-/
import proofs.«150116_j36146444763171_2_alg».proof.Defs
import proofs.«150116_j36146444763171_2_alg».proof.Proof.Gen.Kernel
import proofs.«150116_j36146444763171_2_alg».proof.Proof.Gen.Kernel.Frame
import proofs.«150116_j36146444763171_2_alg».proof.Proof.Gen.KernelIdeal
import proofs.«150116_j36146444763171_2_alg».proof.Proof.Gen.KernelIdeal.Frame
import proofs.«150116_j36146444763171_2_alg».proof.Proof.Gen.ReferenceIdeal
import proofs.«150116_j36146444763171_2_alg».proof.Proof.Gen.Pre_finite_inputs
import proofs.«150116_j36146444763171_2_alg».proof.Proof.RefOut
import proofs.«150116_j36146444763171_2_alg».proof.Proof.RefRead
import proofs.«150116_j36146444763171_2_alg».proof.Proof.KerValue
import proofs.«150116_j36146444763171_2_alg».proof.Proof.VladFinite
import proofs.«150116_j36146444763171_2_alg».proof.Proof.VladNormOf

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

/-- Under the precondition both programs end with the specification's result at every (b, j): the kernel program
    with the folded normalisation, the reference with the centred one, and the two are one function when every
    argument entry is real. -/
theorem algebraic : Cert.algebraic_KernelIdeal_ReferenceIdeal := by
  intro m ρ m' ρ' hpre hagree
  refine ⟨fun c => Cert.KernelIdeal.Gen.W5 m ρ c (Proc.devRef .tc Cert.KernelIdeal.main_v26),
    Cert.KernelIdeal.KerRun.run_fold m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  funext i
  obtain ⟨b, j, rfl⟩ : ∃ (b : Fin 64) (j : Fin 32768), i = ix2 b j := ⟨i 0, i 1, eq_ix2 i⟩
  obtain ⟨h0, h1, -, h3, h4⟩ := Cert.Vlad.real_of_pre m hpre c
  refine (Cert.ReferenceIdeal.RefValue.refTerm_apply _ _ _ _ _ b j).trans ?_
  refine Eq.trans ?_ (Cert.KernelIdeal.KerValue.value_apply m ρ c b j).symm
  exact congrFun (congrFun (Cert.Vlad.result_norm_eq _ _ _ _ _ h0 h1 h3 h4) b) j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
